-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v74)) (v1 : (c : Dev Cert.KernelIdeal.nD) → Buf (Elt Ideal) ((c.tc : Thread Cert.KernelIdeal.nD Cert.KernelIdeal.τ).loc Cert.KernelIdeal.main_v106)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v74) = v0 c
          ∧ r.2.mem ((c.tc : Thread Cert.KernelIdeal.nD Cert.KernelIdeal.τ).loc Cert.KernelIdeal.main_v106) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v96) = v0 c
          ∧ r.2.mem ((c.tc : Thread Cert.ReferenceIdeal.nD Cert.ReferenceIdeal.τ).loc Cert.ReferenceIdeal.main_v144) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x256 : Shape := ⟨2, ![100000, 256]⟩
abbrev S2x3200000 : Shape := ⟨2, ![2, 3200000]⟩
abbrev S256x32 : Shape := ⟨2, ![256, 32]⟩
abbrev S32 : Shape := ⟨1, ![32]⟩
abbrev S32x16 : Shape := ⟨2, ![32, 16]⟩
abbrev S16 : Shape := ⟨1, ![16]⟩
abbrev S_ : Shape := ⟨0, ![]⟩

class Facts : Prop where
  bcast_S_S100000x256 : S_.BroadcastsInDim S100000x256 (![] : Fin 0 → Fin S100000x256.rank)
  reducesTo_S100000x256_S_d0_1 : S100000x256.ReducesTo [0, 1] S_
  h_S_ : 0 < S_.numel
  bcast_S_S256x32 : S_.BroadcastsInDim S256x32 (![] : Fin 0 → Fin S256x32.rank)
  reducesTo_S256x32_S_d0_1 : S256x32.ReducesTo [0, 1] S_
  bcast_S_S32 : S_.BroadcastsInDim S32 (![] : Fin 0 → Fin S32.rank)
  reducesTo_S32_S_d0 : S32.ReducesTo [0] S_
  bcast_S_S32x16 : S_.BroadcastsInDim S32x16 (![] : Fin 0 → Fin S32x16.rank)
  reducesTo_S32x16_S_d0_1 : S32x16.ReducesTo [0, 1] S_
  bcast_S_S16 : S_.BroadcastsInDim S16 (![] : Fin 0 → Fin S16.rank)
  reducesTo_S16_S_d0 : S16.ReducesTo [0] S_

variable [Facts]

def fn_part1 {F : FTy → Type} [FloatOps F] (main_arg5 : FVec F S16 .f32) (main_arg6 : FVec F S32x16 .f32) (main_arg7 : FVec F S16 .f32) (main_v13 : IVec S_ 1) (main_v16 : IVec S32x16 1) : IVec S_ 1 :=
  let main_c_5 : IVec S_ 1 := constantI S_ 1 1#1
  let main_v17 : IVec S_ 1 := (fun x v => Host.reduce IntOp.andi x v reducesTo_S32x16_S_d0_1 h_S_) main_v16 main_c_5
  let main_v18 : IVec S_ 1 := andi main_v13 main_v17
  let main_v19 : FVec F S16 .f32 := Host.absf main_arg5
  let main_cst_6 : FVec F S_ .f32 := constant S_ .f32 0x7F800000#32
  let main_v20 : FVec F S16 .f32 := broadcastInDim S16 ![] bcast_S_S16 main_cst_6
  let main_v21 : IVec S16 1 := cmpf .olt main_v19 main_v20
  let main_c_7 : IVec S_ 1 := constantI S_ 1 1#1
  let main_v22 : IVec S_ 1 := (fun x v => Host.reduce IntOp.andi x v reducesTo_S16_S_d0 h_S_) main_v21 main_c_7
  let main_v23 : IVec S_ 1 := andi main_v18 main_v22
  let main_v24 : FVec F S32x16 .f32 := Host.absf main_arg6
  let main_cst_8 : FVec F S_ .f32 := constant S_ .f32 0x7F800000#32
  let main_v25 : FVec F S32x16 .f32 := broadcastInDim S32x16 ![] bcast_S_S32x16 main_cst_8
  let main_v26 : IVec S32x16 1 := cmpf .olt main_v24 main_v25
  let main_c_9 : IVec S_ 1 := constantI S_ 1 1#1
  let main_v27 : IVec S_ 1 := (fun x v => Host.reduce IntOp.andi x v reducesTo_S32x16_S_d0_1 h_S_) main_v26 main_c_9
  let main_v28 : IVec S_ 1 := andi main_v23 main_v27
  let main_v29 : FVec F S16 .f32 := Host.absf main_arg7
  let main_cst_10 : FVec F S_ .f32 := constant S_ .f32 0x7F800000#32
  let main_v30 : FVec F S16 .f32 := broadcastInDim S16 ![] bcast_S_S16 main_cst_10
  let main_v31 : IVec S16 1 := cmpf .olt main_v29 main_v30
  let main_c_11 : IVec S_ 1 := constantI S_ 1 1#1
  let main_v32 : IVec S_ 1 := (fun x v => Host.reduce IntOp.andi x v reducesTo_S16_S_d0 h_S_) main_v31 main_c_11
  let main_v33 : IVec S_ 1 := andi main_v28 main_v32
  main_v33

def fn {F : FTy → Type} [FloatOps F] (main_arg0 : FVec F S100000x256 .f32) (main_arg1 : IVec S2x3200000 32) (main_arg2 : FVec F S256x32 .f32) (main_arg3 : FVec F S32 .f32) (main_arg4 : FVec F S32x16 .f32) (main_arg5 : FVec F S16 .f32) (main_arg6 : FVec F S32x16 .f32) (main_arg7 : FVec F S16 .f32) : IVec S_ 1 :=
  let main_v0 : FVec F S100000x256 .f32 := Host.absf main_arg0
  let main_cst : FVec F S_ .f32 := constant S_ .f32 0x7F800000#32
  let main_v1 : FVec F S100000x256 .f32 := broadcastInDim S100000x256 ![] bcast_S_S100000x256 main_cst
  let main_v2 : IVec S100000x256 1 := cmpf .olt main_v0 main_v1
  let main_c : IVec S_ 1 := constantI S_ 1 1#1
  let main_v3 : IVec S_ 1 := (fun x v => Host.reduce IntOp.andi x v reducesTo_S100000x256_S_d0_1 h_S_) main_v2 main_c
  let main_v4 : FVec F S256x32 .f32 := Host.absf main_arg2
  let main_cst_0 : FVec F S_ .f32 := constant S_ .f32 0x7F800000#32
  let main_v5 : FVec F S256x32 .f32 := broadcastInDim S256x32 ![] bcast_S_S256x32 main_cst_0
  let main_v6 : IVec S256x32 1 := cmpf .olt main_v4 main_v5
  let main_c_1 : IVec S_ 1 := constantI S_ 1 1#1
  let main_v7 : IVec S_ 1 := (fun x v => Host.reduce IntOp.andi x v reducesTo_S256x32_S_d0_1 h_S_) main_v6 main_c_1
  let main_v8 : IVec S_ 1 := andi main_v3 main_v7
  let main_v9 : FVec F S32 .f32 := Host.absf main_arg3
  let main_cst_2 : FVec F S_ .f32 := constant S_ .f32 0x7F800000#32
  let main_v10 : FVec F S32 .f32 := broadcastInDim S32 ![] bcast_S_S32 main_cst_2
  let main_v11 : IVec S32 1 := cmpf .olt main_v9 main_v10
  let main_c_3 : IVec S_ 1 := constantI S_ 1 1#1
  let main_v12 : IVec S_ 1 := (fun x v => Host.reduce IntOp.andi x v reducesTo_S32_S_d0 h_S_) main_v11 main_c_3
  let main_v13 : IVec S_ 1 := andi main_v8 main_v12
  let main_v14 : FVec F S32x16 .f32 := Host.absf main_arg4
  let main_cst_4 : FVec F S_ .f32 := constant S_ .f32 0x7F800000#32
  let main_v15 : FVec F S32x16 .f32 := broadcastInDim S32x16 ![] bcast_S_S32x16 main_cst_4
  let main_v16 : IVec S32x16 1 := cmpf .olt main_v14 main_v15
  fn_part1 (F := F) main_arg5 main_arg6 main_arg7 main_v13 main_v16
-- ==== Kernel.lean ====
abbrev S100000x256 : Shape := ⟨2, ![100000, 256]⟩
abbrev S2x3200000 : Shape := ⟨2, ![2, 3200000]⟩
abbrev S256x32 : Shape := ⟨2, ![256, 32]⟩
abbrev S32 : Shape := ⟨1, ![32]⟩
abbrev S32x16 : Shape := ⟨2, ![32, 16]⟩
abbrev S16 : Shape := ⟨1, ![16]⟩
abbrev S1x3200000 : Shape := ⟨2, ![1, 3200000]⟩
abbrev S3200000 : Shape := ⟨1, ![3200000]⟩
abbrev S_ : Shape := ⟨0, ![]⟩
abbrev S100000 : Shape := ⟨1, ![100000]⟩
abbrev S3200000x1 : Shape := ⟨2, ![3200000, 1]⟩
abbrev S100000x32 : Shape := ⟨2, ![100000, 32]⟩
abbrev S10000x256 : Shape := ⟨2, ![10000, 256]⟩
abbrev S10000x32 : Shape := ⟨2, ![10000, 32]⟩
abbrev S3200000x32 : Shape := ⟨2, ![3200000, 32]⟩
abbrev S100000x1 : Shape := ⟨2, ![100000, 1]⟩
abbrev S1x32 : Shape := ⟨2, ![1, 32]⟩
abbrev S10000x1 : Shape := ⟨2, ![10000, 1]⟩
abbrev S100000x16 : Shape := ⟨2, ![100000, 16]⟩
abbrev S10000x16 : Shape := ⟨2, ![10000, 16]⟩
abbrev S3200000x16 : Shape := ⟨2, ![3200000, 16]⟩
abbrev S1x16 : Shape := ⟨2, ![1, 16]⟩

abbrev nBuf : Space → Nat
  | .hbm => 139
  | .vmem => 42
  | .smem => 0
  | _ => 0

abbrev hbmTy0_0 (i : Nat) : BufTy := match i % 128 with
  | 0 => ⟨S100000x256, .f32⟩
  | 1 => ⟨S2x3200000, .i32⟩
  | 2 => ⟨S256x32, .f32⟩
  | 3 => ⟨S32, .f32⟩
  | 4 => ⟨S32x16, .f32⟩
  | 5 => ⟨S16, .f32⟩
  | 6 => ⟨S32x16, .f32⟩
  | 7 => ⟨S16, .f32⟩
  | 8 => ⟨S1x3200000, .i32⟩
  | 9 => ⟨S3200000, .i32⟩
  | 10 => ⟨S1x3200000, .i32⟩
  | 11 => ⟨S3200000, .i32⟩
  | 12 => ⟨S_, .f32⟩
  | 13 => ⟨S3200000, .f32⟩
  | 14 => ⟨S_, .f32⟩
  | 15 => ⟨S100000, .f32⟩
  | 16 => ⟨S3200000x1, .i32⟩
  | 17 => ⟨S100000, .f32⟩
  | 18 => ⟨S_, .f32⟩
  | 19 => ⟨S100000, .f32⟩
  | 20 => ⟨S100000, .f32⟩
  | 21 => ⟨S100000, .f32⟩
  | 22 => ⟨S100000x32, .f32⟩
  | 23 => ⟨S_, .i32⟩
  | 24 => ⟨S3200000, .i32⟩
  | 25 => ⟨S3200000, .i1⟩
  | 26 => ⟨S_, .i32⟩
  | 27 => ⟨S3200000, .i32⟩
  | 28 => ⟨S3200000, .i32⟩
  | 29 => ⟨S3200000, .i32⟩
  | 30 => ⟨S3200000x1, .i32⟩
  | 31 => ⟨S3200000, .f32⟩
  | 32 => ⟨S_, .i32⟩
  | 33 => ⟨S3200000, .i32⟩
  | 34 => ⟨S3200000, .i1⟩
  | 35 => ⟨S_, .i32⟩
  | 36 => ⟨S3200000, .i32⟩
  | 37 => ⟨S3200000, .i32⟩
  | 38 => ⟨S3200000, .i32⟩
  | 39 => ⟨S3200000x1, .i32⟩
  | 40 => ⟨S3200000, .f32⟩
  | 41 => ⟨S3200000, .f32⟩
  | 42 => ⟨S_, .i32⟩
  | 43 => ⟨S3200000, .i32⟩
  | 44 => ⟨S3200000, .i1⟩
  | 45 => ⟨S_, .i32⟩
  | 46 => ⟨S3200000, .i32⟩
  | 47 => ⟨S3200000, .i32⟩
  | 48 => ⟨S3200000, .i32⟩
  | 49 => ⟨S3200000x1, .i32⟩
  | 50 => ⟨S3200000x32, .f32⟩
  | 51 => ⟨S3200000x1, .f32⟩
  | 52 => ⟨S3200000x32, .f32⟩
  | 53 => ⟨S3200000x32, .f32⟩
  | 54 => ⟨S_, .f32⟩
  | 55 => ⟨S100000x32, .f32⟩
  | 56 => ⟨S3200000x1, .i32⟩
  | 57 => ⟨S100000x32, .f32⟩
  | 58 => ⟨S100000x1, .f32⟩
  | 59 => ⟨S1x32, .f32⟩
  | 60 => ⟨S100000x32, .f32⟩
  | 61 => ⟨S100000x16, .f32⟩
  | 62 => ⟨S_, .i32⟩
  | 63 => ⟨S3200000, .i32⟩
  | 64 => ⟨S3200000, .i1⟩
  | 65 => ⟨S_, .i32⟩
  | 66 => ⟨S3200000, .i32⟩
  | 67 => ⟨S3200000, .i32⟩
  | 68 => ⟨S3200000, .i32⟩
  | 69 => ⟨S3200000x1, .i32⟩
  | 70 => ⟨S3200000, .f32⟩
  | 71 => ⟨S_, .i32⟩
  | 72 => ⟨S3200000, .i32⟩
  | 73 => ⟨S3200000, .i1⟩
  | 74 => ⟨S_, .i32⟩
  | 75 => ⟨S3200000, .i32⟩
  | 76 => ⟨S3200000, .i32⟩
  | 77 => ⟨S3200000, .i32⟩
  | 78 => ⟨S3200000x1, .i32⟩
  | 79 => ⟨S3200000, .f32⟩
  | 80 => ⟨S3200000, .f32⟩
  | 81 => ⟨S_, .i32⟩
  | 82 => ⟨S3200000, .i32⟩
  | 83 => ⟨S3200000, .i1⟩
  | 84 => ⟨S_, .i32⟩
  | 85 => ⟨S3200000, .i32⟩
  | 86 => ⟨S3200000, .i32⟩
  | 87 => ⟨S3200000, .i32⟩
  | 88 => ⟨S3200000x1, .i32⟩
  | 89 => ⟨S3200000x16, .f32⟩
  | 90 => ⟨S3200000x1, .f32⟩
  | 91 => ⟨S3200000x16, .f32⟩
  | 92 => ⟨S3200000x16, .f32⟩
  | 93 => ⟨S_, .f32⟩
  | 94 => ⟨S100000x16, .f32⟩
  | 95 => ⟨S3200000x1, .i32⟩
  | 96 => ⟨S100000x16, .f32⟩
  | 97 => ⟨S100000x1, .f32⟩
  | 98 => ⟨S1x16, .f32⟩
  | 99 => ⟨S100000x16, .f32⟩
  | 100 => ⟨S100000x16, .f32⟩
  | 101 => ⟨S_, .i32⟩
  | 102 => ⟨S3200000, .i32⟩
  | 103 => ⟨S3200000, .i1⟩
  | 104 => ⟨S_, .i32⟩
  | 105 => ⟨S3200000, .i32⟩
  | 106 => ⟨S3200000, .i32⟩
  | 107 => ⟨S3200000, .i32⟩
  | 108 => ⟨S3200000x1, .i32⟩
  | 109 => ⟨S3200000, .f32⟩
  | 110 => ⟨S_, .i32⟩
  | 111 => ⟨S3200000, .i32⟩
  | 112 => ⟨S3200000, .i1⟩
  | 113 => ⟨S_, .i32⟩
  | 114 => ⟨S3200000, .i32⟩
  | 115 => ⟨S3200000, .i32⟩
  | 116 => ⟨S3200000, .i32⟩
  | 117 => ⟨S3200000x1, .i32⟩
  | 118 => ⟨S3200000, .f32⟩
  | 119 => ⟨S3200000, .f32⟩
  | 120 => ⟨S_, .i32⟩
  | 121 => ⟨S3200000, .i32⟩
  | 122 => ⟨S3200000, .i1⟩
  | 123 => ⟨S_, .i32⟩
  | 124 => ⟨S3200000, .i32⟩
  | 125 => ⟨S3200000, .i32⟩
  | 126 => ⟨S3200000, .i32⟩
  | 127 => ⟨S3200000x1, .i32⟩
  | _ => ⟨S100000x256, .f32⟩

abbrev hbmTy0_1 (i : Nat) : BufTy := match i % 128 with
  | 0 => ⟨S3200000x16, .f32⟩
  | 1 => ⟨S3200000x1, .f32⟩
  | 2 => ⟨S3200000x16, .f32⟩
  | 3 => ⟨S3200000x16, .f32⟩
  | 4 => ⟨S_, .f32⟩
  | 5 => ⟨S100000x16, .f32⟩
  | 6 => ⟨S3200000x1, .i32⟩
  | 7 => ⟨S100000x16, .f32⟩
  | 8 => ⟨S100000x1, .f32⟩
  | 9 => ⟨S1x16, .f32⟩
  | 10 => ⟨S100000x16, .f32⟩
  | _ => ⟨S100000x256, .f32⟩

abbrev hbmTy (i : Nat) : BufTy := match i / 128 with
  | 0 => hbmTy0_0 i
  | 1 => hbmTy0_1 i
  | _ => ⟨S100000x256, .f32⟩

abbrev bufTy : (tb : Table) → Fin (tcTables nBuf tb) → BufTy
  | .hbm, ⟨i, _⟩ => hbmTy i
  | .local _ .vmem, ⟨0, _⟩ => ⟨S10000x256, .f32⟩
  | .local _ .vmem, ⟨1, _⟩ => ⟨S10000x256, .f32⟩
  | .local _ .vmem, ⟨2, _⟩ => ⟨S256x32, .f32⟩
  | .local _ .vmem, ⟨3, _⟩ => ⟨S10000x32, .f32⟩
  | .local _ .vmem, ⟨4, _⟩ => ⟨S10000x32, .f32⟩
  | .local _ .vmem, ⟨5, _⟩ => ⟨S10000x32, .f32⟩
  | .local _ .vmem, ⟨6, _⟩ => ⟨S10000x32, .f32⟩
  | .local _ .vmem, ⟨7, _⟩ => ⟨S10000x32, .f32⟩
  | .local _ .vmem, ⟨8, _⟩ => ⟨S10000x32, .f32⟩
  | .local _ .vmem, ⟨9, _⟩ => ⟨S10000x1, .f32⟩
  | .local _ .vmem, ⟨10, _⟩ => ⟨S10000x1, .f32⟩
  | .local _ .vmem, ⟨11, _⟩ => ⟨S1x32, .f32⟩
  | .local _ .vmem, ⟨12, _⟩ => ⟨S10000x32, .f32⟩
  | .local _ .vmem, ⟨13, _⟩ => ⟨S10000x32, .f32⟩
  | .local _ .vmem, ⟨14, _⟩ => ⟨S10000x32, .f32⟩
  | .local _ .vmem, ⟨15, _⟩ => ⟨S10000x32, .f32⟩
  | .local _ .vmem, ⟨16, _⟩ => ⟨S32x16, .f32⟩
  | .local _ .vmem, ⟨17, _⟩ => ⟨S10000x16, .f32⟩
  | .local _ .vmem, ⟨18, _⟩ => ⟨S10000x16, .f32⟩
  | .local _ .vmem, ⟨19, _⟩ => ⟨S10000x16, .f32⟩
  | .local _ .vmem, ⟨20, _⟩ => ⟨S10000x16, .f32⟩
  | .local _ .vmem, ⟨21, _⟩ => ⟨S10000x16, .f32⟩
  | .local _ .vmem, ⟨22, _⟩ => ⟨S10000x16, .f32⟩
  | .local _ .vmem, ⟨23, _⟩ => ⟨S10000x1, .f32⟩
  | .local _ .vmem, ⟨24, _⟩ => ⟨S10000x1, .f32⟩
  | .local _ .vmem, ⟨25, _⟩ => ⟨S1x16, .f32⟩
  | .local _ .vmem, ⟨26, _⟩ => ⟨S10000x16, .f32⟩
  | .local _ .vmem, ⟨27, _⟩ => ⟨S10000x16, .f32⟩
  | .local _ .vmem, ⟨28, _⟩ => ⟨S10000x32, .f32⟩
  | .local _ .vmem, ⟨29, _⟩ => ⟨S10000x32, .f32⟩
  | .local _ .vmem, ⟨30, _⟩ => ⟨S32x16, .f32⟩
  | .local _ .vmem, ⟨31, _⟩ => ⟨S10000x16, .f32⟩
  | .local _ .vmem, ⟨32, _⟩ => ⟨S10000x16, .f32⟩
  | .local _ .vmem, ⟨33, _⟩ => ⟨S10000x16, .f32⟩
  | .local _ .vmem, ⟨34, _⟩ => ⟨S10000x16, .f32⟩
  | .local _ .vmem, ⟨35, _⟩ => ⟨S10000x16, .f32⟩
  | .local _ .vmem, ⟨36, _⟩ => ⟨S10000x16, .f32⟩
  | .local _ .vmem, ⟨37, _⟩ => ⟨S10000x1, .f32⟩
  | .local _ .vmem, ⟨38, _⟩ => ⟨S10000x1, .f32⟩
  | .local _ .vmem, ⟨39, _⟩ => ⟨S1x16, .f32⟩
  | .local _ .vmem, ⟨40, _⟩ => ⟨S10000x16, .f32⟩
  | .local _ .vmem, ⟨41, _⟩ => ⟨S10000x16, .f32⟩
  | _, _ => ⟨S100000x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | _, _ => false

abbrev semScoped : Fin 0 → Bool
  | ⟨_, h⟩ => absurd h (Nat.not_lt_zero _)

abbrev dmaSemScoped : Fin 42 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | _ => false

abbrev sig : RefSig :=
  ofTc nBuf bufTy 0 42 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_cst : Ref sig .tc := ⟨.hbm, 12, rfl⟩
abbrev main_v4 : Ref sig .tc := ⟨.hbm, 13, rfl⟩
abbrev main_cst_0 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_cst_1 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_c : Ref sig .tc := ⟨.hbm, 23, rfl⟩
abbrev main_v12 : Ref sig .tc := ⟨.hbm, 24, rfl⟩
abbrev main_v13 : Ref sig .tc := ⟨.hbm, 25, rfl⟩
abbrev main_c_2 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_c_3 : Ref sig .tc := ⟨.hbm, 32, rfl⟩
abbrev main_v19 : Ref sig .tc := ⟨.hbm, 33, rfl⟩
abbrev main_v20 : Ref sig .tc := ⟨.hbm, 34, rfl⟩
abbrev main_c_4 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_c_5 : Ref sig .tc := ⟨.hbm, 42, rfl⟩
abbrev main_v27 : Ref sig .tc := ⟨.hbm, 43, rfl⟩
abbrev main_v28 : Ref sig .tc := ⟨.hbm, 44, rfl⟩
abbrev main_c_6 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_cst_7 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_c_8 : Ref sig .tc := ⟨.hbm, 62, rfl⟩
abbrev main_v44 : Ref sig .tc := ⟨.hbm, 63, rfl⟩
abbrev main_v45 : Ref sig .tc := ⟨.hbm, 64, rfl⟩
abbrev main_c_9 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_c_10 : Ref sig .tc := ⟨.hbm, 71, rfl⟩
abbrev main_v51 : Ref sig .tc := ⟨.hbm, 72, rfl⟩
abbrev main_v52 : Ref sig .tc := ⟨.hbm, 73, rfl⟩
abbrev main_c_11 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_c_12 : Ref sig .tc := ⟨.hbm, 81, rfl⟩
abbrev main_v59 : Ref sig .tc := ⟨.hbm, 82, rfl⟩
abbrev main_v60 : Ref sig .tc := ⟨.hbm, 83, rfl⟩
abbrev main_c_13 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_v64 : Ref sig .tc := ⟨.hbm, 88, rfl⟩
abbrev main_v65 : Ref sig .tc := ⟨.hbm, 89, rfl⟩
abbrev main_v66 : Ref sig .tc := ⟨.hbm, 90, rfl⟩
abbrev main_v67 : Ref sig .tc := ⟨.hbm, 91, rfl⟩
abbrev main_v68 : Ref sig .tc := ⟨.hbm, 92, rfl⟩
abbrev main_cst_14 : Ref sig .tc := ⟨.hbm, 93, rfl⟩
abbrev main_v69 : Ref sig .tc := ⟨.hbm, 94, rfl⟩
abbrev main_v70 : Ref sig .tc := ⟨.hbm, 95, rfl⟩
abbrev main_v71 : Ref sig .tc := ⟨.hbm, 96, rfl⟩
abbrev main_v72 : Ref sig .tc := ⟨.hbm, 97, rfl⟩
abbrev main_v73 : Ref sig .tc := ⟨.hbm, 98, rfl⟩
abbrev main_v74 : Ref sig .tc := ⟨.hbm, 99, rfl⟩
abbrev main_v75 : Ref sig .tc := ⟨.hbm, 100, rfl⟩
abbrev main_c_15 : Ref sig .tc := ⟨.hbm, 101, rfl⟩
abbrev main_v76 : Ref sig .tc := ⟨.hbm, 102, rfl⟩
abbrev main_v77 : Ref sig .tc := ⟨.hbm, 103, rfl⟩
abbrev main_c_16 : Ref sig .tc := ⟨.hbm, 104, rfl⟩
abbrev main_v78 : Ref sig .tc := ⟨.hbm, 105, rfl⟩
abbrev main_v79 : Ref sig .tc := ⟨.hbm, 106, rfl⟩
abbrev main_v80 : Ref sig .tc := ⟨.hbm, 107, rfl⟩
abbrev main_v81 : Ref sig .tc := ⟨.hbm, 108, rfl⟩
abbrev main_v82 : Ref sig .tc := ⟨.hbm, 109, rfl⟩
abbrev main_c_17 : Ref sig .tc := ⟨.hbm, 110, rfl⟩
abbrev main_v83 : Ref sig .tc := ⟨.hbm, 111, rfl⟩
abbrev main_v84 : Ref sig .tc := ⟨.hbm, 112, rfl⟩
abbrev main_c_18 : Ref sig .tc := ⟨.hbm, 113, rfl⟩
abbrev main_v85 : Ref sig .tc := ⟨.hbm, 114, rfl⟩
abbrev main_v86 : Ref sig .tc := ⟨.hbm, 115, rfl⟩
abbrev main_v87 : Ref sig .tc := ⟨.hbm, 116, rfl⟩
abbrev main_v88 : Ref sig .tc := ⟨.hbm, 117, rfl⟩
abbrev main_v89 : Ref sig .tc := ⟨.hbm, 118, rfl⟩
abbrev main_v90 : Ref sig .tc := ⟨.hbm, 119, rfl⟩
abbrev main_c_19 : Ref sig .tc := ⟨.hbm, 120, rfl⟩
abbrev main_v91 : Ref sig .tc := ⟨.hbm, 121, rfl⟩
abbrev main_v92 : Ref sig .tc := ⟨.hbm, 122, rfl⟩
abbrev main_c_20 : Ref sig .tc := ⟨.hbm, 123, rfl⟩
abbrev main_v93 : Ref sig .tc := ⟨.hbm, 124, rfl⟩
abbrev main_v94 : Ref sig .tc := ⟨.hbm, 125, rfl⟩
abbrev main_v95 : Ref sig .tc := ⟨.hbm, 126, rfl⟩
abbrev main_v96 : Ref sig .tc := ⟨.hbm, 127, rfl⟩
abbrev main_v97 : Ref sig .tc := ⟨.hbm, 128, rfl⟩
abbrev main_v98 : Ref sig .tc := ⟨.hbm, 129, rfl⟩
abbrev main_v99 : Ref sig .tc := ⟨.hbm, 130, rfl⟩
abbrev main_v100 : Ref sig .tc := ⟨.hbm, 131, rfl⟩
abbrev main_cst_21 : Ref sig .tc := ⟨.hbm, 132, rfl⟩
abbrev main_v101 : Ref sig .tc := ⟨.hbm, 133, rfl⟩
abbrev main_v102 : Ref sig .tc := ⟨.hbm, 134, rfl⟩
abbrev main_v103 : Ref sig .tc := ⟨.hbm, 135, rfl⟩
abbrev main_v104 : Ref sig .tc := ⟨.hbm, 136, rfl⟩
abbrev main_v105 : Ref sig .tc := ⟨.hbm, 137, rfl⟩
abbrev main_v106 : Ref sig .tc := ⟨.hbm, 138, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg2_1 : Ref sig .tc := ⟨.vmem, 10, rfl⟩
abbrev cc1_stg3_0 : Ref sig .tc := ⟨.vmem, 11, rfl⟩
abbrev cc1_stg4_0 : Ref sig .tc := ⟨.vmem, 12, rfl⟩
abbrev cc1_stg4_1 : Ref sig .tc := ⟨.vmem, 13, rfl⟩
abbrev cc2_stg0_0 : Ref sig .tc := ⟨.vmem, 14, rfl⟩
abbrev cc2_stg0_1 : Ref sig .tc := ⟨.vmem, 15, rfl⟩
abbrev cc2_stg1_0 : Ref sig .tc := ⟨.vmem, 16, rfl⟩
abbrev cc2_stg2_0 : Ref sig .tc := ⟨.vmem, 17, rfl⟩
abbrev cc2_stg2_1 : Ref sig .tc := ⟨.vmem, 18, rfl⟩
abbrev cc3_stg0_0 : Ref sig .tc := ⟨.vmem, 19, rfl⟩
abbrev cc3_stg0_1 : Ref sig .tc := ⟨.vmem, 20, rfl⟩
abbrev cc3_stg1_0 : Ref sig .tc := ⟨.vmem, 21, rfl⟩
abbrev cc3_stg1_1 : Ref sig .tc := ⟨.vmem, 22, rfl⟩
abbrev cc3_stg2_0 : Ref sig .tc := ⟨.vmem, 23, rfl⟩
abbrev cc3_stg2_1 : Ref sig .tc := ⟨.vmem, 24, rfl⟩
abbrev cc3_stg3_0 : Ref sig .tc := ⟨.vmem, 25, rfl⟩
abbrev cc3_stg4_0 : Ref sig .tc := ⟨.vmem, 26, rfl⟩
abbrev cc3_stg4_1 : Ref sig .tc := ⟨.vmem, 27, rfl⟩
abbrev cc4_stg0_0 : Ref sig .tc := ⟨.vmem, 28, rfl⟩
abbrev cc4_stg0_1 : Ref sig .tc := ⟨.vmem, 29, rfl⟩
abbrev cc4_stg1_0 : Ref sig .tc := ⟨.vmem, 30, rfl⟩
abbrev cc4_stg2_0 : Ref sig .tc := ⟨.vmem, 31, rfl⟩
abbrev cc4_stg2_1 : Ref sig .tc := ⟨.vmem, 32, rfl⟩
abbrev cc5_stg0_0 : Ref sig .tc := ⟨.vmem, 33, rfl⟩
abbrev cc5_stg0_1 : Ref sig .tc := ⟨.vmem, 34, rfl⟩
abbrev cc5_stg1_0 : Ref sig .tc := ⟨.vmem, 35, rfl⟩
abbrev cc5_stg1_1 : Ref sig .tc := ⟨.vmem, 36, rfl⟩
abbrev cc5_stg2_0 : Ref sig .tc := ⟨.vmem, 37, rfl⟩
abbrev cc5_stg2_1 : Ref sig .tc := ⟨.vmem, 38, rfl⟩
abbrev cc5_stg3_0 : Ref sig .tc := ⟨.vmem, 39, rfl⟩
abbrev cc5_stg4_0 : Ref sig .tc := ⟨.vmem, 40, rfl⟩
abbrev cc5_stg4_1 : Ref sig .tc := ⟨.vmem, 41, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem2_1 : DmaSem sig := 10
abbrev cc1_sem3_0 : DmaSem sig := 11
abbrev cc1_sem4_0 : DmaSem sig := 12
abbrev cc1_sem4_1 : DmaSem sig := 13
abbrev cc2_sem0_0 : DmaSem sig := 14
abbrev cc2_sem0_1 : DmaSem sig := 15
abbrev cc2_sem1_0 : DmaSem sig := 16
abbrev cc2_sem2_0 : DmaSem sig := 17
abbrev cc2_sem2_1 : DmaSem sig := 18
abbrev cc3_sem0_0 : DmaSem sig := 19
abbrev cc3_sem0_1 : DmaSem sig := 20
abbrev cc3_sem1_0 : DmaSem sig := 21
abbrev cc3_sem1_1 : DmaSem sig := 22
abbrev cc3_sem2_0 : DmaSem sig := 23
abbrev cc3_sem2_1 : DmaSem sig := 24
abbrev cc3_sem3_0 : DmaSem sig := 25
abbrev cc3_sem4_0 : DmaSem sig := 26
abbrev cc3_sem4_1 : DmaSem sig := 27
abbrev cc4_sem0_0 : DmaSem sig := 28
abbrev cc4_sem0_1 : DmaSem sig := 29
abbrev cc4_sem1_0 : DmaSem sig := 30
abbrev cc4_sem2_0 : DmaSem sig := 31
abbrev cc4_sem2_1 : DmaSem sig := 32
abbrev cc5_sem0_0 : DmaSem sig := 33
abbrev cc5_sem0_1 : DmaSem sig := 34
abbrev cc5_sem1_0 : DmaSem sig := 35
abbrev cc5_sem1_1 : DmaSem sig := 36
abbrev cc5_sem2_0 : DmaSem sig := 37
abbrev cc5_sem2_1 : DmaSem sig := 38
abbrev cc5_sem3_0 : DmaSem sig := 39
abbrev cc5_sem4_0 : DmaSem sig := 40
abbrev cc5_sem4_1 : DmaSem sig := 41

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x32 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S10000x32 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x32 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S10000x32 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S10000x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S1x32 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S10000x32 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S10000x32 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S32x16 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S10000x16 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S10000x16 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S10000x16 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 2 → Memref sig .tc .vmem S10000x1 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev stage3_3 : Fin 1 → Memref sig .tc .vmem S1x16 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 2 → Memref sig .tc .vmem S10000x16 .f32 := fun | 0 => Memref.whole cc3_stg4_0 | 1 => Memref.whole cc3_stg4_1 | ⟨_ + 2, h⟩ => absurd h (Nat.not_lt.2 (Nat.le_add_left _ _))
abbrev sem3_4 : Fin 2 → DmaSem sig := fun | 0 => cc3_sem4_0 | 1 => cc3_sem4_1 | ⟨_ + 2, h⟩ => absurd h (Nat.not_lt.2 (Nat.le_add_left _ _))
abbrev reads3_4 : Fin grid3.rank → Bool := ![true]

abbrev grid4 : Pipeline.Grid := ⟨1, ![10], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S10000x32 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S32x16 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 2 → Memref sig .tc .vmem S10000x16 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev grid5 : Pipeline.Grid := ⟨1, ![10], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_2 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_3 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_4 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S10000x16 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 2 → Memref sig .tc .vmem S10000x16 .f32 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![true]

abbrev stage5_2 : Fin 2 → Memref sig .tc .vmem S10000x1 .f32 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true]

abbrev stage5_3 : Fin 1 → Memref sig .tc .vmem S1x16 .f32 := fun | 0 => Memref.whole cc5_stg3_0 | ⟨_ + 1, h⟩ => absurd h (Nat.not_lt.2 (Nat.le_add_left _ _))
abbrev sem5_3 : Fin 1 → DmaSem sig := fun | 0 => cc5_sem3_0 | ⟨_ + 1, h⟩ => absurd h (Nat.not_lt.2 (Nat.le_add_left _ _))
abbrev reads5_3 : Fin grid5.rank → Bool := ![false]

abbrev stage5_4 : Fin 2 → Memref sig .tc .vmem S10000x16 .f32 := fun | 0 => Memref.whole cc5_stg4_0 | 1 => Memref.whole cc5_stg4_1 | ⟨_ + 2, h⟩ => absurd h (Nat.not_lt.2 (Nat.le_add_left _ _))
abbrev sem5_4 : Fin 2 → DmaSem sig := fun | 0 => cc5_sem4_0 | 1 => cc5_sem4_1 | ⟨_ + 2, h⟩ => absurd h (Nat.not_lt.2 (Nat.le_add_left _ _))
abbrev reads5_4 : Fin grid5.rank → Bool := ![true]

class Facts₀ : Prop where
  slices_S2x3200000_S1x3200000_0_0 : S2x3200000.Slices ![0, 0] S1x3200000
  shapeCasts_S1x3200000_S3200000 : S1x3200000.ShapeCasts S3200000
  slices_S2x3200000_S1x3200000_1_0 : S2x3200000.Slices ![1, 0] S1x3200000
  bcast_S_S3200000 : S_.BroadcastsInDim S3200000 (![] : Fin 0 → Fin S3200000.rank)
  bcast_S_S100000 : S_.BroadcastsInDim S100000 (![] : Fin 0 → Fin S100000.rank)
  bcast_S3200000_S3200000x1_0 : S3200000.BroadcastsInDim S3200000x1 (![0] : Fin 1 → Fin S3200000x1.rank)
  inb_S10000x256_S10000x256_0_0 : ∀ a, (![0, 0] : Fin 2 → Nat) a + S10000x256.size a ≤ S10000x256.size a
  h_S10000x256 : 0 < S10000x256.numel
  bitsLt_bf16_f32 : FTy.bits .bf16 < FTy.bits .f32
  inb_S256x32_S256x32_0_0 : ∀ a, (![0, 0] : Fin 2 → Nat) a + S256x32.size a ≤ S256x32.size a
  h_S256x32 : 0 < S256x32.numel
  inb_S10000x32_S10000x32_0_0 : ∀ a, (![0, 0] : Fin 2 → Nat) a + S10000x32.size a ≤ S10000x32.size a
  h_S10000x32 : 0 < S10000x32.numel
  bcast_S3200000x1_S3200000x32_0_1 : S3200000x1.BroadcastsInDim S3200000x32 (![0, 1] : Fin 2 → Fin S3200000x32.rank)
  bcast_S_S100000x32 : S_.BroadcastsInDim S100000x32 (![] : Fin 0 → Fin S100000x32.rank)
  shapeCasts_S100000_S100000x1 : S100000.ShapeCasts S100000x1
  shapeCasts_S32_S1x32 : S32.ShapeCasts S1x32
  inb_S10000x1_S10000x1_0_0 : ∀ a, (![0, 0] : Fin 2 → Nat) a + S10000x1.size a ≤ S10000x1.size a
  h_S10000x1 : 0 < S10000x1.numel
  shapeCasts_S10000x1_S10000x1 : S10000x1.ShapeCasts S10000x1
  shapeCasts_S10000x32_S10000x32 : S10000x32.ShapeCasts S10000x32
  broadcasts_S10000x1_S10000x32 : S10000x1.Broadcasts S10000x32
  inb_S1x32_S1x32_0_0 : ∀ a, (![0, 0] : Fin 2 → Nat) a + S1x32.size a ≤ S1x32.size a
  h_S1x32 : 0 < S1x32.numel
  shapeCasts_S1x32_S1x32 : S1x32.ShapeCasts S1x32
  broadcasts_S1x32_S10000x32 : S1x32.Broadcasts S10000x32
  inb_S32x16_S32x16_0_0 : ∀ a, (![0, 0] : Fin 2 → Nat) a + S32x16.size a ≤ S32x16.size a
  h_S32x16 : 0 < S32x16.numel
  inb_S10000x16_S10000x16_0_0 : ∀ a, (![0, 0] : Fin 2 → Nat) a + S10000x16.size a ≤ S10000x16.size a
  h_S10000x16 : 0 < S10000x16.numel
  bcast_S3200000x1_S3200000x16_0_1 : S3200000x1.BroadcastsInDim S3200000x16 (![0, 1] : Fin 2 → Fin S3200000x16.rank)
  bcast_S_S100000x16 : S_.BroadcastsInDim S100000x16 (![] : Fin 0 → Fin S100000x16.rank)
  shapeCasts_S16_S1x16 : S16.ShapeCasts S1x16
  shapeCasts_S10000x16_S10000x16 : S10000x16.ShapeCasts S10000x16
  broadcasts_S10000x1_S10000x16 : S10000x1.Broadcasts S10000x16
  inb_S1x16_S1x16_0_0 : ∀ a, (![0, 0] : Fin 2 → Nat) a + S1x16.size a ≤ S1x16.size a
  h_S1x16 : 0 < S1x16.numel
  shapeCasts_S1x16_S1x16 : S1x16.ShapeCasts S1x16
  broadcasts_S1x16_S10000x16 : S1x16.Broadcasts S10000x16
  scatter_S100000_S3200000x1_S3200000_n_0_0_1_wf : ScatterDims.WF S100000 S3200000x1 S3200000 [] [0] [0] 1
  dot_S10000x256_S256x32_S10000x32_1_0_0_1_n_n_wf : DotDims.WF S10000x256 S256x32 S10000x32 [1] [0] [0] [1] [] []
  gather_S100000_S3200000x1_S3200000_n_0_n_n_0_1_1_wf : GatherDims.WF S100000 S3200000x1 S3200000 [] [0] [] [0] [] 1 ![1]
  gather_S100000x32_S3200000x1_S3200000x32_1_0_n_n_0_1_132_wf : GatherDims.WF S100000x32 S3200000x1 S3200000x32 [1] [0] [] [0] [] 1 ![1, 32]
  scatter_S100000x32_S3200000x1_S3200000x32_1_0_0_1_wf : ScatterDims.WF S100000x32 S3200000x1 S3200000x32 [1] [0] [0] 1
  dot_S10000x32_S32x16_S10000x16_1_0_0_1_n_n_wf : DotDims.WF S10000x32 S32x16 S10000x16 [1] [0] [0] [1] [] []
  gather_S100000x16_S3200000x1_S3200000x16_1_0_n_n_0_1_116_wf : GatherDims.WF S100000x16 S3200000x1 S3200000x16 [1] [0] [] [0] [] 1 ![1, 16]
  scatter_S100000x16_S3200000x1_S3200000x16_1_0_0_1_wf : ScatterDims.WF S100000x16 S3200000x1 S3200000x16 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x256.size a ≤ S100000x256.size a
  hwx0_0 : ∀ i : grid0.Coords, EltTy.bits .f32 = 32 ∨ (Rect.block (s := S100000x256) S10000x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x32.size a ≤ S256x32.size a
  hwx0_1 : ∀ i : grid0.Coords, EltTy.bits .f32 = 32 ∨ (Rect.block (s := S256x32) S256x32.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S10000x32.size a ≤ S100000x32.size a
  hwx0_2 : ∀ i : grid0.Coords, EltTy.bits .f32 = 32 ∨ (Rect.block (s := S100000x32) S10000x32.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x32.size a ≤ S100000x32.size a
  hwx1_0 : ∀ i : grid1.Coords, EltTy.bits .f32 = 32 ∨ (Rect.block (s := S100000x32) S10000x32.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S10000x32.size a ≤ S100000x32.size a
  hwx1_1 : ∀ i : grid1.Coords, EltTy.bits .f32 = 32 ∨ (Rect.block (s := S100000x32) S10000x32.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S10000x1.size a ≤ S100000x1.size a
  hwx1_2 : ∀ i : grid1.Coords, EltTy.bits .f32 = 32 ∨ (Rect.block (s := S100000x1) S10000x1.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x32.size a ≤ S1x32.size a
  hwx1_3 : ∀ i : grid1.Coords, EltTy.bits .f32 = 32 ∨ (Rect.block (s := S1x32) S1x32.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S10000x32.size a ≤ S100000x32.size a
  hwx1_4 : ∀ i : grid1.Coords, EltTy.bits .f32 = 32 ∨ (Rect.block (s := S100000x32) S10000x32.size (cc1_transform_4 i) (hinb1_4 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S10000x32.size a ≤ S100000x32.size a
  hwx2_0 : ∀ i : grid2.Coords, EltTy.bits .f32 = 32 ∨ (Rect.block (s := S100000x32) S10000x32.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S32x16.size a ≤ S32x16.size a
  hwx2_1 : ∀ i : grid2.Coords, EltTy.bits .f32 = 32 ∨ (Rect.block (s := S32x16) S32x16.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S10000x16.size a ≤ S100000x16.size a
  hwx2_2 : ∀ i : grid2.Coords, EltTy.bits .f32 = 32 ∨ (Rect.block (s := S100000x16) S10000x16.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S10000x16.size a ≤ S100000x16.size a
  hwx3_0 : ∀ i : grid3.Coords, EltTy.bits .f32 = 32 ∨ (Rect.block (s := S100000x16) S10000x16.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S10000x16.size a ≤ S100000x16.size a
  hwx3_1 : ∀ i : grid3.Coords, EltTy.bits .f32 = 32 ∨ (Rect.block (s := S100000x16) S10000x16.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S10000x1.size a ≤ S100000x1.size a
  hwx3_2 : ∀ i : grid3.Coords, EltTy.bits .f32 = 32 ∨ (Rect.block (s := S100000x1) S10000x1.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S1x16.size a ≤ S1x16.size a
  hwx3_3 : ∀ i : grid3.Coords, EltTy.bits .f32 = 32 ∨ (Rect.block (s := S1x16) S1x16.size (cc3_transform_3 i) (hinb3_3 i)).WholeWords (EltTy.packing .f32)
  hstage3_4 : ∀ j, (stage3_4 j).IsWhole
  nbuf3_4 : grid3.bufCount reads3_4 false = 2
  hreads3_4 : ∀ i i' : grid3.Coords, (∀ a, reads3_4 a = true → i a = i' a) → cc3_transform_4 i = cc3_transform_4 i'
  hinb3_4 : ∀ (i : grid3.Coords) a, (cc3_transform_4 i a + 1) * S10000x16.size a ≤ S100000x16.size a
  hwx3_4 : ∀ i : grid3.Coords, EltTy.bits .f32 = 32 ∨ (Rect.block (s := S100000x16) S10000x16.size (cc3_transform_4 i) (hinb3_4 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S10000x32.size a ≤ S100000x32.size a
  hwx4_0 : ∀ i : grid4.Coords, EltTy.bits .f32 = 32 ∨ (Rect.block (s := S100000x32) S10000x32.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S32x16.size a ≤ S32x16.size a
  hwx4_1 : ∀ i : grid4.Coords, EltTy.bits .f32 = 32 ∨ (Rect.block (s := S32x16) S32x16.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S10000x16.size a ≤ S100000x16.size a
  hwx4_2 : ∀ i : grid4.Coords, EltTy.bits .f32 = 32 ∨ (Rect.block (s := S100000x16) S10000x16.size (cc4_transform_2 i) (hinb4_2 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S10000x16.size a ≤ S100000x16.size a
  hwx5_0 : ∀ i : grid5.Coords, EltTy.bits .f32 = 32 ∨ (Rect.block (s := S100000x16) S10000x16.size (cc5_transform_0 i) (hinb5_0 i)).WholeWords (EltTy.packing .f32)
  hstage5_1 : ∀ j, (stage5_1 j).IsWhole
  nbuf5_1 : grid5.bufCount reads5_1 false = 2
  hreads5_1 : ∀ i i' : grid5.Coords, (∀ a, reads5_1 a = true → i a = i' a) → cc5_transform_1 i = cc5_transform_1 i'
  hinb5_1 : ∀ (i : grid5.Coords) a, (cc5_transform_1 i a + 1) * S10000x16.size a ≤ S100000x16.size a
  hwx5_1 : ∀ i : grid5.Coords, EltTy.bits .f32 = 32 ∨ (Rect.block (s := S100000x16) S10000x16.size (cc5_transform_1 i) (hinb5_1 i)).WholeWords (EltTy.packing .f32)
  hstage5_2 : ∀ j, (stage5_2 j).IsWhole
  nbuf5_2 : grid5.bufCount reads5_2 false = 2
  hreads5_2 : ∀ i i' : grid5.Coords, (∀ a, reads5_2 a = true → i a = i' a) → cc5_transform_2 i = cc5_transform_2 i'
  hinb5_2 : ∀ (i : grid5.Coords) a, (cc5_transform_2 i a + 1) * S10000x1.size a ≤ S100000x1.size a
  hwx5_2 : ∀ i : grid5.Coords, EltTy.bits .f32 = 32 ∨ (Rect.block (s := S100000x1) S10000x1.size (cc5_transform_2 i) (hinb5_2 i)).WholeWords (EltTy.packing .f32)
  hstage5_3 : ∀ j, (stage5_3 j).IsWhole
  nbuf5_3 : grid5.bufCount reads5_3 true = 1
  hreads5_3 : ∀ i i' : grid5.Coords, (∀ a, reads5_3 a = true → i a = i' a) → cc5_transform_3 i = cc5_transform_3 i'
  hinb5_3 : ∀ (i : grid5.Coords) a, (cc5_transform_3 i a + 1) * S1x16.size a ≤ S1x16.size a
  hwx5_3 : ∀ i : grid5.Coords, EltTy.bits .f32 = 32 ∨ (Rect.block (s := S1x16) S1x16.size (cc5_transform_3 i) (hinb5_3 i)).WholeWords (EltTy.packing .f32)
  hstage5_4 : ∀ j, (stage5_4 j).IsWhole
  nbuf5_4 : grid5.bufCount reads5_4 false = 2
  hreads5_4 : ∀ i i' : grid5.Coords, (∀ a, reads5_4 a = true → i a = i' a) → cc5_transform_4 i = cc5_transform_4 i'
  hinb5_4 : ∀ (i : grid5.Coords) a, (cc5_transform_4 i a + 1) * S10000x16.size a ≤ S100000x16.size a
  hwx5_4 : ∀ i : grid5.Coords, EltTy.bits .f32 = 32 ∨ (Rect.block (s := S100000x16) S10000x16.size (cc5_transform_4 i) (hinb5_4 i)).WholeWords (EltTy.packing .f32)

variable [Facts₀]

def scatter_S100000_S3200000x1_S3200000_n_0_0_1 : ScatterDims S100000 S3200000x1 S3200000 where
  updateWindowDims := []
  insertedWindowDims := [0]
  scatterDimsToOperandDims := [0]
  indexVectorDim := 1
  wf := scatter_S100000_S3200000x1_S3200000_n_0_0_1_wf
def dot_S10000x256_S256x32_S10000x32_1_0_0_1_n_n : DotDims S10000x256 S256x32 S10000x32 where
  lhsContracting := [1]
  rhsContracting := [0]
  lhsNonContracting := [0]
  rhsNonContracting := [1]
  lhsBatch := []
  rhsBatch := []
  wf := dot_S10000x256_S256x32_S10000x32_1_0_0_1_n_n_wf
def gather_S100000_S3200000x1_S3200000_n_0_n_n_0_1_1 : GatherDims S100000 S3200000x1 S3200000 where
  offsetDims := []
  collapsedSliceDims := [0]
  operandBatchingDims := []
  startIndicesBatchingDims := []
  startIndexMap := [0]
  indexVectorDim := 1
  sliceSizes := ![1]
  wf := gather_S100000_S3200000x1_S3200000_n_0_n_n_0_1_1_wf
def gather_S100000x32_S3200000x1_S3200000x32_1_0_n_n_0_1_132 : GatherDims S100000x32 S3200000x1 S3200000x32 where
  offsetDims := [1]
  collapsedSliceDims := [0]
  operandBatchingDims := []
  startIndicesBatchingDims := []
  startIndexMap := [0]
  indexVectorDim := 1
  sliceSizes := ![1, 32]
  wf := gather_S100000x32_S3200000x1_S3200000x32_1_0_n_n_0_1_132_wf
def scatter_S100000x32_S3200000x1_S3200000x32_1_0_0_1 : ScatterDims S100000x32 S3200000x1 S3200000x32 where
  updateWindowDims := [1]
  insertedWindowDims := [0]
  scatterDimsToOperandDims := [0]
  indexVectorDim := 1
  wf := scatter_S100000x32_S3200000x1_S3200000x32_1_0_0_1_wf
def dot_S10000x32_S32x16_S10000x16_1_0_0_1_n_n : DotDims S10000x32 S32x16 S10000x16 where
  lhsContracting := [1]
  rhsContracting := [0]
  lhsNonContracting := [0]
  rhsNonContracting := [1]
  lhsBatch := []
  rhsBatch := []
  wf := dot_S10000x32_S32x16_S10000x16_1_0_0_1_n_n_wf
def gather_S100000x16_S3200000x1_S3200000x16_1_0_n_n_0_1_116 : GatherDims S100000x16 S3200000x1 S3200000x16 where
  offsetDims := [1]
  collapsedSliceDims := [0]
  operandBatchingDims := []
  startIndicesBatchingDims := []
  startIndexMap := [0]
  indexVectorDim := 1
  sliceSizes := ![1, 16]
  wf := gather_S100000x16_S3200000x1_S3200000x16_1_0_n_n_0_1_116_wf
def scatter_S100000x16_S3200000x1_S3200000x16_1_0_0_1 : ScatterDims S100000x16 S3200000x1 S3200000x16 where
  updateWindowDims := [1]
  insertedWindowDims := [0]
  scatterDimsToOperandDims := [0]
  indexVectorDim := 1
  wf := scatter_S100000x16_S3200000x1_S3200000x16_1_0_0_1_wf

abbrev win0_0 : Pipeline.Window sig grid0 :=
  Pipeline.Window.ofSpec (Memref.whole main_arg0) S10000x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S256x32.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v11) S10000x32.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v39) S10000x32.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v11) S10000x32.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v40) S10000x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v41) S1x32.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v42) S10000x32.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev win2_0 : Pipeline.Window sig grid2 :=
  Pipeline.Window.ofSpec (Memref.whole main_v42) S10000x32.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg4) S32x16.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v43) S10000x16.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v71) S10000x16.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v43) S10000x16.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v72) S10000x1.size cc3_transform_2 reads3_2 false false 2 stage3_2 sem3_2
    hrank3 hreads3_2 hinb3_2 nbuf3_2 (Memref.isWhole_whole _) hwx3_2 hstage3_2

abbrev win3_3 : Pipeline.Window sig grid3 :=
  Pipeline.Window.ofSpec (Memref.whole main_v73) S1x16.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v74) S10000x16.size cc3_transform_4 reads3_4 true false 2 stage3_4 sem3_4
    hrank3 hreads3_4 hinb3_4 nbuf3_4 (Memref.isWhole_whole _) hwx3_4 hstage3_4

abbrev win3 : Fin 5 → Pipeline.Window sig grid3 := fun | 0 => win3_0 | 1 => win3_1 | 2 => win3_2 | 3 => win3_3 | 4 => win3_4 | ⟨_ + 5, h⟩ => absurd h (Nat.not_lt.2 (Nat.le_add_left _ _))
abbrev spec3 : Fin 5 → Pipeline.WinSpec sig grid3.rank := fun w => (win3 w).toWinSpec

abbrev win4_0 : Pipeline.Window sig grid4 :=
  Pipeline.Window.ofSpec (Memref.whole main_v42) S10000x32.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_arg6) S32x16.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v75) S10000x16.size cc4_transform_2 reads4_2 true false 2 stage4_2 sem4_2
    hrank4 hreads4_2 hinb4_2 nbuf4_2 (Memref.isWhole_whole _) hwx4_2 hstage4_2

abbrev win4 : Fin 3 → Pipeline.Window sig grid4 := fun | 0 => win4_0 | 1 => win4_1 | 2 => win4_2 | ⟨_ + 3, h⟩ => absurd h (Nat.not_lt.2 (Nat.le_add_left _ _))
abbrev spec4 : Fin 3 → Pipeline.WinSpec sig grid4.rank := fun w => (win4 w).toWinSpec

abbrev win5_0 : Pipeline.Window sig grid5 :=
  Pipeline.Window.ofSpec (Memref.whole main_v103) S10000x16.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v75) S10000x16.size cc5_transform_1 reads5_1 false false 2 stage5_1 sem5_1
    hrank5 hreads5_1 hinb5_1 nbuf5_1 (Memref.isWhole_whole _) hwx5_1 hstage5_1

abbrev win5_2 : Pipeline.Window sig grid5 :=
  Pipeline.Window.ofSpec (Memref.whole main_v104) S10000x1.size cc5_transform_2 reads5_2 false false 2 stage5_2 sem5_2
    hrank5 hreads5_2 hinb5_2 nbuf5_2 (Memref.isWhole_whole _) hwx5_2 hstage5_2

abbrev win5_3 : Pipeline.Window sig grid5 :=
  Pipeline.Window.ofSpec (Memref.whole main_v105) S1x16.size cc5_transform_3 reads5_3 false true 1 stage5_3 sem5_3
    hrank5 hreads5_3 hinb5_3 nbuf5_3 (Memref.isWhole_whole _) hwx5_3 hstage5_3

abbrev win5_4 : Pipeline.Window sig grid5 :=
  Pipeline.Window.ofSpec (Memref.whole main_v106) S10000x16.size cc5_transform_4 reads5_4 true false 2 stage5_4 sem5_4
    hrank5 hreads5_4 hinb5_4 nbuf5_4 (Memref.isWhole_whole _) hwx5_4 hstage5_4

abbrev win5 : Fin 5 → Pipeline.Window sig grid5 := fun | 0 => win5_0 | 1 => win5_1 | 2 => win5_2 | 3 => win5_3 | 4 => win5_4 | ⟨_ + 5, h⟩ => absurd h (Nat.not_lt.2 (Nat.le_add_left _ _))
abbrev spec5 : Fin 5 → Pipeline.WinSpec sig grid5.rank := fun w => (win5 w).toWinSpec

class Facts : Prop extends Facts₀ where

variable [Facts]
-- ==== ReferenceIdeal.lean ====
abbrev S100000x256 : Shape := ⟨2, ![100000, 256]⟩
abbrev S2x3200000 : Shape := ⟨2, ![2, 3200000]⟩
abbrev S256x32 : Shape := ⟨2, ![256, 32]⟩
abbrev S32 : Shape := ⟨1, ![32]⟩
abbrev S32x16 : Shape := ⟨2, ![32, 16]⟩
abbrev S16 : Shape := ⟨1, ![16]⟩
abbrev S100000x32 : Shape := ⟨2, ![100000, 32]⟩
abbrev S1x3200000 : Shape := ⟨2, ![1, 3200000]⟩
abbrev S3200000 : Shape := ⟨1, ![3200000]⟩
abbrev S_ : Shape := ⟨0, ![]⟩
abbrev S100000 : Shape := ⟨1, ![100000]⟩
abbrev S3200000x1 : Shape := ⟨2, ![3200000, 1]⟩
abbrev S3200000x32 : Shape := ⟨2, ![3200000, 32]⟩
abbrev S100000x1 : Shape := ⟨2, ![100000, 1]⟩
abbrev S1x32 : Shape := ⟨2, ![1, 32]⟩
abbrev S100000x16 : Shape := ⟨2, ![100000, 16]⟩
abbrev S3200000x16 : Shape := ⟨2, ![3200000, 16]⟩
abbrev S1x16 : Shape := ⟨2, ![1, 16]⟩

abbrev nBuf : Space → Nat
  | .hbm => 185
  | .vmem => 0
  | .smem => 0
  | _ => 0

abbrev hbmTy0_0 (i : Nat) : BufTy := match i % 128 with
  | 0 => ⟨S100000x256, .f32⟩
  | 1 => ⟨S2x3200000, .i32⟩
  | 2 => ⟨S256x32, .f32⟩
  | 3 => ⟨S32, .f32⟩
  | 4 => ⟨S32x16, .f32⟩
  | 5 => ⟨S16, .f32⟩
  | 6 => ⟨S32x16, .f32⟩
  | 7 => ⟨S16, .f32⟩
  | 8 => ⟨S100000x32, .f32⟩
  | 9 => ⟨S1x3200000, .i32⟩
  | 10 => ⟨S3200000, .i32⟩
  | 11 => ⟨S1x3200000, .i32⟩
  | 12 => ⟨S3200000, .i32⟩
  | 13 => ⟨S_, .f32⟩
  | 14 => ⟨S3200000, .f32⟩
  | 15 => ⟨S_, .f32⟩
  | 16 => ⟨S100000, .f32⟩
  | 17 => ⟨S3200000x1, .i32⟩
  | 18 => ⟨S100000, .f32⟩
  | 19 => ⟨S_, .f32⟩
  | 20 => ⟨S100000, .f32⟩
  | 21 => ⟨S100000, .f32⟩
  | 22 => ⟨S100000, .f32⟩
  | 23 => ⟨S_, .i32⟩
  | 24 => ⟨S3200000, .i32⟩
  | 25 => ⟨S3200000, .i1⟩
  | 26 => ⟨S_, .i32⟩
  | 27 => ⟨S3200000, .i32⟩
  | 28 => ⟨S3200000, .i32⟩
  | 29 => ⟨S3200000, .i32⟩
  | 30 => ⟨S3200000x1, .i32⟩
  | 31 => ⟨S3200000x32, .f32⟩
  | 32 => ⟨S_, .i32⟩
  | 33 => ⟨S3200000, .i32⟩
  | 34 => ⟨S3200000, .i1⟩
  | 35 => ⟨S_, .i32⟩
  | 36 => ⟨S3200000, .i32⟩
  | 37 => ⟨S3200000, .i32⟩
  | 38 => ⟨S3200000, .i32⟩
  | 39 => ⟨S3200000x1, .i32⟩
  | 40 => ⟨S3200000, .f32⟩
  | 41 => ⟨S_, .i32⟩
  | 42 => ⟨S3200000, .i32⟩
  | 43 => ⟨S3200000, .i1⟩
  | 44 => ⟨S_, .i32⟩
  | 45 => ⟨S3200000, .i32⟩
  | 46 => ⟨S3200000, .i32⟩
  | 47 => ⟨S3200000, .i32⟩
  | 48 => ⟨S3200000x1, .i32⟩
  | 49 => ⟨S3200000, .f32⟩
  | 50 => ⟨S3200000, .f32⟩
  | 51 => ⟨S3200000x1, .f32⟩
  | 52 => ⟨S3200000x32, .f32⟩
  | 53 => ⟨S3200000x32, .f32⟩
  | 54 => ⟨S_, .f32⟩
  | 55 => ⟨S100000x32, .f32⟩
  | 56 => ⟨S3200000x1, .i32⟩
  | 57 => ⟨S100000x32, .f32⟩
  | 58 => ⟨S100000, .f32⟩
  | 59 => ⟨S100000x1, .f32⟩
  | 60 => ⟨S100000x32, .f32⟩
  | 61 => ⟨S100000x32, .f32⟩
  | 62 => ⟨S100000x32, .f32⟩
  | 63 => ⟨S1x32, .f32⟩
  | 64 => ⟨S100000x32, .f32⟩
  | 65 => ⟨S100000x32, .f32⟩
  | 66 => ⟨S_, .f32⟩
  | 67 => ⟨S100000x32, .f32⟩
  | 68 => ⟨S100000x32, .f32⟩
  | 69 => ⟨S100000x16, .f32⟩
  | 70 => ⟨S1x3200000, .i32⟩
  | 71 => ⟨S3200000, .i32⟩
  | 72 => ⟨S1x3200000, .i32⟩
  | 73 => ⟨S3200000, .i32⟩
  | 74 => ⟨S_, .f32⟩
  | 75 => ⟨S3200000, .f32⟩
  | 76 => ⟨S_, .f32⟩
  | 77 => ⟨S100000, .f32⟩
  | 78 => ⟨S3200000x1, .i32⟩
  | 79 => ⟨S100000, .f32⟩
  | 80 => ⟨S_, .f32⟩
  | 81 => ⟨S100000, .f32⟩
  | 82 => ⟨S100000, .f32⟩
  | 83 => ⟨S100000, .f32⟩
  | 84 => ⟨S_, .i32⟩
  | 85 => ⟨S3200000, .i32⟩
  | 86 => ⟨S3200000, .i1⟩
  | 87 => ⟨S_, .i32⟩
  | 88 => ⟨S3200000, .i32⟩
  | 89 => ⟨S3200000, .i32⟩
  | 90 => ⟨S3200000, .i32⟩
  | 91 => ⟨S3200000x1, .i32⟩
  | 92 => ⟨S3200000x16, .f32⟩
  | 93 => ⟨S_, .i32⟩
  | 94 => ⟨S3200000, .i32⟩
  | 95 => ⟨S3200000, .i1⟩
  | 96 => ⟨S_, .i32⟩
  | 97 => ⟨S3200000, .i32⟩
  | 98 => ⟨S3200000, .i32⟩
  | 99 => ⟨S3200000, .i32⟩
  | 100 => ⟨S3200000x1, .i32⟩
  | 101 => ⟨S3200000, .f32⟩
  | 102 => ⟨S_, .i32⟩
  | 103 => ⟨S3200000, .i32⟩
  | 104 => ⟨S3200000, .i1⟩
  | 105 => ⟨S_, .i32⟩
  | 106 => ⟨S3200000, .i32⟩
  | 107 => ⟨S3200000, .i32⟩
  | 108 => ⟨S3200000, .i32⟩
  | 109 => ⟨S3200000x1, .i32⟩
  | 110 => ⟨S3200000, .f32⟩
  | 111 => ⟨S3200000, .f32⟩
  | 112 => ⟨S3200000x1, .f32⟩
  | 113 => ⟨S3200000x16, .f32⟩
  | 114 => ⟨S3200000x16, .f32⟩
  | 115 => ⟨S_, .f32⟩
  | 116 => ⟨S100000x16, .f32⟩
  | 117 => ⟨S3200000x1, .i32⟩
  | 118 => ⟨S100000x16, .f32⟩
  | 119 => ⟨S100000, .f32⟩
  | 120 => ⟨S100000x1, .f32⟩
  | 121 => ⟨S100000x16, .f32⟩
  | 122 => ⟨S100000x16, .f32⟩
  | 123 => ⟨S100000x16, .f32⟩
  | 124 => ⟨S1x16, .f32⟩
  | 125 => ⟨S100000x16, .f32⟩
  | 126 => ⟨S100000x16, .f32⟩
  | 127 => ⟨S100000x16, .f32⟩
  | _ => ⟨S100000x256, .f32⟩

abbrev hbmTy0_1 (i : Nat) : BufTy := match i % 128 with
  | 0 => ⟨S1x3200000, .i32⟩
  | 1 => ⟨S3200000, .i32⟩
  | 2 => ⟨S1x3200000, .i32⟩
  | 3 => ⟨S3200000, .i32⟩
  | 4 => ⟨S_, .f32⟩
  | 5 => ⟨S3200000, .f32⟩
  | 6 => ⟨S_, .f32⟩
  | 7 => ⟨S100000, .f32⟩
  | 8 => ⟨S3200000x1, .i32⟩
  | 9 => ⟨S100000, .f32⟩
  | 10 => ⟨S_, .f32⟩
  | 11 => ⟨S100000, .f32⟩
  | 12 => ⟨S100000, .f32⟩
  | 13 => ⟨S100000, .f32⟩
  | 14 => ⟨S_, .i32⟩
  | 15 => ⟨S3200000, .i32⟩
  | 16 => ⟨S3200000, .i1⟩
  | 17 => ⟨S_, .i32⟩
  | 18 => ⟨S3200000, .i32⟩
  | 19 => ⟨S3200000, .i32⟩
  | 20 => ⟨S3200000, .i32⟩
  | 21 => ⟨S3200000x1, .i32⟩
  | 22 => ⟨S3200000x16, .f32⟩
  | 23 => ⟨S_, .i32⟩
  | 24 => ⟨S3200000, .i32⟩
  | 25 => ⟨S3200000, .i1⟩
  | 26 => ⟨S_, .i32⟩
  | 27 => ⟨S3200000, .i32⟩
  | 28 => ⟨S3200000, .i32⟩
  | 29 => ⟨S3200000, .i32⟩
  | 30 => ⟨S3200000x1, .i32⟩
  | 31 => ⟨S3200000, .f32⟩
  | 32 => ⟨S_, .i32⟩
  | 33 => ⟨S3200000, .i32⟩
  | 34 => ⟨S3200000, .i1⟩
  | 35 => ⟨S_, .i32⟩
  | 36 => ⟨S3200000, .i32⟩
  | 37 => ⟨S3200000, .i32⟩
  | 38 => ⟨S3200000, .i32⟩
  | 39 => ⟨S3200000x1, .i32⟩
  | 40 => ⟨S3200000, .f32⟩
  | 41 => ⟨S3200000, .f32⟩
  | 42 => ⟨S3200000x1, .f32⟩
  | 43 => ⟨S3200000x16, .f32⟩
  | 44 => ⟨S3200000x16, .f32⟩
  | 45 => ⟨S_, .f32⟩
  | 46 => ⟨S100000x16, .f32⟩
  | 47 => ⟨S3200000x1, .i32⟩
  | 48 => ⟨S100000x16, .f32⟩
  | 49 => ⟨S100000, .f32⟩
  | 50 => ⟨S100000x1, .f32⟩
  | 51 => ⟨S100000x16, .f32⟩
  | 52 => ⟨S100000x16, .f32⟩
  | 53 => ⟨S100000x16, .f32⟩
  | 54 => ⟨S1x16, .f32⟩
  | 55 => ⟨S100000x16, .f32⟩
  | 56 => ⟨S100000x16, .f32⟩
  | _ => ⟨S100000x256, .f32⟩

abbrev hbmTy (i : Nat) : BufTy := match i / 128 with
  | 0 => hbmTy0_0 i
  | 1 => hbmTy0_1 i
  | _ => ⟨S100000x256, .f32⟩

abbrev bufTy : (tb : Table) → Fin (tcTables nBuf tb) → BufTy
  | .hbm, ⟨i, _⟩ => hbmTy i
  | _, _ => ⟨S100000x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_cst : Ref sig .tc := ⟨.hbm, 13, rfl⟩
abbrev main_v5 : Ref sig .tc := ⟨.hbm, 14, rfl⟩
abbrev main_cst_0 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_cst_1 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_c : Ref sig .tc := ⟨.hbm, 23, rfl⟩
abbrev main_v12 : Ref sig .tc := ⟨.hbm, 24, rfl⟩
abbrev main_v13 : Ref sig .tc := ⟨.hbm, 25, rfl⟩
abbrev main_c_2 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_c_3 : Ref sig .tc := ⟨.hbm, 32, rfl⟩
abbrev main_v19 : Ref sig .tc := ⟨.hbm, 33, rfl⟩
abbrev main_v20 : Ref sig .tc := ⟨.hbm, 34, rfl⟩
abbrev main_c_4 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_c_5 : Ref sig .tc := ⟨.hbm, 41, rfl⟩
abbrev main_v26 : Ref sig .tc := ⟨.hbm, 42, rfl⟩
abbrev main_v27 : Ref sig .tc := ⟨.hbm, 43, rfl⟩
abbrev main_c_6 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_cst_7 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_call0_cst : Ref sig .tc := ⟨.hbm, 66, rfl⟩
abbrev main_call0_v0 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_cst_8 : Ref sig .tc := ⟨.hbm, 74, rfl⟩
abbrev main_v54 : Ref sig .tc := ⟨.hbm, 75, rfl⟩
abbrev main_cst_9 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_cst_10 : Ref sig .tc := ⟨.hbm, 80, rfl⟩
abbrev main_v58 : Ref sig .tc := ⟨.hbm, 81, rfl⟩
abbrev main_v59 : Ref sig .tc := ⟨.hbm, 82, rfl⟩
abbrev main_v60 : Ref sig .tc := ⟨.hbm, 83, rfl⟩
abbrev main_c_11 : Ref sig .tc := ⟨.hbm, 84, rfl⟩
abbrev main_v61 : Ref sig .tc := ⟨.hbm, 85, rfl⟩
abbrev main_v62 : Ref sig .tc := ⟨.hbm, 86, rfl⟩
abbrev main_c_12 : Ref sig .tc := ⟨.hbm, 87, rfl⟩
abbrev main_v63 : Ref sig .tc := ⟨.hbm, 88, rfl⟩
abbrev main_v64 : Ref sig .tc := ⟨.hbm, 89, rfl⟩
abbrev main_v65 : Ref sig .tc := ⟨.hbm, 90, rfl⟩
abbrev main_v66 : Ref sig .tc := ⟨.hbm, 91, rfl⟩
abbrev main_v67 : Ref sig .tc := ⟨.hbm, 92, rfl⟩
abbrev main_c_13 : Ref sig .tc := ⟨.hbm, 93, rfl⟩
abbrev main_v68 : Ref sig .tc := ⟨.hbm, 94, rfl⟩
abbrev main_v69 : Ref sig .tc := ⟨.hbm, 95, rfl⟩
abbrev main_c_14 : Ref sig .tc := ⟨.hbm, 96, rfl⟩
abbrev main_v70 : Ref sig .tc := ⟨.hbm, 97, rfl⟩
abbrev main_v71 : Ref sig .tc := ⟨.hbm, 98, rfl⟩
abbrev main_v72 : Ref sig .tc := ⟨.hbm, 99, rfl⟩
abbrev main_v73 : Ref sig .tc := ⟨.hbm, 100, rfl⟩
abbrev main_v74 : Ref sig .tc := ⟨.hbm, 101, rfl⟩
abbrev main_c_15 : Ref sig .tc := ⟨.hbm, 102, rfl⟩
abbrev main_v75 : Ref sig .tc := ⟨.hbm, 103, rfl⟩
abbrev main_v76 : Ref sig .tc := ⟨.hbm, 104, rfl⟩
abbrev main_c_16 : Ref sig .tc := ⟨.hbm, 105, rfl⟩
abbrev main_v77 : Ref sig .tc := ⟨.hbm, 106, rfl⟩
abbrev main_v78 : Ref sig .tc := ⟨.hbm, 107, rfl⟩
abbrev main_v79 : Ref sig .tc := ⟨.hbm, 108, rfl⟩
abbrev main_v80 : Ref sig .tc := ⟨.hbm, 109, rfl⟩
abbrev main_v81 : Ref sig .tc := ⟨.hbm, 110, rfl⟩
abbrev main_v82 : Ref sig .tc := ⟨.hbm, 111, rfl⟩
abbrev main_v83 : Ref sig .tc := ⟨.hbm, 112, rfl⟩
abbrev main_v84 : Ref sig .tc := ⟨.hbm, 113, rfl⟩
abbrev main_v85 : Ref sig .tc := ⟨.hbm, 114, rfl⟩
abbrev main_cst_17 : Ref sig .tc := ⟨.hbm, 115, rfl⟩
abbrev main_v86 : Ref sig .tc := ⟨.hbm, 116, rfl⟩
abbrev main_v87 : Ref sig .tc := ⟨.hbm, 117, rfl⟩
abbrev main_v88 : Ref sig .tc := ⟨.hbm, 118, rfl⟩
abbrev main_v89 : Ref sig .tc := ⟨.hbm, 119, rfl⟩
abbrev main_v90 : Ref sig .tc := ⟨.hbm, 120, rfl⟩
abbrev main_v91 : Ref sig .tc := ⟨.hbm, 121, rfl⟩
abbrev main_v92 : Ref sig .tc := ⟨.hbm, 122, rfl⟩
abbrev main_v93 : Ref sig .tc := ⟨.hbm, 123, rfl⟩
abbrev main_v94 : Ref sig .tc := ⟨.hbm, 124, rfl⟩
abbrev main_v95 : Ref sig .tc := ⟨.hbm, 125, rfl⟩
abbrev main_v96 : Ref sig .tc := ⟨.hbm, 126, rfl⟩
abbrev main_v97 : Ref sig .tc := ⟨.hbm, 127, rfl⟩
abbrev main_v98 : Ref sig .tc := ⟨.hbm, 128, rfl⟩
abbrev main_v99 : Ref sig .tc := ⟨.hbm, 129, rfl⟩
abbrev main_v100 : Ref sig .tc := ⟨.hbm, 130, rfl⟩
abbrev main_v101 : Ref sig .tc := ⟨.hbm, 131, rfl⟩
abbrev main_cst_18 : Ref sig .tc := ⟨.hbm, 132, rfl⟩
abbrev main_v102 : Ref sig .tc := ⟨.hbm, 133, rfl⟩
abbrev main_cst_19 : Ref sig .tc := ⟨.hbm, 134, rfl⟩
abbrev main_v103 : Ref sig .tc := ⟨.hbm, 135, rfl⟩
abbrev main_v104 : Ref sig .tc := ⟨.hbm, 136, rfl⟩
abbrev main_v105 : Ref sig .tc := ⟨.hbm, 137, rfl⟩
abbrev main_cst_20 : Ref sig .tc := ⟨.hbm, 138, rfl⟩
abbrev main_v106 : Ref sig .tc := ⟨.hbm, 139, rfl⟩
abbrev main_v107 : Ref sig .tc := ⟨.hbm, 140, rfl⟩
abbrev main_v108 : Ref sig .tc := ⟨.hbm, 141, rfl⟩
abbrev main_c_21 : Ref sig .tc := ⟨.hbm, 142, rfl⟩
abbrev main_v109 : Ref sig .tc := ⟨.hbm, 143, rfl⟩
abbrev main_v110 : Ref sig .tc := ⟨.hbm, 144, rfl⟩
abbrev main_c_22 : Ref sig .tc := ⟨.hbm, 145, rfl⟩
abbrev main_v111 : Ref sig .tc := ⟨.hbm, 146, rfl⟩
abbrev main_v112 : Ref sig .tc := ⟨.hbm, 147, rfl⟩
abbrev main_v113 : Ref sig .tc := ⟨.hbm, 148, rfl⟩
abbrev main_v114 : Ref sig .tc := ⟨.hbm, 149, rfl⟩
abbrev main_v115 : Ref sig .tc := ⟨.hbm, 150, rfl⟩
abbrev main_c_23 : Ref sig .tc := ⟨.hbm, 151, rfl⟩
abbrev main_v116 : Ref sig .tc := ⟨.hbm, 152, rfl⟩
abbrev main_v117 : Ref sig .tc := ⟨.hbm, 153, rfl⟩
abbrev main_c_24 : Ref sig .tc := ⟨.hbm, 154, rfl⟩
abbrev main_v118 : Ref sig .tc := ⟨.hbm, 155, rfl⟩
abbrev main_v119 : Ref sig .tc := ⟨.hbm, 156, rfl⟩
abbrev main_v120 : Ref sig .tc := ⟨.hbm, 157, rfl⟩
abbrev main_v121 : Ref sig .tc := ⟨.hbm, 158, rfl⟩
abbrev main_v122 : Ref sig .tc := ⟨.hbm, 159, rfl⟩
abbrev main_c_25 : Ref sig .tc := ⟨.hbm, 160, rfl⟩
abbrev main_v123 : Ref sig .tc := ⟨.hbm, 161, rfl⟩
abbrev main_v124 : Ref sig .tc := ⟨.hbm, 162, rfl⟩
abbrev main_c_26 : Ref sig .tc := ⟨.hbm, 163, rfl⟩
abbrev main_v125 : Ref sig .tc := ⟨.hbm, 164, rfl⟩
abbrev main_v126 : Ref sig .tc := ⟨.hbm, 165, rfl⟩
abbrev main_v127 : Ref sig .tc := ⟨.hbm, 166, rfl⟩
abbrev main_v128 : Ref sig .tc := ⟨.hbm, 167, rfl⟩
abbrev main_v129 : Ref sig .tc := ⟨.hbm, 168, rfl⟩
abbrev main_v130 : Ref sig .tc := ⟨.hbm, 169, rfl⟩
abbrev main_v131 : Ref sig .tc := ⟨.hbm, 170, rfl⟩
abbrev main_v132 : Ref sig .tc := ⟨.hbm, 171, rfl⟩
abbrev main_v133 : Ref sig .tc := ⟨.hbm, 172, rfl⟩
abbrev main_cst_27 : Ref sig .tc := ⟨.hbm, 173, rfl⟩
abbrev main_v134 : Ref sig .tc := ⟨.hbm, 174, rfl⟩
abbrev main_v135 : Ref sig .tc := ⟨.hbm, 175, rfl⟩
abbrev main_v136 : Ref sig .tc := ⟨.hbm, 176, rfl⟩
abbrev main_v137 : Ref sig .tc := ⟨.hbm, 177, rfl⟩
abbrev main_v138 : Ref sig .tc := ⟨.hbm, 178, rfl⟩
abbrev main_v139 : Ref sig .tc := ⟨.hbm, 179, rfl⟩
abbrev main_v140 : Ref sig .tc := ⟨.hbm, 180, rfl⟩
abbrev main_v141 : Ref sig .tc := ⟨.hbm, 181, rfl⟩
abbrev main_v142 : Ref sig .tc := ⟨.hbm, 182, rfl⟩
abbrev main_v143 : Ref sig .tc := ⟨.hbm, 183, rfl⟩
abbrev main_v144 : Ref sig .tc := ⟨.hbm, 184, rfl⟩

abbrev nD : Nat := 1
abbrev τ : Topo := Topo.v7x

variable {F : FTy → Type} [FloatOps F]

class Facts₀ : Prop where
  slices_S2x3200000_S1x3200000_0_0 : S2x3200000.Slices ![0, 0] S1x3200000
  shapeCasts_S1x3200000_S3200000 : S1x3200000.ShapeCasts S3200000
  slices_S2x3200000_S1x3200000_1_0 : S2x3200000.Slices ![1, 0] S1x3200000
  bcast_S_S3200000 : S_.BroadcastsInDim S3200000 (![] : Fin 0 → Fin S3200000.rank)
  bcast_S_S100000 : S_.BroadcastsInDim S100000 (![] : Fin 0 → Fin S100000.rank)
  bcast_S3200000_S3200000x1_0 : S3200000.BroadcastsInDim S3200000x1 (![0] : Fin 1 → Fin S3200000x1.rank)
  bcast_S3200000x1_S3200000x32_0_1 : S3200000x1.BroadcastsInDim S3200000x32 (![0, 1] : Fin 2 → Fin S3200000x32.rank)
  bcast_S_S100000x32 : S_.BroadcastsInDim S100000x32 (![] : Fin 0 → Fin S100000x32.rank)
  bcast_S100000_S100000x1_0 : S100000.BroadcastsInDim S100000x1 (![0] : Fin 1 → Fin S100000x1.rank)
  bcast_S100000x1_S100000x32_0_1 : S100000x1.BroadcastsInDim S100000x32 (![0, 1] : Fin 2 → Fin S100000x32.rank)
  bcast_S32_S1x32_1 : S32.BroadcastsInDim S1x32 (![1] : Fin 1 → Fin S1x32.rank)
  bcast_S1x32_S100000x32_0_1 : S1x32.BroadcastsInDim S100000x32 (![0, 1] : Fin 2 → Fin S100000x32.rank)
  bcast_S3200000x1_S3200000x16_0_1 : S3200000x1.BroadcastsInDim S3200000x16 (![0, 1] : Fin 2 → Fin S3200000x16.rank)
  bcast_S_S100000x16 : S_.BroadcastsInDim S100000x16 (![] : Fin 0 → Fin S100000x16.rank)
  bcast_S100000x1_S100000x16_0_1 : S100000x1.BroadcastsInDim S100000x16 (![0, 1] : Fin 2 → Fin S100000x16.rank)
  bcast_S16_S1x16_1 : S16.BroadcastsInDim S1x16 (![1] : Fin 1 → Fin S1x16.rank)
  bcast_S1x16_S100000x16_0_1 : S1x16.BroadcastsInDim S100000x16 (![0, 1] : Fin 2 → Fin S100000x16.rank)
  dot_S100000x256_S256x32_S100000x32_1_0_0_1_n_n_wf : DotDims.WF S100000x256 S256x32 S100000x32 [1] [0] [0] [1] [] []
  scatter_S100000_S3200000x1_S3200000_n_0_0_1_wf : ScatterDims.WF S100000 S3200000x1 S3200000 [] [0] [0] 1
  gather_S100000x32_S3200000x1_S3200000x32_1_0_n_n_0_1_132_wf : GatherDims.WF S100000x32 S3200000x1 S3200000x32 [1] [0] [] [0] [] 1 ![1, 32]
  gather_S100000_S3200000x1_S3200000_n_0_n_n_0_1_1_wf : GatherDims.WF S100000 S3200000x1 S3200000 [] [0] [] [0] [] 1 ![1]
  scatter_S100000x32_S3200000x1_S3200000x32_1_0_0_1_wf : ScatterDims.WF S100000x32 S3200000x1 S3200000x32 [1] [0] [0] 1
  dot_S100000x32_S32x16_S100000x16_1_0_0_1_n_n_wf : DotDims.WF S100000x32 S32x16 S100000x16 [1] [0] [0] [1] [] []
  gather_S100000x16_S3200000x1_S3200000x16_1_0_n_n_0_1_116_wf : GatherDims.WF S100000x16 S3200000x1 S3200000x16 [1] [0] [] [0] [] 1 ![1, 16]
  scatter_S100000x16_S3200000x1_S3200000x16_1_0_0_1_wf : ScatterDims.WF S100000x16 S3200000x1 S3200000x16 [1] [0] [0] 1

variable [Facts₀]

def dot_S100000x256_S256x32_S100000x32_1_0_0_1_n_n : DotDims S100000x256 S256x32 S100000x32 where
  lhsContracting := [1]
  rhsContracting := [0]
  lhsNonContracting := [0]
  rhsNonContracting := [1]
  lhsBatch := []
  rhsBatch := []
  wf := dot_S100000x256_S256x32_S100000x32_1_0_0_1_n_n_wf
def scatter_S100000_S3200000x1_S3200000_n_0_0_1 : ScatterDims S100000 S3200000x1 S3200000 where
  updateWindowDims := []
  insertedWindowDims := [0]
  scatterDimsToOperandDims := [0]
  indexVectorDim := 1
  wf := scatter_S100000_S3200000x1_S3200000_n_0_0_1_wf
def gather_S100000x32_S3200000x1_S3200000x32_1_0_n_n_0_1_132 : GatherDims S100000x32 S3200000x1 S3200000x32 where
  offsetDims := [1]
  collapsedSliceDims := [0]
  operandBatchingDims := []
  startIndicesBatchingDims := []
  startIndexMap := [0]
  indexVectorDim := 1
  sliceSizes := ![1, 32]
  wf := gather_S100000x32_S3200000x1_S3200000x32_1_0_n_n_0_1_132_wf
def gather_S100000_S3200000x1_S3200000_n_0_n_n_0_1_1 : GatherDims S100000 S3200000x1 S3200000 where
  offsetDims := []
  collapsedSliceDims := [0]
  operandBatchingDims := []
  startIndicesBatchingDims := []
  startIndexMap := [0]
  indexVectorDim := 1
  sliceSizes := ![1]
  wf := gather_S100000_S3200000x1_S3200000_n_0_n_n_0_1_1_wf
def scatter_S100000x32_S3200000x1_S3200000x32_1_0_0_1 : ScatterDims S100000x32 S3200000x1 S3200000x32 where
  updateWindowDims := [1]
  insertedWindowDims := [0]
  scatterDimsToOperandDims := [0]
  indexVectorDim := 1
  wf := scatter_S100000x32_S3200000x1_S3200000x32_1_0_0_1_wf
def dot_S100000x32_S32x16_S100000x16_1_0_0_1_n_n : DotDims S100000x32 S32x16 S100000x16 where
  lhsContracting := [1]
  rhsContracting := [0]
  lhsNonContracting := [0]
  rhsNonContracting := [1]
  lhsBatch := []
  rhsBatch := []
  wf := dot_S100000x32_S32x16_S100000x16_1_0_0_1_n_n_wf
def gather_S100000x16_S3200000x1_S3200000x16_1_0_n_n_0_1_116 : GatherDims S100000x16 S3200000x1 S3200000x16 where
  offsetDims := [1]
  collapsedSliceDims := [0]
  operandBatchingDims := []
  startIndicesBatchingDims := []
  startIndexMap := [0]
  indexVectorDim := 1
  sliceSizes := ![1, 16]
  wf := gather_S100000x16_S3200000x1_S3200000x16_1_0_n_n_0_1_116_wf
def scatter_S100000x16_S3200000x1_S3200000x16_1_0_0_1 : ScatterDims S100000x16 S3200000x1 S3200000x16 where
  updateWindowDims := [1]
  insertedWindowDims := [0]
  scatterDimsToOperandDims := [0]
  indexVectorDim := 1
  wf := scatter_S100000x16_S3200000x1_S3200000x16_1_0_0_1_wf

class Facts : Prop extends Facts₀ where

variable [Facts]
-- ==== Proof.KernelRun.lean ====
/-
  The idealized kernel program's run, with its two results named.

  The program is ten segments: four stretches of host operations and six regions.  Every weakly fair execution
  terminates without a fault, and in the final state each buffer holds what the fold of the segments leaves in it:
  a stretch applies its operations to the contents it is entered with, a region replaces its output array by what
  its grid points write back.  Read at the two result buffers and at the eight arguments (which no segment writes),
  that is the run stated here; the results are left as the fold's contents `W10`, to be evaluated separately.
-/
import proofs.«140263_j12025908429199_1_alg».proof.Proof.Gen.KernelIdeal.Frame

noncomputable section

namespace Cert.KernelIdeal.Outputs

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxRecDepth 16384 in
set_option backward.isDefEq.respectTransparency.types false in
/-- Every weakly fair execution terminates, nothing faulting, with the two results at the last boundary's contents
    and the arguments as launched. -/
theorem run : θ_run defs (onTc (τ := τ) (main (F := F))) ⟨m, fun _ => 0, ρ⟩ (fun r => ∀ c : Dev nD,
      r.2.mem ((c.tc : Thread nD τ).loc main_v74) = W10 m ρ c (Proc.devRef .tc main_v74)
      ∧ r.2.mem ((c.tc : Thread nD τ).loc main_v106) = W10 m ρ c (Proc.devRef .tc main_v106)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W10 m ρ c b)
    (hfin := fun c s' => by
      iintro ⟨⟨Hh, -⟩, HSI⟩
      unfold StableHlo.held
      imodintro
      iapply (pointsTo_read_all (Pipeline.ucRefs τ sig) (fun b => (((c : Thread nD τ)).1, b)) (W10 m ρ c) s')
      isplitl [Hh] <;> iassumption)
    (hQ := fun s h c =>
      ⟨h c _ (mem_uc main_v74 (by decide)),
       h c _ (mem_uc main_v106 (by decide)),
       (h c _ (mem_uc main_arg0 (by decide))).trans (W10_main_arg0 m ρ c),
       (h c _ (mem_uc main_arg1 (by decide))).trans (W10_main_arg1 m ρ c),
       (h c _ (mem_uc main_arg2 (by decide))).trans (W10_main_arg2 m ρ c),
       (h c _ (mem_uc main_arg3 (by decide))).trans (W10_main_arg3 m ρ c),
       (h c _ (mem_uc main_arg4 (by decide))).trans (W10_main_arg4 m ρ c),
       (h c _ (mem_uc main_arg5 (by decide))).trans (W10_main_arg5 m ρ c),
       (h c _ (mem_uc main_arg6 (by decide))).trans (W10_main_arg6 m ρ c),
       (h c _ (mem_uc main_arg7 (by decide))).trans (W10_main_arg7 m ρ c)⟩)

end Cert.KernelIdeal.Outputs

end
-- ==== Proof.LibDotSum.lean ====
/-
  A matrix product read at an entry.  For dimension numbers `d` of a plain product `[A,K] × [K,M] → [A,M]`
  (one contracted axis: the columns of the left factor against the rows of the right one, no batch axis) the sum over
  the contraction index of the factors' products, at the entry `(p, j)`, is the textbook sum
  `∑ k, l (p, k) · r (k, j)` over `Fin K`.  The four coordinate facts `hl0 … hr1` say what "plain" means; they are
  proved once per record, at literal extents.  Then the two products a program can spell — a `tpu.matmul` into a zero
  accumulator and the host's `dot_general` — are that sum on the extended reals.
-/
import Idealize.ShloMosaic.Lib.ValueIdx
import Idealize.ShloMosaic.PureOps.Ideal.Laws

noncomputable section

namespace Cert.DotSum

open Idealize.ShloMosaic Idealize.ShloMosaic.ValueIdx

/-- The contraction sum of a plain product at the entry `(p, j)`, re-indexed over `Fin K`. -/
theorem contr_sum {A K M : ℕ} (d : DotDims ⟨2, ![A, K]⟩ ⟨2, ![K, M]⟩ ⟨2, ![A, M]⟩)
    (hr : d.contr.rank = 1) (hs : d.contr.size ⟨0, by omega⟩ = K)
    (hl0 : ∀ (i : (⟨2, ![A, M]⟩ : Shape).Idx) (q : d.contr.Idx), (d.lhsIdx i q 0).val = (i 0).val)
    (hl1 : ∀ (i : (⟨2, ![A, M]⟩ : Shape).Idx) (q : d.contr.Idx), (d.lhsIdx i q 1).val = (q ⟨0, by omega⟩).val)
    (hr0 : ∀ (i : (⟨2, ![A, M]⟩ : Shape).Idx) (q : d.contr.Idx), (d.rhsIdx i q 0).val = (q ⟨0, by omega⟩).val)
    (hr1 : ∀ (i : (⟨2, ![A, M]⟩ : Shape).Idx) (q : d.contr.Idx), (d.rhsIdx i q 1).val = (i 1).val)
    (l : (⟨2, ![A, K]⟩ : Shape).Idx → EReal) (r : (⟨2, ![K, M]⟩ : Shape).Idx → EReal) (p : Fin A) (j : Fin M) :
    ∑ q : d.contr.Idx, l (d.lhsIdx (ix2 p j) q) * r (d.rhsIdx (ix2 p j) q) = ∑ k : Fin K, l (ix2 p k) * r (ix2 k j) := by
  rw [← Equiv.sum_comp (contrEquiv1 d K hr hs).symm]
  refine Finset.sum_congr rfl fun k _ => ?_
  have hk := contrEquiv1_symm_val d K hr hs k
  have el : d.lhsIdx (ix2 p j) ((contrEquiv1 d K hr hs).symm k) = ix2 p k := funext fun a => Fin.ext (by
    match a with
    | ⟨0, _⟩ => exact hl0 _ _
    | ⟨1, _⟩ => exact (hl1 _ _).trans hk)
  have er : d.rhsIdx (ix2 p j) ((contrEquiv1 d K hr hs).symm k) = ix2 k j := funext fun a => Fin.ext (by
    match a with
    | ⟨0, _⟩ => exact (hr0 _ _).trans hk
    | ⟨1, _⟩ => exact hr1 _ _)
  rw [el, er]

end Cert.DotSum

end
-- ==== Proof.LibDense.lean ====
/-
  The dense pieces of a two-layer graph convolution with a mean-pool head, as functions on the extended reals, and
  the two spellings a program has for each.

  `prod x w` is the matrix product, entry (p, j) the sum over k of x (p, k) · w (k, j); `act x b` adds the one-row
  matrix `b` to every row of `x` and takes the maximum with zero (bias, then relu); `shift y b` adds the one-row matrix
  to every row.  A kernel spells a product as a matrix-unit product into a zero accumulator, the host as a
  `dot_general`; a kernel spreads the bias row by a vector broadcast of the (re-cast) row and takes the maximum with a
  splat of the scalar zero, the host broadcasts the row in dimensions (0, 1) and takes the maximum with a broadcast of
  the rank-0 zero.  Both spellings of each piece are the one function; nothing here uses more of the arithmetic of the
  extended reals than 0 + s = s, so no finiteness is needed.  General in the extents A, K, M.  Also: each function read
  through maps of its indices (`prod_reindex`, `act_reindex`, `shift_reindex`: a block of rows of a product is the
  product of the block of rows, and the like), and a vector re-cast as one row against its broadcast along axis 1
  (`row_cast_eq_broadcast`).  The product lemmas take the four coordinate facts of a plain [A,K]×[K,M] record, as
  `Cert.DotSum.contr_sum` (LibDotSum.lean, which this file needs beside it) does.
-/
import proofs.«140263_j12025908429199_1_alg».proof.Proof.LibDotSum
import Idealize.ShloMosaic.Lib.ValueIdx
import Idealize.ShloMosaic.Lib.ValueLayout
import Idealize.ShloMosaic.Lib.IdealHost
import Idealize.ShloMosaic.Lib.KernelVsHost
import Idealize.ShloMosaic.Lib.Pipeline.Value
import Idealize.ShloMosaic.PureOps.Ideal.Laws

noncomputable section

namespace Cert.Dense

open Idealize.ShloMosaic Idealize.ShloMosaic.ValueIdx

/-- The matrix product on the extended reals: entry (p, j) is the sum over k of x (p, k) · w (k, j). -/
def prod {A K M : ℕ} (x : (⟨2, ![A, K]⟩ : Shape).Idx → EReal) (w : (⟨2, ![K, M]⟩ : Shape).Idx → EReal) :
    (⟨2, ![A, M]⟩ : Shape).Idx → EReal :=
  fun i => ∑ k : Fin K, x (ix2 (i 0 : Fin A) k) * w (ix2 k (i 1 : Fin M))

/-- Bias and relu: the one-row matrix `b` added to every row, then the maximum with zero. -/
def act {A M : ℕ} (x : (⟨2, ![A, M]⟩ : Shape).Idx → EReal) (b : (⟨2, ![1, M]⟩ : Shape).Idx → EReal) :
    (⟨2, ![A, M]⟩ : Shape).Idx → EReal :=
  fun i => max (x i + b (ix2 (0 : Fin 1) (i 1 : Fin M))) (Ideal.ofBits .f32 0x00000000#32)

/-- The one-row matrix `b` added to every row. -/
def shift {A M : ℕ} (y : (⟨2, ![A, M]⟩ : Shape).Idx → EReal) (b : (⟨2, ![1, M]⟩ : Shape).Idx → EReal) :
    (⟨2, ![A, M]⟩ : Shape).Idx → EReal :=
  fun i => y i + b (ix2 (0 : Fin 1) (i 1 : Fin M))

theorem prod_apply {A K M : ℕ} (x : (⟨2, ![A, K]⟩ : Shape).Idx → EReal) (w : (⟨2, ![K, M]⟩ : Shape).Idx → EReal)
    (p : Fin A) (j : Fin M) : prod x w (ix2 p j) = ∑ k : Fin K, x (ix2 p k) * w (ix2 k j) := rfl

theorem act_apply {A M : ℕ} (x : (⟨2, ![A, M]⟩ : Shape).Idx → EReal) (b : (⟨2, ![1, M]⟩ : Shape).Idx → EReal)
    (p : Fin A) (j : Fin M) :
    act x b (ix2 p j) = max (x (ix2 p j) + b (ix2 (0 : Fin 1) j)) (Ideal.ofBits .f32 0x00000000#32) := rfl

theorem shift_apply {A M : ℕ} (y : (⟨2, ![A, M]⟩ : Shape).Idx → EReal) (b : (⟨2, ![1, M]⟩ : Shape).Idx → EReal)
    (p : Fin A) (j : Fin M) : shift y b (ix2 p j) = y (ix2 p j) + b (ix2 (0 : Fin 1) j) := rfl

/-- The product of two matrices read through maps of their indices, at an entry `j`, is the product of the matrices
    at the entry `j'` whenever the maps carry row `j 0` to row `j' 0` and column `j 1` to column `j' 1`, the
    contraction coordinate kept: a block of rows of a product is the product of the block of rows. -/
theorem prod_reindex {A K M A' M' : ℕ} (X : (⟨2, ![A', K]⟩ : Shape).Idx → EReal) (W : (⟨2, ![K, M']⟩ : Shape).Idx → EReal)
    (eX : (⟨2, ![A, K]⟩ : Shape).Idx → (⟨2, ![A', K]⟩ : Shape).Idx) (eW : (⟨2, ![K, M]⟩ : Shape).Idx → (⟨2, ![K, M']⟩ : Shape).Idx)
    (j : (⟨2, ![A, M]⟩ : Shape).Idx) (j' : (⟨2, ![A', M']⟩ : Shape).Idx)
    (hX : ∀ k : Fin K, eX (ix2 (j 0 : Fin A) k) = ix2 (j' 0 : Fin A') k)
    (hW : ∀ k : Fin K, eW (ix2 k (j 1 : Fin M)) = ix2 k (j' 1 : Fin M')) :
    prod (fun y => X (eX y)) (fun y => W (eW y)) j = prod X W j' :=
  Finset.sum_congr rfl fun k _ => by
    show X (eX (ix2 (j 0 : Fin A) k)) * W (eW (ix2 k (j 1 : Fin M))) = X (ix2 (j' 0 : Fin A') k) * W (ix2 k (j' 1 : Fin M'))
    rw [hX k, hW k]
    rfl

/-- Bias-then-relu of a matrix and a bias row read through maps of their indices, at an entry `j`, is bias-then-relu
    of the matrix and the row at the entry `j'` whenever the first map carries `j` to `j'` and the second keeps the
    column: a block of rows of bias-then-relu is bias-then-relu of the block of rows. -/
theorem act_reindex {A M A' : ℕ} (X : (⟨2, ![A', M]⟩ : Shape).Idx → EReal) (B : (⟨2, ![1, M]⟩ : Shape).Idx → EReal)
    (eX : (⟨2, ![A, M]⟩ : Shape).Idx → (⟨2, ![A', M]⟩ : Shape).Idx) (eB : (⟨2, ![1, M]⟩ : Shape).Idx → (⟨2, ![1, M]⟩ : Shape).Idx)
    (j : (⟨2, ![A, M]⟩ : Shape).Idx) (j' : (⟨2, ![A', M]⟩ : Shape).Idx)
    (hX : eX j = j') (hB : eB (ix2 (0 : Fin 1) (j 1 : Fin M)) = ix2 (0 : Fin 1) (j' 1 : Fin M)) :
    act (fun y => X (eX y)) (fun y => B (eB y)) j = act X B j' := by
  show max (X (eX j) + B (eB (ix2 (0 : Fin 1) (j 1 : Fin M)))) _ = max (X j' + B (ix2 (0 : Fin 1) (j' 1 : Fin M))) _
  rw [hX, hB]
  rfl

/-- A matrix shifted by a bias row read through a map of its indices, at an entry `j`, is the shift at `j'` whenever
    the matrices agree there and the map keeps the column. -/
theorem shift_reindex {A M A' : ℕ} (Y' : (⟨2, ![A, M]⟩ : Shape).Idx → EReal) (Y : (⟨2, ![A', M]⟩ : Shape).Idx → EReal)
    (B : (⟨2, ![1, M]⟩ : Shape).Idx → EReal) (eB : (⟨2, ![1, M]⟩ : Shape).Idx → (⟨2, ![1, M]⟩ : Shape).Idx)
    (j : (⟨2, ![A, M]⟩ : Shape).Idx) (j' : (⟨2, ![A', M]⟩ : Shape).Idx)
    (hY : Y' j = Y j') (hB : eB (ix2 (0 : Fin 1) (j 1 : Fin M)) = ix2 (0 : Fin 1) (j' 1 : Fin M)) :
    shift Y' (fun y => B (eB y)) j = shift Y B j' := by
  show Y' j + B (eB (ix2 (0 : Fin 1) (j 1 : Fin M))) = Y j' + B (ix2 (0 : Fin 1) (j' 1 : Fin M))
  rw [hY, hB]
  rfl

/-! ## The product, in a kernel and on the host -/

section Products

variable {A K M : ℕ} {φ₁ φ₂ : FTy} (d : DotDims ⟨2, ![A, K]⟩ ⟨2, ![K, M]⟩ ⟨2, ![A, M]⟩)
  (hr : d.contr.rank = 1) (hs : d.contr.size ⟨0, by omega⟩ = K)
  (hl0 : ∀ (i : (⟨2, ![A, M]⟩ : Shape).Idx) (q : d.contr.Idx), (d.lhsIdx i q 0).val = (i 0).val)
  (hl1 : ∀ (i : (⟨2, ![A, M]⟩ : Shape).Idx) (q : d.contr.Idx), (d.lhsIdx i q 1).val = (q ⟨0, by omega⟩).val)
  (hr0 : ∀ (i : (⟨2, ![A, M]⟩ : Shape).Idx) (q : d.contr.Idx), (d.rhsIdx i q 0).val = (q ⟨0, by omega⟩).val)
  (hr1 : ∀ (i : (⟨2, ![A, M]⟩ : Shape).Idx) (q : d.contr.Idx), (d.rhsIdx i q 1).val = (i 1).val)

include hr hs hl0 hl1 hr0 hr1

/-- A kernel's matrix-unit product into a zero accumulator is the product. -/
theorem matmul_zero_eq_prod (prec : Option ContractPrecision) (l : FVec Ideal ⟨2, ![A, K]⟩ φ₁) (r : FVec Ideal ⟨2, ![K, M]⟩ φ₂) :
    matmul d prec l r (constant ⟨2, ![A, M]⟩ .f32 0x00000000#32) = prod l r := by
  funext i
  obtain ⟨p, j, rfl⟩ : ∃ (p : Fin A) (j : Fin M), i = ix2 p j := ⟨i 0, i 1, eq_ix2 i⟩
  show FloatOps.matmul d prec l r (constant ⟨2, ![A, M]⟩ .f32 0x00000000#32) (ix2 p j) = _
  rw [Ideal.matmul_constant_zero_apply]
  exact Cert.DotSum.contr_sum d hr hs hl0 hl1 hr0 hr1 l r p j

/-- The host's `dot_general` is the product. -/
theorem dotGeneral_eq_prod (prec : Option ContractPrecision) (l : FVec Ideal ⟨2, ![A, K]⟩ φ₁) (r : FVec Ideal ⟨2, ![K, M]⟩ φ₂) :
    Host.dotGeneral d prec l r = prod l r := by
  rw [← matmul_zero_eq_dotGeneral]
  exact matmul_zero_eq_prod d hr hs hl0 hl1 hr0 hr1 prec l r

end Products

/-! ## Bias and relu, in a kernel and on the host -/

/-- A kernel's form: the row re-cast (twice) and broadcast down the rows, added, and the maximum with a splat of the
    scalar zero. -/
theorem kernel_act {A M : ℕ} (x : (⟨2, ![A, M]⟩ : Shape).Idx → EReal) (b : (⟨2, ![1, M]⟩ : Shape).Idx → EReal)
    (hx : (⟨2, ![A, M]⟩ : Shape).ShapeCasts ⟨2, ![A, M]⟩) (hb : (⟨2, ![1, M]⟩ : Shape).ShapeCasts ⟨2, ![1, M]⟩)
    (hbc : (⟨2, ![1, M]⟩ : Shape).Broadcasts ⟨2, ![A, M]⟩) :
    maximumf (F := Ideal) (φ := .f32)
        (addf (shapeCast ⟨2, ![A, M]⟩ x hx) (broadcastTo ⟨2, ![A, M]⟩ (shapeCast ⟨2, ![1, M]⟩ (shapeCast ⟨2, ![1, M]⟩ b hb) hb) hbc))
        (broadcast ⟨2, ![A, M]⟩ (Scalar.ofBits (F := Ideal) .f32 0x00000000#32))
      = act x b := by
  funext i
  obtain ⟨p, j, rfl⟩ : ∃ (p : Fin A) (j : Fin M), i = ix2 p j := ⟨i 0, i 1, eq_ix2 i⟩
  rw [shapeCast_self, shapeCast_self, shapeCast_self, maximumf_apply, addf_apply, broadcast_apply,
    broadcastTo_1b_ab_apply]
  rfl

/-- The host's form: the row broadcast in dimensions (0, 1), added, and the maximum with a broadcast of the rank-0
    zero. -/
theorem host_act {A M : ℕ} (x : (⟨2, ![A, M]⟩ : Shape).Idx → EReal) (b : (⟨2, ![1, M]⟩ : Shape).Idx → EReal)
    (hbc : (⟨2, ![1, M]⟩ : Shape).BroadcastsInDim ⟨2, ![A, M]⟩ ![0, 1])
    (h0 : (⟨0, ![]⟩ : Shape).BroadcastsInDim ⟨2, ![A, M]⟩ ![]) :
    maximumf (F := Ideal) (φ := .f32)
        (addf x (broadcastInDim ⟨2, ![A, M]⟩ ![0, 1] hbc b))
        (broadcastInDim ⟨2, ![A, M]⟩ ![] h0 (constant (F := Ideal) ⟨0, ![]⟩ .f32 0x00000000#32))
      = act x b := by
  funext i
  obtain ⟨p, j, rfl⟩ : ∃ (p : Fin A) (j : Fin M), i = ix2 p j := ⟨i 0, i 1, eq_ix2 i⟩
  rw [maximumf_apply, addf_apply, broadcastInDim_oneRow_apply, broadcastInDim_scalar_apply, constant_apply]
  rfl

/-- A kernel's form of the shifted product's last step: the row re-cast (twice) and broadcast down the rows, added. -/
theorem kernel_shift {A M : ℕ} (y : (⟨2, ![A, M]⟩ : Shape).Idx → EReal) (b : (⟨2, ![1, M]⟩ : Shape).Idx → EReal)
    (hb : (⟨2, ![1, M]⟩ : Shape).ShapeCasts ⟨2, ![1, M]⟩) (hbc : (⟨2, ![1, M]⟩ : Shape).Broadcasts ⟨2, ![A, M]⟩) :
    addf (F := Ideal) (φ := .f32) y (broadcastTo ⟨2, ![A, M]⟩ (shapeCast ⟨2, ![1, M]⟩ (shapeCast ⟨2, ![1, M]⟩ b hb) hb) hbc)
      = shift y b := by
  funext i
  obtain ⟨p, j, rfl⟩ : ∃ (p : Fin A) (j : Fin M), i = ix2 p j := ⟨i 0, i 1, eq_ix2 i⟩
  rw [shapeCast_self, shapeCast_self, addf_apply, broadcastTo_1b_ab_apply]
  rfl

/-- The host's form: the row broadcast in dimensions (0, 1), added. -/
theorem host_shift {A M : ℕ} (y : (⟨2, ![A, M]⟩ : Shape).Idx → EReal) (b : (⟨2, ![1, M]⟩ : Shape).Idx → EReal)
    (hbc : (⟨2, ![1, M]⟩ : Shape).BroadcastsInDim ⟨2, ![A, M]⟩ ![0, 1]) :
    addf (F := Ideal) (φ := .f32) y (broadcastInDim ⟨2, ![A, M]⟩ ![0, 1] hbc b) = shift y b := by
  funext i
  obtain ⟨p, j, rfl⟩ : ∃ (p : Fin A) (j : Fin M), i = ix2 p j := ⟨i 0, i 1, eq_ix2 i⟩
  rw [addf_apply, broadcastInDim_oneRow_apply]
  rfl

/-! ## A vector as a one-row matrix, two ways -/

/-- A vector of `n` entries re-cast as one row is the vector broadcast along axis 1 into one row. -/
theorem row_cast_eq_broadcast {n : ℕ} {α : Type} (v : (⟨1, ![n]⟩ : Shape).Idx → α)
    (hc : (⟨1, ![n]⟩ : Shape).ShapeCasts ⟨2, ![1, n]⟩) (hb : (⟨1, ![n]⟩ : Shape).BroadcastsInDim ⟨2, ![1, n]⟩ ![1]) :
    shapeCast ⟨2, ![1, n]⟩ v hc = broadcastInDim ⟨2, ![1, n]⟩ ![1] hb v := by
  funext i
  obtain ⟨r, t, rfl⟩ : ∃ (r : Fin 1) (t : Fin n), i = ix2 r t := ⟨i 0, i 1, eq_ix2 i⟩
  have hr : r = 0 := Subsingleton.elim _ _
  subst hr
  have e2 := shapeCast_apply v hc (ix2 (0 : Fin 1) t) (ix1 t) (by
    rw [Shape.rowMajor_val_two, Shape.rowMajor_val_one]; show t.val = 0 * n + t.val; omega)
  have e3 := broadcastInDim_apply ![1] hb v (ix2 (0 : Fin 1) t) (ix1 t) (by
    intro a
    match a with
    | ⟨0, _⟩ =>
      show t.val = if n = 1 then 0 else t.val
      split
      · have := t.isLt; omega
      · rfl)
  exact e2.trans e3.symm

end Cert.Dense

end
-- ==== Proof.KernelDots.lean ====
/-
  The two matrix-unit products of the kernel's bodies are plain products: a block of 10000 rows against a whole
  weight matrix, [10000,256]·[256,32] and [10000,32]·[32,16], the columns of the left factor contracted against the
  rows of the right one and no batch axis.  For each record the four coordinate facts that say so: an entry (p, j)
  of the product reads the left factor at (p, k) and the right factor at (k, j).  With them the body's product into a
  zero accumulator is the textbook sum over k (the bf16 casts of both factors are the identity on the extended reals).
-/
import proofs.«140263_j12025908429199_1_alg».proof.Proof.Gen.KernelIdeal
import proofs.«140263_j12025908429199_1_alg».proof.Proof.LibDense

noncomputable section

namespace Cert.KernelIdeal.Dots

open Cert.KernelIdeal Cert.KernelIdeal.Facts₀ Idealize.ShloMosaic Idealize.ShloMosaic.ValueIdx Cert.Dense

theorem dot_S10000x256_S256x32_S10000x32_1_0_0_1_n_n_l0 (i : S10000x32.Idx) (q : dot_S10000x256_S256x32_S10000x32_1_0_0_1_n_n.contr.Idx) : (dot_S10000x256_S256x32_S10000x32_1_0_0_1_n_n.lhsIdx i q 0).val = (i 0).val := by
  unfold DotDims.lhsIdx
  rw [dif_neg (show ¬(0 : Fin S10000x256.rank) ∈ dot_S10000x256_S256x32_S10000x32_1_0_0_1_n_n.lhsBatch by decide), dif_pos (show (0 : Fin S10000x256.rank) ∈ dot_S10000x256_S256x32_S10000x32_1_0_0_1_n_n.lhsNonContracting by decide)]
  rfl
theorem dot_S10000x256_S256x32_S10000x32_1_0_0_1_n_n_l1 (i : S10000x32.Idx) (q : dot_S10000x256_S256x32_S10000x32_1_0_0_1_n_n.contr.Idx) : (dot_S10000x256_S256x32_S10000x32_1_0_0_1_n_n.lhsIdx i q 1).val = (q ⟨0, by decide⟩).val :=
  dot_S10000x256_S256x32_S10000x32_1_0_0_1_n_n.lhsIdx_val_of_single rfl i q
theorem dot_S10000x256_S256x32_S10000x32_1_0_0_1_n_n_r0 (i : S10000x32.Idx) (q : dot_S10000x256_S256x32_S10000x32_1_0_0_1_n_n.contr.Idx) : (dot_S10000x256_S256x32_S10000x32_1_0_0_1_n_n.rhsIdx i q 0).val = (q ⟨0, by decide⟩).val :=
  dot_S10000x256_S256x32_S10000x32_1_0_0_1_n_n.rhsIdx_val_of_single rfl i q
theorem dot_S10000x256_S256x32_S10000x32_1_0_0_1_n_n_r1 (i : S10000x32.Idx) (q : dot_S10000x256_S256x32_S10000x32_1_0_0_1_n_n.contr.Idx) : (dot_S10000x256_S256x32_S10000x32_1_0_0_1_n_n.rhsIdx i q 1).val = (i 1).val := by
  unfold DotDims.rhsIdx
  rw [dif_neg (show ¬(1 : Fin S256x32.rank) ∈ dot_S10000x256_S256x32_S10000x32_1_0_0_1_n_n.rhsBatch by decide), dif_pos (show (1 : Fin S256x32.rank) ∈ dot_S10000x256_S256x32_S10000x32_1_0_0_1_n_n.rhsNonContracting by decide)]
  rfl

theorem dot_S10000x32_S32x16_S10000x16_1_0_0_1_n_n_l0 (i : S10000x16.Idx) (q : dot_S10000x32_S32x16_S10000x16_1_0_0_1_n_n.contr.Idx) : (dot_S10000x32_S32x16_S10000x16_1_0_0_1_n_n.lhsIdx i q 0).val = (i 0).val := by
  unfold DotDims.lhsIdx
  rw [dif_neg (show ¬(0 : Fin S10000x32.rank) ∈ dot_S10000x32_S32x16_S10000x16_1_0_0_1_n_n.lhsBatch by decide), dif_pos (show (0 : Fin S10000x32.rank) ∈ dot_S10000x32_S32x16_S10000x16_1_0_0_1_n_n.lhsNonContracting by decide)]
  rfl
theorem dot_S10000x32_S32x16_S10000x16_1_0_0_1_n_n_l1 (i : S10000x16.Idx) (q : dot_S10000x32_S32x16_S10000x16_1_0_0_1_n_n.contr.Idx) : (dot_S10000x32_S32x16_S10000x16_1_0_0_1_n_n.lhsIdx i q 1).val = (q ⟨0, by decide⟩).val :=
  dot_S10000x32_S32x16_S10000x16_1_0_0_1_n_n.lhsIdx_val_of_single rfl i q
theorem dot_S10000x32_S32x16_S10000x16_1_0_0_1_n_n_r0 (i : S10000x16.Idx) (q : dot_S10000x32_S32x16_S10000x16_1_0_0_1_n_n.contr.Idx) : (dot_S10000x32_S32x16_S10000x16_1_0_0_1_n_n.rhsIdx i q 0).val = (q ⟨0, by decide⟩).val :=
  dot_S10000x32_S32x16_S10000x16_1_0_0_1_n_n.rhsIdx_val_of_single rfl i q
theorem dot_S10000x32_S32x16_S10000x16_1_0_0_1_n_n_r1 (i : S10000x16.Idx) (q : dot_S10000x32_S32x16_S10000x16_1_0_0_1_n_n.contr.Idx) : (dot_S10000x32_S32x16_S10000x16_1_0_0_1_n_n.rhsIdx i q 1).val = (i 1).val := by
  unfold DotDims.rhsIdx
  rw [dif_neg (show ¬(1 : Fin S32x16.rank) ∈ dot_S10000x32_S32x16_S10000x16_1_0_0_1_n_n.rhsBatch by decide), dif_pos (show (1 : Fin S32x16.rank) ∈ dot_S10000x32_S32x16_S10000x16_1_0_0_1_n_n.rhsNonContracting by decide)]
  rfl

/-- The first layer's body: the block of 10000 rows of features times the whole 256 × 32 weight matrix. -/
theorem matmulA (x : (⟨2, ![10000, 256]⟩ : Shape).Idx → EReal) (w : (⟨2, ![256, 32]⟩ : Shape).Idx → EReal) :
    matmul (F := Ideal) dot_S10000x256_S256x32_S10000x32_1_0_0_1_n_n none (truncf (F := Ideal) (φ := .f32) .bf16 x bitsLt_bf16_f32) (truncf (F := Ideal) (φ := .f32) .bf16 w bitsLt_bf16_f32)
      (constant S10000x32 .f32 0x00000000#32) = prod x w :=
  matmul_zero_eq_prod (A := 10000) (K := 256) (M := 32) (φ₁ := .bf16) (φ₂ := .bf16) dot_S10000x256_S256x32_S10000x32_1_0_0_1_n_n rfl rfl dot_S10000x256_S256x32_S10000x32_1_0_0_1_n_n_l0 dot_S10000x256_S256x32_S10000x32_1_0_0_1_n_n_l1 dot_S10000x256_S256x32_S10000x32_1_0_0_1_n_n_r0 dot_S10000x256_S256x32_S10000x32_1_0_0_1_n_n_r1 none x w

/-- The second layers' body: the block of 10000 rows of hidden features times a whole 32 × 16 weight matrix. -/
theorem matmulB (x : (⟨2, ![10000, 32]⟩ : Shape).Idx → EReal) (w : (⟨2, ![32, 16]⟩ : Shape).Idx → EReal) :
    matmul (F := Ideal) dot_S10000x32_S32x16_S10000x16_1_0_0_1_n_n none (truncf (F := Ideal) (φ := .f32) .bf16 x bitsLt_bf16_f32) (truncf (F := Ideal) (φ := .f32) .bf16 w bitsLt_bf16_f32)
      (constant S10000x16 .f32 0x00000000#32) = prod x w :=
  matmul_zero_eq_prod (A := 10000) (K := 32) (M := 16) (φ₁ := .bf16) (φ₂ := .bf16) dot_S10000x32_S32x16_S10000x16_1_0_0_1_n_n rfl rfl dot_S10000x32_S32x16_S10000x16_1_0_0_1_n_n_l0 dot_S10000x32_S32x16_S10000x16_1_0_0_1_n_n_l1 dot_S10000x32_S32x16_S10000x16_1_0_0_1_n_n_r0 dot_S10000x32_S32x16_S10000x16_1_0_0_1_n_n_r1 none x w

end Cert.KernelIdeal.Dots

end
-- ==== Proof.Region0.lean ====
/-
  Region 0 of the kernel program (the first layer's feature transform): the array it leaves is one matrix product.

  The region walks ten grid points; point t stages rows 10000·t … 10000·t + 9999 of the left factor and the whole
  weight matrix, multiplies them on the matrix unit into a zero accumulator, and writes the 10000 × 32 result back as
  rows 10000·t … of the output.  A block of rows of a product is the product of that block of rows with the whole
  right factor, and the ten blocks tile the 100000 rows, so the output array ends as the product of the two whole
  arrays the region found on entry — whatever those were (the entry contents are a parameter).
-/
import proofs.«140263_j12025908429199_1_alg».proof.Proof.Gen.KernelIdeal.Frame
import proofs.«140263_j12025908429199_1_alg».proof.Proof.KernelDots

noncomputable section

namespace Cert.KernelIdeal.Region0

open Cert.KernelIdeal Cert.KernelIdeal.Gen Cert.KernelIdeal.Dots Idealize.ShloMosaic Idealize.ShloMosaic.TcCoe Idealize.SL.Sem
open Idealize.ShloMosaic.ValueIdx Cert.Dense
open Idealize.ShloMosaic.Pipeline (Dat)

variable (V : (c : Dev nD) → (b : Ref sig .tc) → Buf (Elt Ideal) ((c : Thread nD τ).loc b))

theorem origin : (![0, 0] : Fin 2 → Nat) = fun _ => 0 := funext fun a => by fin_cases a <;> rfl

/-- The printed index maps over the ten points: the left factor and the output move down one block of rows per
    point, the weights stay. -/
theorem index_maps : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- The body's stored value is the product of its two loaded blocks. -/
theorem body_product (x : Vec Ideal S10000x256 .f32) (w : Vec Ideal S256x32 .f32) :
    k0_pay1 (F := Ideal) x w = prod (A := 10000) (K := 256) (M := 32) x w := by
  unfold k0_pay1
  exact matmulA x w

/-- What point t writes back is block t of the product of the entry arrays. -/
theorem written_back (c : Dev nD) (t : Fin cfg0.N) :
    (dat0 (F := Ideal) V c).flushed 2 t
      = ((cfg0.win 2).blk t).view.read (Elt Ideal)
          (prod (A := 100000) (K := 256) (M := 32) (V c main_arg0 : S100000x256.Idx → EReal) (V c main_arg2 : S256x32.Idx → EReal)) := by
  show (cfg0.win 2).cut (grid0.coords t) ((dat0 (F := Ideal) V c).after 2 t) = _
  rw [after0_2]
  unfold out0_2
  rw [View.canon_unit_zero origin]
  simp only [View.ld_unit_zero (S := S10000x256) origin, View.ld_unit_zero (S := S256x32) origin]
  rw [body_product]
  obtain ⟨e0, e1, e2, e3, e4, e5⟩ := index_maps t
  funext j
  show prod (A := 10000) (K := 256) (M := 32)
        (fun y => (V c main_arg0 : S100000x256.Idx → EReal) (((cfg0.win 0).blk t).view.emb y))
        (fun y => (V c main_arg2 : S256x32.Idx → EReal) (((cfg0.win 1).blk t).view.emb y)) j
      = prod (A := 100000) (K := 256) (M := 32) (V c main_arg0 : S100000x256.Idx → EReal) (V c main_arg2 : S256x32.Idx → EReal)
          (((cfg0.win 2).blk t).view.emb j)
  refine prod_reindex (A := 10000) (K := 256) (M := 32) (A' := 100000) (M' := 32) _ _ _ _ j _ (fun kk => ?_) (fun kk => ?_)
  · funext a; apply Fin.ext
    match a with
    | ⟨0, _⟩ => show win0_0.index t (0 : Fin 2) * 10000 + 1 * (j 0).val = win0_2.index t (0 : Fin 2) * 10000 + 1 * (j 0).val; omega
    | ⟨1, _⟩ => show win0_0.index t (1 : Fin 2) * 256 + 1 * kk.val = kk.val; omega
  · funext a; apply Fin.ext
    match a with
    | ⟨0, _⟩ => show win0_1.index t (0 : Fin 2) * 256 + 1 * kk.val = kk.val; omega
    | ⟨1, _⟩ => show win0_1.index t (1 : Fin 2) * 32 + 1 * (j 1).val = win0_2.index t (1 : Fin 2) * 32 + 1 * (j 1).val; omega

/-- An index of the output array lies in point t's block iff each coordinate lies in the block's range. -/
theorem mem_block (t : Fin cfg0.N) (i : S100000x32.Idx) :
    i ∈ ((cfg0.win 2).blk t).view.set ↔ ∀ a : Fin 2, win0_2.index t a * S10000x32.size a ≤ (i a).val ∧ (i a).val < win0_2.index t a * S10000x32.size a + S10000x32.size a := by
  show i ∈ ((View.whole main_v11).slice (win0_2.rect t)).set ↔ _
  rw [View.set_slice_whole, Rect.mem_set_unit]
  exact Iff.rfl

/-- Row r of the output lies in the block of point r / 10000: the ten blocks tile the array. -/
theorem tiled (i : S100000x32.Idx) : ∃ t : Fin cfg0.N, (cfg0.win 2).flush t = true ∧ i ∈ ((cfg0.win 2).blk t).view.set := by
  have hi0 : (i 0).val < 100000 := (i 0).isLt
  have hi1 : (i 1).val < 32 := (i 1).isLt
  have hN : grid0.N = 10 := N_0
  have hq : (i 0).val / 10000 < cfg0.N := by show (i 0).val / 10000 < grid0.N; omega
  refine ⟨⟨(i 0).val / 10000, hq⟩, flush0_2 _, ?_⟩
  rw [mem_block]
  obtain ⟨-, -, -, -, e4, e5⟩ := index_maps ⟨(i 0).val / 10000, hq⟩
  intro a
  match a with
  | ⟨0, _⟩ =>
    show win0_2.index ⟨(i 0).val / 10000, hq⟩ (0 : Fin 2) * 10000 ≤ (i 0).val ∧ (i 0).val < win0_2.index ⟨(i 0).val / 10000, hq⟩ (0 : Fin 2) * 10000 + 10000
    rw [e4]; show (i 0).val / 10000 * 10000 ≤ (i 0).val ∧ (i 0).val < (i 0).val / 10000 * 10000 + 10000; omega
  | ⟨1, _⟩ =>
    show win0_2.index ⟨(i 0).val / 10000, hq⟩ (1 : Fin 2) * 32 ≤ (i 1).val ∧ (i 1).val < win0_2.index ⟨(i 0).val / 10000, hq⟩ (1 : Fin 2) * 32 + 32
    rw [e5]; omega

/-- The output array after the region: the product of the two arrays the region found. -/
theorem result (c : Dev nD) :
    (dat0 (F := Ideal) V c).arrAt 2 cfg0.N
      = prod (A := 100000) (K := 256) (M := 32) (V c main_arg0 : S100000x256.Idx → EReal) (V c main_arg2 : S256x32.Idx → EReal) :=
  (dat0 (F := Ideal) V c).arrAt_eq_of_cover 2 _ (fun t _ => written_back V c t) tiled

end Cert.KernelIdeal.Region0

end
-- ==== Proof.LibRowBlocks.lean ====
/-
  Blocks of rows of the dense pieces, and a kernel's single-cast spelling of bias and relu.

  A matrix of N rows cut into blocks of R consecutive rows: row r of block n is row n·R + r of the whole matrix
  (`up`).  Each dense piece of LibDense.lean commutes with taking a block of rows, the other operand (weights, or a
  one-row bias) kept whole: a block of rows of a product is the product of the block of rows (`prod_up`), and the same
  for bias-then-relu (`act_up`) and bias (`shift_up`).  So a network tail applied block by block computes the blocks
  of the tail applied to the whole matrix.  General in the extents.

  Also the spelling a kernel body has when it re-casts the bias row ONCE before broadcasting it down the rows
  (LibDense.lean's `kernel_act` / `kernel_shift` are for a body that casts it twice): `act_cast` (the matrix itself
  re-cast too), `act_plain` (the matrix as computed), `shift_plain`.

  It imports LibDense.lean (and, through it, LibDotSum.lean), so it needs those two files beside it.
-/
import proofs.«140263_j12025908429199_1_alg».proof.Proof.LibDense

noncomputable section

namespace Cert.RowBlocks

open Idealize.ShloMosaic Idealize.ShloMosaic.ValueIdx Cert.Dense

/-- Index (r, j) of the n-th block of R rows, as an index of the whole N-row matrix: (n·R + r, j). -/
def up {R N M : ℕ} (n : ℕ) (h : n * R + R ≤ N) (y : (⟨2, ![R, M]⟩ : Shape).Idx) : (⟨2, ![N, M]⟩ : Shape).Idx :=
  ix2 (⟨n * R + (y 0).val, by have h0 : (y 0).val < R := (y 0).isLt; omega⟩ : Fin N) (y 1 : Fin M)

theorem up_row {R N M : ℕ} (n : ℕ) (h : n * R + R ≤ N) (y : (⟨2, ![R, M]⟩ : Shape).Idx) :
    ((up (N := N) n h y) 0).val = n * R + (y 0).val := rfl

theorem up_col {R N M : ℕ} (n : ℕ) (h : n * R + R ≤ N) (y : (⟨2, ![R, M]⟩ : Shape).Idx) :
    ((up (N := N) n h y) 1).val = (y 1).val := rfl

/-- A block of rows of a product is the product of the block of rows. -/
theorem prod_up {R N K M : ℕ} (n : ℕ) (h : n * R + R ≤ N) (X : (⟨2, ![N, K]⟩ : Shape).Idx → EReal)
    (W : (⟨2, ![K, M]⟩ : Shape).Idx → EReal) :
    prod (fun y => X (up n h y)) W = fun j => prod X W (up n h j) :=
  funext fun j => prod_reindex X W (up n h) (fun y => y) j (up n h j) (fun _ => rfl) (fun _ => rfl)

/-- A block of rows of bias-then-relu is bias-then-relu of the block of rows. -/
theorem act_up {R N M : ℕ} (n : ℕ) (h : n * R + R ≤ N) (X : (⟨2, ![N, M]⟩ : Shape).Idx → EReal)
    (B : (⟨2, ![1, M]⟩ : Shape).Idx → EReal) :
    act (fun y => X (up n h y)) B = fun j => act X B (up n h j) :=
  funext fun j => act_reindex X B (up n h) (fun y => y) j (up n h j) rfl rfl

/-- A block of rows of a matrix shifted by a bias row is the shifted block of rows. -/
theorem shift_up {R N M : ℕ} (n : ℕ) (h : n * R + R ≤ N) (Y : (⟨2, ![N, M]⟩ : Shape).Idx → EReal)
    (B : (⟨2, ![1, M]⟩ : Shape).Idx → EReal) :
    shift (fun y => Y (up n h y)) B = fun j => shift Y B (up n h j) :=
  funext fun j => shift_reindex (fun y => Y (up n h y)) Y B (fun y => y) j (up n h j) rfl rfl

/-! ## Bias and relu in a kernel that re-casts the bias row once -/

/-- The matrix and the row each re-cast to their own shape, the row broadcast down the rows, added, and the maximum
    with a splat of the scalar zero. -/
theorem act_cast {A M : ℕ} (x : (⟨2, ![A, M]⟩ : Shape).Idx → EReal) (b : (⟨2, ![1, M]⟩ : Shape).Idx → EReal)
    (hx : (⟨2, ![A, M]⟩ : Shape).ShapeCasts ⟨2, ![A, M]⟩) (hb : (⟨2, ![1, M]⟩ : Shape).ShapeCasts ⟨2, ![1, M]⟩)
    (hbc : (⟨2, ![1, M]⟩ : Shape).Broadcasts ⟨2, ![A, M]⟩) :
    maximumf (F := Ideal) (φ := .f32)
        (addf (shapeCast ⟨2, ![A, M]⟩ x hx) (broadcastTo ⟨2, ![A, M]⟩ (shapeCast ⟨2, ![1, M]⟩ b hb) hbc))
        (broadcast ⟨2, ![A, M]⟩ (Scalar.ofBits (F := Ideal) .f32 0x00000000#32))
      = act x b := by
  funext i
  obtain ⟨p, j, rfl⟩ : ∃ (p : Fin A) (j : Fin M), i = ix2 p j := ⟨i 0, i 1, eq_ix2 i⟩
  rw [shapeCast_self, shapeCast_self, maximumf_apply, addf_apply, broadcast_apply, broadcastTo_1b_ab_apply]
  rfl

/-- The same on a matrix used as computed (no cast of its own). -/
theorem act_plain {A M : ℕ} (x : (⟨2, ![A, M]⟩ : Shape).Idx → EReal) (b : (⟨2, ![1, M]⟩ : Shape).Idx → EReal)
    (hb : (⟨2, ![1, M]⟩ : Shape).ShapeCasts ⟨2, ![1, M]⟩) (hbc : (⟨2, ![1, M]⟩ : Shape).Broadcasts ⟨2, ![A, M]⟩) :
    maximumf (F := Ideal) (φ := .f32)
        (addf x (broadcastTo ⟨2, ![A, M]⟩ (shapeCast ⟨2, ![1, M]⟩ b hb) hbc))
        (broadcast ⟨2, ![A, M]⟩ (Scalar.ofBits (F := Ideal) .f32 0x00000000#32))
      = act x b := by
  funext i
  obtain ⟨p, j, rfl⟩ : ∃ (p : Fin A) (j : Fin M), i = ix2 p j := ⟨i 0, i 1, eq_ix2 i⟩
  rw [shapeCast_self, maximumf_apply, addf_apply, broadcast_apply, broadcastTo_1b_ab_apply]
  rfl

/-- The bias row re-cast once, broadcast down the rows and added. -/
theorem shift_plain {A M : ℕ} (y : (⟨2, ![A, M]⟩ : Shape).Idx → EReal) (b : (⟨2, ![1, M]⟩ : Shape).Idx → EReal)
    (hb : (⟨2, ![1, M]⟩ : Shape).ShapeCasts ⟨2, ![1, M]⟩) (hbc : (⟨2, ![1, M]⟩ : Shape).Broadcasts ⟨2, ![A, M]⟩) :
    addf (F := Ideal) (φ := .f32) y (broadcastTo ⟨2, ![A, M]⟩ (shapeCast ⟨2, ![1, M]⟩ b hb) hbc) = shift y b := by
  funext i
  obtain ⟨p, j, rfl⟩ : ∃ (p : Fin A) (j : Fin M), i = ix2 p j := ⟨i 0, i 1, eq_ix2 i⟩
  rw [shapeCast_self, addf_apply, broadcastTo_1b_ab_apply]
  rfl

end Cert.RowBlocks

end
-- ==== Proof.LibColumns.lean ====
/-
  Two-dimensional layout operations and row sums read at an index `(r, k)`, for matrices of `n` rows.
  Each lemma says which single entry of the operand an entry of the result is: a vector turned into a one-column matrix and
  back, a one-column matrix repeated along its rows, a scalar repeated everywhere, five one-column matrices put side by
  side, a ten-column and a five-column matrix put side by side, and the sum of a row's entries (a lane reduction, and the
  host's reduce, which adds the initial value). Nothing here depends on a program.
-/
import Idealize.ShloMosaic.Lib.Pipeline.Value
import Idealize.ShloMosaic.Lib.ValueIdx
import Idealize.ShloMosaic.PureOps.Ideal.Laws

noncomputable section

open scoped BigOperators

namespace Cert.LibColumns

open Idealize.ShloMosaic Idealize.ShloMosaic.ValueIdx

variable {α : Type}

/-- A vector of length `n` reshaped to an `n × 1` matrix: entry `(r, 0)` is entry `r`. -/
theorem shapeCast_vec_col {n : Nat} (v : (⟨1, ![n]⟩ : Shape).Idx → α)
    (h : (⟨1, ![n]⟩ : Shape).ShapeCasts ⟨2, ![n, 1]⟩) (r : Fin n) :
    shapeCast ⟨2, ![n, 1]⟩ v h (ix2 r 0) = v (ix1 r) :=
  shapeCast_apply v h (ix2 r 0) (ix1 r) (by
    rw [Shape.rowMajor_val_one, Shape.rowMajor_val_two]
    show r.val = r.val * 1 + 0
    omega)

/-- An `n × 1` matrix reshaped to a vector of length `n`: entry `r` is entry `(r, 0)`. -/
theorem shapeCast_col_vec {n : Nat} (v : (⟨2, ![n, 1]⟩ : Shape).Idx → α)
    (h : (⟨2, ![n, 1]⟩ : Shape).ShapeCasts ⟨1, ![n]⟩) (r : Fin n) :
    shapeCast ⟨1, ![n]⟩ v h (ix1 r) = v (ix2 r 0) :=
  shapeCast_apply v h (ix1 r) (ix2 r 0) (by
    rw [Shape.rowMajor_val_one, Shape.rowMajor_val_two]
    show r.val * 1 + 0 = r.val
    omega)

/-- An `n × 1` matrix repeated to `n × m` (a vector broadcast): entry `(r, j)` is entry `(r, 0)`. -/
theorem broadcastTo_col {n m : Nat} (v : (⟨2, ![n, 1]⟩ : Shape).Idx → α)
    (h : (⟨2, ![n, 1]⟩ : Shape).Broadcasts ⟨2, ![n, m]⟩) (r : Fin n) (j : Fin m) :
    broadcastTo ⟨2, ![n, m]⟩ v h (ix2 r j) = v (ix2 r 0) :=
  broadcastTo_apply v h (ix2 r j) (ix2 r 0) (fun a => by
    match a with
    | ⟨0, _⟩ =>
      show r.val = if n = 1 then 0 else r.val
      have := r.isLt
      split <;> omega
    | ⟨1, _⟩ => exact (if_pos rfl).symm)

/-- A vector of length `n` placed as the column of an `n × 1` matrix by a broadcast along axis 0. -/
theorem broadcastInDim_vec_col {n : Nat} (dims : Fin 1 → Fin 2) (hd : dims 0 = 0)
    (h : (⟨1, ![n]⟩ : Shape).BroadcastsInDim ⟨2, ![n, 1]⟩ dims) (v : (⟨1, ![n]⟩ : Shape).Idx → α) (r : Fin n) :
    broadcastInDim ⟨2, ![n, 1]⟩ dims h v (ix2 r 0) = v (ix1 r) :=
  broadcastInDim_apply dims h v (ix2 r 0) (ix1 r) (fun a => by
    match a with
    | ⟨0, _⟩ =>
      show r.val = if n = 1 then 0 else (ix2 r (0 : Fin 1) (dims 0)).val
      rw [hd]
      show r.val = if n = 1 then 0 else r.val
      have := r.isLt
      split <;> omega)

/-- An `n × 1` matrix repeated to `n × m` by a broadcast along both axes: entry `(r, j)` is entry `(r, 0)`. -/
theorem broadcastInDim_col_mat {n m : Nat} (dims : Fin 2 → Fin 2) (hd0 : dims 0 = 0) (hd1 : dims 1 = 1)
    (h : (⟨2, ![n, 1]⟩ : Shape).BroadcastsInDim ⟨2, ![n, m]⟩ dims) (v : (⟨2, ![n, 1]⟩ : Shape).Idx → α)
    (r : Fin n) (j : Fin m) :
    broadcastInDim ⟨2, ![n, m]⟩ dims h v (ix2 r j) = v (ix2 r 0) :=
  broadcastInDim_apply dims h v (ix2 r j) (ix2 r 0) (fun a => by
    match a with
    | ⟨0, _⟩ =>
      show r.val = if n = 1 then 0 else (ix2 r j (dims 0)).val
      rw [hd0]
      show r.val = if n = 1 then 0 else r.val
      have := r.isLt
      split <;> omega
    | ⟨1, _⟩ => exact (if_pos rfl).symm)

/-- A scalar repeated over any shape: every entry is the scalar. -/
theorem broadcastInDim_scalar {t : Shape} (dims : Fin 0 → Fin t.rank)
    (h : (⟨0, ![]⟩ : Shape).BroadcastsInDim t dims) (v : (⟨0, ![]⟩ : Shape).Idx → α) (j : t.Idx) :
    broadcastInDim t dims h v j = v ix0 :=
  broadcastInDim_apply dims h v j ix0 (fun a => a.elim0)

/-- Five `n × 1` matrices side by side, read at `(r, k)`: the `k`-th of them at `(r, 0)`. -/
theorem concat5_apply {n : Nat} (p0 p1 p2 p3 p4 : (⟨2, ![n, 1]⟩ : Shape).Idx → α)
    (h : Shape.Concatenates [(⟨2, ![n, 1]⟩ : Shape), ⟨2, ![n, 1]⟩, ⟨2, ![n, 1]⟩, ⟨2, ![n, 1]⟩, ⟨2, ![n, 1]⟩] ⟨2, ![n, 5]⟩ 1)
    (r : Fin n) (k : Fin 5) :
    concatenate ⟨2, ![n, 5]⟩ 1 [⟨⟨2, ![n, 1]⟩, p0⟩, ⟨⟨2, ![n, 1]⟩, p1⟩, ⟨⟨2, ![n, 1]⟩, p2⟩, ⟨⟨2, ![n, 1]⟩, p3⟩, ⟨⟨2, ![n, 1]⟩, p4⟩] h (ix2 r k)
      = (match k with | ⟨0, _⟩ => p0 | ⟨1, _⟩ => p1 | ⟨2, _⟩ => p2 | ⟨3, _⟩ => p3 | ⟨4, _⟩ => p4) (ix2 r 0) := by
  have hi : ∀ (k : Fin 5) (b : Fin 2), b.cast rfl ≠ (1 : Fin 2) → ((ix2 r (0 : Fin 1)) b).val = ((ix2 r k) (b.cast rfl)).val := by
    intro k b hb
    match b with
    | ⟨0, _⟩ => rfl
    | ⟨1, _⟩ => exact absurd rfl hb
  match k with
  | ⟨0, hk⟩ =>
    exact concatenate_apply_piece (t := ⟨2, ![n, 5]⟩) 1
      [⟨⟨2, ![n, 1]⟩, p0⟩, ⟨⟨2, ![n, 1]⟩, p1⟩, ⟨⟨2, ![n, 1]⟩, p2⟩, ⟨⟨2, ![n, 1]⟩, p3⟩, ⟨⟨2, ![n, 1]⟩, p4⟩] h (ix2 r ⟨0, hk⟩)
      0 (by simp) ⟨2, ![n, 1]⟩ p0 rfl rfl 0 rfl (ix2 r 0) (hi _) rfl
  | ⟨1, hk⟩ =>
    exact concatenate_apply_piece (t := ⟨2, ![n, 5]⟩) 1
      [⟨⟨2, ![n, 1]⟩, p0⟩, ⟨⟨2, ![n, 1]⟩, p1⟩, ⟨⟨2, ![n, 1]⟩, p2⟩, ⟨⟨2, ![n, 1]⟩, p3⟩, ⟨⟨2, ![n, 1]⟩, p4⟩] h (ix2 r ⟨1, hk⟩)
      1 (by simp) ⟨2, ![n, 1]⟩ p1 rfl rfl 1 rfl (ix2 r 0) (hi _) rfl
  | ⟨2, hk⟩ =>
    exact concatenate_apply_piece (t := ⟨2, ![n, 5]⟩) 1
      [⟨⟨2, ![n, 1]⟩, p0⟩, ⟨⟨2, ![n, 1]⟩, p1⟩, ⟨⟨2, ![n, 1]⟩, p2⟩, ⟨⟨2, ![n, 1]⟩, p3⟩, ⟨⟨2, ![n, 1]⟩, p4⟩] h (ix2 r ⟨2, hk⟩)
      2 (by simp) ⟨2, ![n, 1]⟩ p2 rfl rfl 2 rfl (ix2 r 0) (hi _) rfl
  | ⟨3, hk⟩ =>
    exact concatenate_apply_piece (t := ⟨2, ![n, 5]⟩) 1
      [⟨⟨2, ![n, 1]⟩, p0⟩, ⟨⟨2, ![n, 1]⟩, p1⟩, ⟨⟨2, ![n, 1]⟩, p2⟩, ⟨⟨2, ![n, 1]⟩, p3⟩, ⟨⟨2, ![n, 1]⟩, p4⟩] h (ix2 r ⟨3, hk⟩)
      3 (by simp) ⟨2, ![n, 1]⟩ p3 rfl rfl 3 rfl (ix2 r 0) (hi _) rfl
  | ⟨4, hk⟩ =>
    exact concatenate_apply_piece (t := ⟨2, ![n, 5]⟩) 1
      [⟨⟨2, ![n, 1]⟩, p0⟩, ⟨⟨2, ![n, 1]⟩, p1⟩, ⟨⟨2, ![n, 1]⟩, p2⟩, ⟨⟨2, ![n, 1]⟩, p3⟩, ⟨⟨2, ![n, 1]⟩, p4⟩] h (ix2 r ⟨4, hk⟩)
      4 (by simp) ⟨2, ![n, 1]⟩ p4 rfl rfl 4 rfl (ix2 r 0) (hi _) rfl

/-- An `n × 10` and an `n × 5` matrix side by side, read in the first ten columns. -/
theorem concat_10_5_left {n : Nat} (a : (⟨2, ![n, 10]⟩ : Shape).Idx → α) (b : (⟨2, ![n, 5]⟩ : Shape).Idx → α)
    (h : Shape.Concatenates [(⟨2, ![n, 10]⟩ : Shape), ⟨2, ![n, 5]⟩] ⟨2, ![n, 15]⟩ 1) (r : Fin n) (c : Fin 15) (c' : Fin 10)
    (hc : c'.val = c.val) :
    concatenate ⟨2, ![n, 15]⟩ 1 [⟨⟨2, ![n, 10]⟩, a⟩, ⟨⟨2, ![n, 5]⟩, b⟩] h (ix2 r c) = a (ix2 r c') :=
  concatenate_pair_apply_left 1 a b h (ix2 r c) rfl (ix2 r c') (fun d => by
    match d with
    | ⟨0, _⟩ => rfl
    | ⟨1, _⟩ => exact hc)

/-- … and in the last five. -/
theorem concat_10_5_right {n : Nat} (a : (⟨2, ![n, 10]⟩ : Shape).Idx → α) (b : (⟨2, ![n, 5]⟩ : Shape).Idx → α)
    (h : Shape.Concatenates [(⟨2, ![n, 10]⟩ : Shape), ⟨2, ![n, 5]⟩] ⟨2, ![n, 15]⟩ 1) (r : Fin n) (c : Fin 15) (c' : Fin 5)
    (hc : c'.val + 10 = c.val) :
    concatenate ⟨2, ![n, 15]⟩ 1 [⟨⟨2, ![n, 10]⟩, a⟩, ⟨⟨2, ![n, 5]⟩, b⟩] h (ix2 r c) = b (ix2 r c') :=
  concatenate_pair_apply_right 1 a b h (ix2 r c) rfl rfl (ix2 r c') (fun d hd => by
    match d with
    | ⟨0, _⟩ => rfl
    | ⟨1, _⟩ => exact absurd rfl hd) hc

/-- The index over row `r` with `k` inserted on the summed axis is `(r, k)`. -/
theorem lift_rows {n m : Nat} (h : (⟨2, ![n, m]⟩ : Shape).Reduces [1] ⟨1, ![n]⟩) (r : Fin n) (k : Fin m) :
    h.lift (ix1 r) k = ix2 r k := by
  funext c
  apply Fin.ext
  match c with
  | ⟨0, _⟩ => rfl
  | ⟨1, _⟩ => rfl

/-- A lane reduction by addition of an `n × m` matrix along its rows, on the extended reals: the sum of the row. -/
theorem multiReduction_rows {n m : Nat} (src : FVec Ideal ⟨2, ![n, m]⟩ .f32)
    (h : (⟨2, ![n, m]⟩ : Shape).Reduces [1] ⟨1, ![n]⟩) (hφ : FKind.Formats .f32)
    (hacc : (0x00000000#32 : BitVec 32) = FKind.add.neutral .f32 hφ) (r : Fin n) :
    multiReduction .add [1] ⟨1, ![n]⟩ src 0x00000000#32 h hφ hacc (ix1 r) = ∑ k : Fin m, src (ix2 r k) :=
  (Ideal.multiReduction_add_single src 0x00000000#32 h hφ hacc (ix1 r)).trans
    (Finset.sum_congr rfl fun k _ => congrArg src (lift_rows h r k))

/-- The host's sum of an `n × m` matrix along its rows, on the extended reals: the initial value plus the sum of the row. -/
theorem hostReduceAdd_rows {n m : Nat} (x : FVec Ideal ⟨2, ![n, m]⟩ .f32) (init : (⟨0, ![]⟩ : Shape).Idx → EReal)
    (h' : (⟨2, ![n, m]⟩ : Shape).ReducesTo [1] ⟨1, ![n]⟩) (hu : 0 < (⟨0, ![]⟩ : Shape).numel)
    (h : (⟨2, ![n, m]⟩ : Shape).Reduces [1] ⟨1, ![n]⟩) (r : Fin n) :
    Host.reduceAdd (F := Ideal) x init h' hu (ix1 r) = init ix0 + ∑ k : Fin m, x (ix2 r k) := by
  have e0 : Shape.Idx.first hu = ix0 := funext fun a => a.elim0
  show Ideal.hostReduceAdd h' x (init (Shape.Idx.first hu)) (ix1 r) = _
  rw [e0]
  exact (Ideal.hostReduceAdd_single h' h x (init ix0) (ix1 r)).trans
    (congrArg (init ix0 + ·) (Finset.sum_congr rfl fun k _ => congrArg x (lift_rows h r k)))

end Cert.LibColumns

end
-- ==== Proof.LibSelfAdd.lean ====
/-
  The self-loop term of a graph convolution with symmetric normalisation, added to an aggregate.

  For matrices `a` (the aggregated messages) and `h` (the transformed features) of A rows and M columns, and a
  one-column matrix `d` of per-node factors, `selfAdd a h d` has entry (p, j) equal to
  a (p, j) + h (p, j) · (d (p, 0) · d (p, 0)) on the extended reals: node p's own features, scaled by the square of
  its factor, join what its neighbours sent.

  Two spellings of it are that function: a kernel body's (every operand re-cast to its own shape, the column squared
  as a column and then spread along the rows by a vector broadcast) and the host's (the factors squared as a vector,
  placed as a column by a broadcast along axis 0 and spread by a broadcast along both axes).  It commutes with taking
  a block of R consecutive rows of all three operands (`selfAdd_up`).  General in the extents.

  It imports LibRowBlocks.lean (and through it LibDense.lean, LibDotSum.lean) and LibColumns.lean, so it needs those
  four files beside it.
-/
import proofs.«140263_j12025908429199_1_alg».proof.Proof.LibRowBlocks
import proofs.«140263_j12025908429199_1_alg».proof.Proof.LibColumns

noncomputable section

namespace Cert.SelfAdd

open Idealize.ShloMosaic Idealize.ShloMosaic.ValueIdx Cert.RowBlocks

/-- Entry (p, j): a (p, j) + h (p, j) · (d (p, 0) · d (p, 0)). -/
def selfAdd {A M : ℕ} (a h : (⟨2, ![A, M]⟩ : Shape).Idx → EReal) (d : (⟨2, ![A, 1]⟩ : Shape).Idx → EReal) :
    (⟨2, ![A, M]⟩ : Shape).Idx → EReal :=
  fun i => a i + h i * (d (ix2 (i 0 : Fin A) (0 : Fin 1)) * d (ix2 (i 0 : Fin A) (0 : Fin 1)))

theorem selfAdd_apply {A M : ℕ} (a h : (⟨2, ![A, M]⟩ : Shape).Idx → EReal) (d : (⟨2, ![A, 1]⟩ : Shape).Idx → EReal)
    (p : Fin A) (j : Fin M) :
    selfAdd a h d (ix2 p j) = a (ix2 p j) + h (ix2 p j) * (d (ix2 p (0 : Fin 1)) * d (ix2 p (0 : Fin 1))) := rfl

/-- A kernel's form: the three operands re-cast to their own shapes, the column multiplied by itself, spread along
    the rows, multiplied into the features and added to the aggregate. -/
theorem kernel_selfAdd {A M : ℕ} (a h : (⟨2, ![A, M]⟩ : Shape).Idx → EReal) (d : (⟨2, ![A, 1]⟩ : Shape).Idx → EReal)
    (hx : (⟨2, ![A, M]⟩ : Shape).ShapeCasts ⟨2, ![A, M]⟩) (hd : (⟨2, ![A, 1]⟩ : Shape).ShapeCasts ⟨2, ![A, 1]⟩)
    (hbc : (⟨2, ![A, 1]⟩ : Shape).Broadcasts ⟨2, ![A, M]⟩) :
    addf (F := Ideal) (φ := .f32) (shapeCast ⟨2, ![A, M]⟩ a hx)
        (mulf (shapeCast ⟨2, ![A, M]⟩ h hx)
          (broadcastTo ⟨2, ![A, M]⟩ (mulf (F := Ideal) (φ := .f32) (shapeCast ⟨2, ![A, 1]⟩ d hd) (shapeCast ⟨2, ![A, 1]⟩ d hd)) hbc))
      = selfAdd a h d := by
  funext i
  obtain ⟨p, j, rfl⟩ : ∃ (p : Fin A) (j : Fin M), i = ix2 p j := ⟨i 0, i 1, eq_ix2 i⟩
  rw [shapeCast_self, shapeCast_self, shapeCast_self, addf_apply, mulf_apply, Cert.LibColumns.broadcastTo_col, mulf_apply]
  rfl

/-- The host's form: the vector of factors multiplied by itself, placed as a column (a broadcast along axis 0),
    spread along the rows (a broadcast along both axes), multiplied into the features and added to the aggregate.
    The column `d` is the vector re-cast as a one-column matrix. -/
theorem host_selfAdd {A M : ℕ} (a h : (⟨2, ![A, M]⟩ : Shape).Idx → EReal) (v : (⟨1, ![A]⟩ : Shape).Idx → EReal)
    (hc : (⟨1, ![A]⟩ : Shape).ShapeCasts ⟨2, ![A, 1]⟩)
    (hb0 : (⟨1, ![A]⟩ : Shape).BroadcastsInDim ⟨2, ![A, 1]⟩ ![0])
    (hb1 : (⟨2, ![A, 1]⟩ : Shape).BroadcastsInDim ⟨2, ![A, M]⟩ ![0, 1]) :
    addf (F := Ideal) (φ := .f32) a
        (mulf h (broadcastInDim ⟨2, ![A, M]⟩ ![0, 1] hb1
          (broadcastInDim ⟨2, ![A, 1]⟩ ![0] hb0 (mulf (F := Ideal) (φ := .f32) v v))))
      = selfAdd a h (shapeCast ⟨2, ![A, 1]⟩ v hc) := by
  funext i
  obtain ⟨p, j, rfl⟩ : ∃ (p : Fin A) (j : Fin M), i = ix2 p j := ⟨i 0, i 1, eq_ix2 i⟩
  rw [addf_apply, mulf_apply, Cert.LibColumns.broadcastInDim_col_mat ![0, 1] rfl rfl,
    Cert.LibColumns.broadcastInDim_vec_col ![0] rfl, mulf_apply, selfAdd_apply,
    Cert.LibColumns.shapeCast_vec_col]

/-- A block of rows of the sum is the sum of the blocks of rows. -/
theorem selfAdd_up {R N M : ℕ} (n : ℕ) (hn : n * R + R ≤ N) (a h : (⟨2, ![N, M]⟩ : Shape).Idx → EReal)
    (d : (⟨2, ![N, 1]⟩ : Shape).Idx → EReal) :
    selfAdd (fun y => a (up n hn y)) (fun y => h (up n hn y)) (fun y => d (up n hn y))
      = fun j => selfAdd a h d (up n hn j) :=
  funext fun _ => rfl

/-- The sum read through maps of the operands' indices, at an entry `j`, is the sum at `j'` whenever the maps of the
    two matrices carry `j` to `j'` and the map of the column carries row `j 0` to row `j' 0`. -/
theorem selfAdd_reindex {A M A' : ℕ} (a h : (⟨2, ![A', M]⟩ : Shape).Idx → EReal) (d : (⟨2, ![A', 1]⟩ : Shape).Idx → EReal)
    (ea eh : (⟨2, ![A, M]⟩ : Shape).Idx → (⟨2, ![A', M]⟩ : Shape).Idx)
    (ed : (⟨2, ![A, 1]⟩ : Shape).Idx → (⟨2, ![A', 1]⟩ : Shape).Idx)
    (j : (⟨2, ![A, M]⟩ : Shape).Idx) (j' : (⟨2, ![A', M]⟩ : Shape).Idx)
    (ha : ea j = j') (hh : eh j = j')
    (hd : ed (ix2 (j 0 : Fin A) (0 : Fin 1)) = ix2 (j' 0 : Fin A') (0 : Fin 1)) :
    selfAdd (fun y => a (ea y)) (fun y => h (eh y)) (fun y => d (ed y)) j = selfAdd a h d j' := by
  show a (ea j) + h (eh j) * (d (ed (ix2 (j 0 : Fin A) (0 : Fin 1))) * d (ed (ix2 (j 0 : Fin A) (0 : Fin 1))))
      = a j' + h j' * (d (ix2 (j' 0 : Fin A') (0 : Fin 1)) * d (ix2 (j' 0 : Fin A') (0 : Fin 1)))
  rw [ha, hh, hd]
  rfl

/-- Bias-then-relu of a matrix and of a bias row read through a map of its indices, at an entry `j`, is bias-then-relu
    at `j'` whenever the matrices agree there and the map keeps the column. -/
theorem act_at {A M A' : ℕ} (Y' : (⟨2, ![A, M]⟩ : Shape).Idx → EReal) (Y : (⟨2, ![A', M]⟩ : Shape).Idx → EReal)
    (B : (⟨2, ![1, M]⟩ : Shape).Idx → EReal) (eB : (⟨2, ![1, M]⟩ : Shape).Idx → (⟨2, ![1, M]⟩ : Shape).Idx)
    (j : (⟨2, ![A, M]⟩ : Shape).Idx) (j' : (⟨2, ![A', M]⟩ : Shape).Idx)
    (hY : Y' j = Y j') (hB : eB (ix2 (0 : Fin 1) (j 1 : Fin M)) = ix2 (0 : Fin 1) (j' 1 : Fin M)) :
    Cert.Dense.act Y' (fun y => B (eB y)) j = Cert.Dense.act Y B j' := by
  show max (Y' j + B (eB (ix2 (0 : Fin 1) (j 1 : Fin M)))) _ = max (Y j' + B (ix2 (0 : Fin 1) (j' 1 : Fin M))) _
  rw [hY, hB]
  rfl

end Cert.SelfAdd

end
-- ==== Proof.Region1.lean ====
/-
  Region 1 of the kernel program (the first layer's per-node step, with the rectifier): the array it leaves, as one function of the arrays it found.

  Point t of the ten stages rows 10000·t … 10000·t + 9999 of the aggregated messages, of the transformed features and
  of the one-column matrix of node factors, and the whole one-row bias; per entry it computes
  (aggregate + features · (factor · factor)) + bias, then the maximum with zero, and writes the block back in place.  Every step acts on
  one row at a time, so a block of rows of the result is the result on the block of rows, and the ten blocks tile the
  100000 rows: the output array ends as that function of the whole entry arrays (the entry contents are a parameter).
-/
import proofs.«140263_j12025908429199_1_alg».proof.Proof.Gen.KernelIdeal.Frame
import proofs.«140263_j12025908429199_1_alg».proof.Proof.LibSelfAdd

noncomputable section

namespace Cert.KernelIdeal.Region1

open Cert.KernelIdeal Cert.KernelIdeal.Gen Idealize.ShloMosaic Idealize.ShloMosaic.TcCoe Idealize.SL.Sem
open Idealize.ShloMosaic.ValueIdx Cert.Dense Cert.RowBlocks Cert.SelfAdd
open Idealize.ShloMosaic.Pipeline (Dat)

variable (V : (c : Dev nD) → (b : Ref sig .tc) → Buf (Elt Ideal) ((c : Thread nD τ).loc b))

theorem origin : (![0, 0] : Fin 2 → Nat) = fun _ => 0 := funext fun a => by fin_cases a <;> rfl

/-- The printed index maps over the ten points: the three row-blocked operands and the output move down one block of
    rows per point, the bias row stays. -/
theorem index_maps : ∀ t : Fin cfg1.N, win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0
    ∧ win1_3.index t (0 : Fin 2) = 0 ∧ win1_3.index t (1 : Fin 2) = 0
    ∧ win1_4.index t (0 : Fin 2) = t.val ∧ win1_4.index t (1 : Fin 2) = 0 :=
  (by decide +kernel : ∀ t : Fin grid1.N, _)

/-- The body's stored value, from its four loaded blocks: factors d, aggregate a, features h, bias row b. -/
theorem body_value (d : Vec Ideal S10000x1 .f32) (a h : Vec Ideal S10000x32 .f32) (b : Vec Ideal S1x32 .f32) :
    k1_pay1 (F := Ideal) d a h b = act (A := 10000) (M := 32) (selfAdd (A := 10000) (M := 32) a h d) b := by
  rw [← act_plain (A := 10000) (M := 32) (selfAdd (A := 10000) (M := 32) a h d) b shapeCasts_S1x32_S1x32 broadcasts_S1x32_S10000x32,
    ← kernel_selfAdd (A := 10000) (M := 32) a h d shapeCasts_S10000x32_S10000x32 shapeCasts_S10000x1_S10000x1 broadcasts_S10000x1_S10000x32]
  rfl

/-- What point t writes back is block t of that function of the entry arrays. -/
theorem written_back (c : Dev nD) (t : Fin cfg1.N) :
    (dat1 (F := Ideal) V c).flushed 4 t
      = ((cfg1.win 4).blk t).view.read (Elt Ideal)
          (act (A := 100000) (M := 32) (selfAdd (A := 100000) (M := 32) (V c main_v39 : S100000x32.Idx → EReal) (V c main_v11 : S100000x32.Idx → EReal)
            (V c main_v40 : S100000x1.Idx → EReal)) (V c main_v41 : S1x32.Idx → EReal)) := by
  show (cfg1.win 4).cut (grid1.coords t) ((dat1 (F := Ideal) V c).after 4 t) = _
  rw [after1_4]
  unfold out1_4
  rw [View.canon_unit_zero origin]
  simp only [View.ld_unit_zero (S := S10000x32) origin, View.ld_unit_zero (S := S10000x1) origin, View.ld_unit_zero (S := S1x32) origin]
  rw [body_value]
  obtain ⟨e0, e1, e2, e3, e4, e5, e6, e7, e8, e9⟩ := index_maps t
  funext j
  show act (A := 10000) (M := 32) (selfAdd (A := 10000) (M := 32)
          (fun y => (V c main_v39 : S100000x32.Idx → EReal) (((cfg1.win 0).blk t).view.emb y))
          (fun y => (V c main_v11 : S100000x32.Idx → EReal) (((cfg1.win 1).blk t).view.emb y))
          (fun y => (V c main_v40 : S100000x1.Idx → EReal) (((cfg1.win 2).blk t).view.emb y)))
        (fun y => (V c main_v41 : S1x32.Idx → EReal) (((cfg1.win 3).blk t).view.emb y)) j
      = act (A := 100000) (M := 32) (selfAdd (A := 100000) (M := 32) (V c main_v39 : S100000x32.Idx → EReal) (V c main_v11 : S100000x32.Idx → EReal)
            (V c main_v40 : S100000x1.Idx → EReal)) (V c main_v41 : S1x32.Idx → EReal) (((cfg1.win 4).blk t).view.emb j)
  refine act_at (A := 10000) (M := 32) (A' := 100000) _ _ _ _ j _
    (selfAdd_reindex (A := 10000) (M := 32) (A' := 100000) _ _ _ _ _ _ j _ ?_ ?_ ?_) ?_
  · funext a; apply Fin.ext
    match a with
    | ⟨0, _⟩ => show win1_0.index t (0 : Fin 2) * 10000 + 1 * (j 0).val = win1_4.index t (0 : Fin 2) * 10000 + 1 * (j 0).val; omega
    | ⟨1, _⟩ => show win1_0.index t (1 : Fin 2) * 32 + 1 * (j 1).val = win1_4.index t (1 : Fin 2) * 32 + 1 * (j 1).val; omega
  · funext a; apply Fin.ext
    match a with
    | ⟨0, _⟩ => show win1_1.index t (0 : Fin 2) * 10000 + 1 * (j 0).val = win1_4.index t (0 : Fin 2) * 10000 + 1 * (j 0).val; omega
    | ⟨1, _⟩ => show win1_1.index t (1 : Fin 2) * 32 + 1 * (j 1).val = win1_4.index t (1 : Fin 2) * 32 + 1 * (j 1).val; omega
  · funext a; apply Fin.ext
    match a with
    | ⟨0, _⟩ => show win1_2.index t (0 : Fin 2) * 10000 + 1 * (j 0).val = win1_4.index t (0 : Fin 2) * 10000 + 1 * (j 0).val; omega
    | ⟨1, _⟩ => show win1_2.index t (1 : Fin 2) * 1 + 1 * 0 = 0; omega
  · funext a; apply Fin.ext
    match a with
    | ⟨0, _⟩ => show win1_3.index t (0 : Fin 2) * 1 + 1 * 0 = 0; omega
    | ⟨1, _⟩ => show win1_3.index t (1 : Fin 2) * 32 + 1 * (j 1).val = win1_4.index t (1 : Fin 2) * 32 + 1 * (j 1).val; omega

/-- An index of the output array lies in point t's block iff each coordinate lies in the block's range. -/
theorem mem_block (t : Fin cfg1.N) (i : S100000x32.Idx) :
    i ∈ ((cfg1.win 4).blk t).view.set ↔ ∀ a : Fin 2, win1_4.index t a * S10000x32.size a ≤ (i a).val ∧ (i a).val < win1_4.index t a * S10000x32.size a + S10000x32.size a := by
  show i ∈ ((View.whole main_v42).slice (win1_4.rect t)).set ↔ _
  rw [View.set_slice_whole, Rect.mem_set_unit]
  exact Iff.rfl

/-- Row r of the output lies in the block of point r / 10000: the ten blocks tile the array. -/
theorem tiled (i : S100000x32.Idx) : ∃ t : Fin cfg1.N, (cfg1.win 4).flush t = true ∧ i ∈ ((cfg1.win 4).blk t).view.set := by
  have hi0 : (i 0).val < 100000 := (i 0).isLt
  have hi1 : (i 1).val < 32 := (i 1).isLt
  have hN : grid1.N = 10 := N_1
  have hq : (i 0).val / 10000 < cfg1.N := by show (i 0).val / 10000 < grid1.N; omega
  refine ⟨⟨(i 0).val / 10000, hq⟩, flush1_4 _, ?_⟩
  rw [mem_block]
  obtain ⟨-, -, -, -, -, -, -, -, e8, e9⟩ := index_maps ⟨(i 0).val / 10000, hq⟩
  intro a
  match a with
  | ⟨0, _⟩ =>
    show win1_4.index ⟨(i 0).val / 10000, hq⟩ (0 : Fin 2) * 10000 ≤ (i 0).val ∧ (i 0).val < win1_4.index ⟨(i 0).val / 10000, hq⟩ (0 : Fin 2) * 10000 + 10000
    rw [e8]; show (i 0).val / 10000 * 10000 ≤ (i 0).val ∧ (i 0).val < (i 0).val / 10000 * 10000 + 10000; omega
  | ⟨1, _⟩ =>
    show win1_4.index ⟨(i 0).val / 10000, hq⟩ (1 : Fin 2) * 32 ≤ (i 1).val ∧ (i 1).val < win1_4.index ⟨(i 0).val / 10000, hq⟩ (1 : Fin 2) * 32 + 32
    rw [e9]; omega

/-- The output array after the region, as one function of the four arrays the region found. -/
theorem result (c : Dev nD) :
    (dat1 (F := Ideal) V c).arrAt 4 cfg1.N
      = act (A := 100000) (M := 32) (selfAdd (A := 100000) (M := 32) (V c main_v39 : S100000x32.Idx → EReal) (V c main_v11 : S100000x32.Idx → EReal)
            (V c main_v40 : S100000x1.Idx → EReal)) (V c main_v41 : S1x32.Idx → EReal) :=
  (dat1 (F := Ideal) V c).arrAt_eq_of_cover 4 _ (fun t _ => written_back V c t) tiled

end Cert.KernelIdeal.Region1

end
-- ==== Proof.Region2.lean ====
/-
  Region 2 of the kernel program (the mean head's feature transform): the array it leaves is one matrix product.

  The region walks ten grid points; point t stages rows 10000·t … 10000·t + 9999 of the left factor and the whole
  weight matrix, multiplies them on the matrix unit into a zero accumulator, and writes the 10000 × 16 result back as
  rows 10000·t … of the output.  A block of rows of a product is the product of that block of rows with the whole
  right factor, and the ten blocks tile the 100000 rows, so the output array ends as the product of the two whole
  arrays the region found on entry — whatever those were (the entry contents are a parameter).
-/
import proofs.«140263_j12025908429199_1_alg».proof.Proof.Gen.KernelIdeal.Frame
import proofs.«140263_j12025908429199_1_alg».proof.Proof.KernelDots

noncomputable section

namespace Cert.KernelIdeal.Region2

open Cert.KernelIdeal Cert.KernelIdeal.Gen Cert.KernelIdeal.Dots Idealize.ShloMosaic Idealize.ShloMosaic.TcCoe Idealize.SL.Sem
open Idealize.ShloMosaic.ValueIdx Cert.Dense
open Idealize.ShloMosaic.Pipeline (Dat)

variable (V : (c : Dev nD) → (b : Ref sig .tc) → Buf (Elt Ideal) ((c : Thread nD τ).loc b))

theorem origin : (![0, 0] : Fin 2 → Nat) = fun _ => 0 := funext fun a => by fin_cases a <;> rfl

/-- The printed index maps over the ten points: the left factor and the output move down one block of rows per
    point, the weights stay. -/
theorem index_maps : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0 :=
  (by decide +kernel : ∀ t : Fin grid2.N, _)

/-- The body's stored value is the product of its two loaded blocks. -/
theorem body_product (x : Vec Ideal S10000x32 .f32) (w : Vec Ideal S32x16 .f32) :
    k2_pay1 (F := Ideal) x w = prod (A := 10000) (K := 32) (M := 16) x w := by
  unfold k2_pay1
  dsimp only
  rw [shapeCast_self]
  exact matmulB x w

/-- What point t writes back is block t of the product of the entry arrays. -/
theorem written_back (c : Dev nD) (t : Fin cfg2.N) :
    (dat2 (F := Ideal) V c).flushed 2 t
      = ((cfg2.win 2).blk t).view.read (Elt Ideal)
          (prod (A := 100000) (K := 32) (M := 16) (V c main_v42 : S100000x32.Idx → EReal) (V c main_arg4 : S32x16.Idx → EReal)) := by
  show (cfg2.win 2).cut (grid2.coords t) ((dat2 (F := Ideal) V c).after 2 t) = _
  rw [after2_2]
  unfold out2_2
  rw [View.canon_unit_zero origin]
  simp only [View.ld_unit_zero (S := S10000x32) origin, View.ld_unit_zero (S := S32x16) origin]
  rw [body_product]
  obtain ⟨e0, e1, e2, e3, e4, e5⟩ := index_maps t
  funext j
  show prod (A := 10000) (K := 32) (M := 16)
        (fun y => (V c main_v42 : S100000x32.Idx → EReal) (((cfg2.win 0).blk t).view.emb y))
        (fun y => (V c main_arg4 : S32x16.Idx → EReal) (((cfg2.win 1).blk t).view.emb y)) j
      = prod (A := 100000) (K := 32) (M := 16) (V c main_v42 : S100000x32.Idx → EReal) (V c main_arg4 : S32x16.Idx → EReal)
          (((cfg2.win 2).blk t).view.emb j)
  refine prod_reindex (A := 10000) (K := 32) (M := 16) (A' := 100000) (M' := 16) _ _ _ _ j _ (fun kk => ?_) (fun kk => ?_)
  · funext a; apply Fin.ext
    match a with
    | ⟨0, _⟩ => show win2_0.index t (0 : Fin 2) * 10000 + 1 * (j 0).val = win2_2.index t (0 : Fin 2) * 10000 + 1 * (j 0).val; omega
    | ⟨1, _⟩ => show win2_0.index t (1 : Fin 2) * 32 + 1 * kk.val = kk.val; omega
  · funext a; apply Fin.ext
    match a with
    | ⟨0, _⟩ => show win2_1.index t (0 : Fin 2) * 32 + 1 * kk.val = kk.val; omega
    | ⟨1, _⟩ => show win2_1.index t (1 : Fin 2) * 16 + 1 * (j 1).val = win2_2.index t (1 : Fin 2) * 16 + 1 * (j 1).val; omega

/-- An index of the output array lies in point t's block iff each coordinate lies in the block's range. -/
theorem mem_block (t : Fin cfg2.N) (i : S100000x16.Idx) :
    i ∈ ((cfg2.win 2).blk t).view.set ↔ ∀ a : Fin 2, win2_2.index t a * S10000x16.size a ≤ (i a).val ∧ (i a).val < win2_2.index t a * S10000x16.size a + S10000x16.size a := by
  show i ∈ ((View.whole main_v43).slice (win2_2.rect t)).set ↔ _
  rw [View.set_slice_whole, Rect.mem_set_unit]
  exact Iff.rfl

/-- Row r of the output lies in the block of point r / 10000: the ten blocks tile the array. -/
theorem tiled (i : S100000x16.Idx) : ∃ t : Fin cfg2.N, (cfg2.win 2).flush t = true ∧ i ∈ ((cfg2.win 2).blk t).view.set := by
  have hi0 : (i 0).val < 100000 := (i 0).isLt
  have hi1 : (i 1).val < 16 := (i 1).isLt
  have hN : grid2.N = 10 := N_2
  have hq : (i 0).val / 10000 < cfg2.N := by show (i 0).val / 10000 < grid2.N; omega
  refine ⟨⟨(i 0).val / 10000, hq⟩, flush2_2 _, ?_⟩
  rw [mem_block]
  obtain ⟨-, -, -, -, e4, e5⟩ := index_maps ⟨(i 0).val / 10000, hq⟩
  intro a
  match a with
  | ⟨0, _⟩ =>
    show win2_2.index ⟨(i 0).val / 10000, hq⟩ (0 : Fin 2) * 10000 ≤ (i 0).val ∧ (i 0).val < win2_2.index ⟨(i 0).val / 10000, hq⟩ (0 : Fin 2) * 10000 + 10000
    rw [e4]; show (i 0).val / 10000 * 10000 ≤ (i 0).val ∧ (i 0).val < (i 0).val / 10000 * 10000 + 10000; omega
  | ⟨1, _⟩ =>
    show win2_2.index ⟨(i 0).val / 10000, hq⟩ (1 : Fin 2) * 16 ≤ (i 1).val ∧ (i 1).val < win2_2.index ⟨(i 0).val / 10000, hq⟩ (1 : Fin 2) * 16 + 16
    rw [e5]; omega

/-- The output array after the region: the product of the two arrays the region found. -/
theorem result (c : Dev nD) :
    (dat2 (F := Ideal) V c).arrAt 2 cfg2.N
      = prod (A := 100000) (K := 32) (M := 16) (V c main_v42 : S100000x32.Idx → EReal) (V c main_arg4 : S32x16.Idx → EReal) :=
  (dat2 (F := Ideal) V c).arrAt_eq_of_cover 2 _ (fun t _ => written_back V c t) tiled

end Cert.KernelIdeal.Region2

end
-- ==== Proof.Region3.lean ====
/-
  Region 3 of the kernel program (the mean head's per-node step): the array it leaves, as one function of the arrays it found.

  Point t of the ten stages rows 10000·t … 10000·t + 9999 of the aggregated messages, of the transformed features and
  of the one-column matrix of node factors, and the whole one-row bias; per entry it computes
  (aggregate + features · (factor · factor)) + bias and writes the block back in place.  Every step acts on
  one row at a time, so a block of rows of the result is the result on the block of rows, and the ten blocks tile the
  100000 rows: the output array ends as that function of the whole entry arrays (the entry contents are a parameter).
-/
import proofs.«140263_j12025908429199_1_alg».proof.Proof.Gen.KernelIdeal.Frame
import proofs.«140263_j12025908429199_1_alg».proof.Proof.LibSelfAdd

noncomputable section

namespace Cert.KernelIdeal.Region3

open Cert.KernelIdeal Cert.KernelIdeal.Gen Idealize.ShloMosaic Idealize.ShloMosaic.TcCoe Idealize.SL.Sem
open Idealize.ShloMosaic.ValueIdx Cert.Dense Cert.RowBlocks Cert.SelfAdd
open Idealize.ShloMosaic.Pipeline (Dat)

variable (V : (c : Dev nD) → (b : Ref sig .tc) → Buf (Elt Ideal) ((c : Thread nD τ).loc b))

theorem origin : (![0, 0] : Fin 2 → Nat) = fun _ => 0 := funext fun a => by fin_cases a <;> rfl

/-- The printed index maps over the ten points: the three row-blocked operands and the output move down one block of
    rows per point, the bias row stays. -/
theorem index_maps : ∀ t : Fin cfg3.N, win3_0.index t (0 : Fin 2) = t.val ∧ win3_0.index t (1 : Fin 2) = 0
    ∧ win3_1.index t (0 : Fin 2) = t.val ∧ win3_1.index t (1 : Fin 2) = 0
    ∧ win3_2.index t (0 : Fin 2) = t.val ∧ win3_2.index t (1 : Fin 2) = 0
    ∧ win3_3.index t (0 : Fin 2) = 0 ∧ win3_3.index t (1 : Fin 2) = 0
    ∧ win3_4.index t (0 : Fin 2) = t.val ∧ win3_4.index t (1 : Fin 2) = 0 :=
  (by decide +kernel : ∀ t : Fin grid3.N, _)

/-- The body's stored value, from its four loaded blocks: factors d, aggregate a, features h, bias row b. -/
theorem body_value (d : Vec Ideal S10000x1 .f32) (a h : Vec Ideal S10000x16 .f32) (b : Vec Ideal S1x16 .f32) :
    k3_pay1 (F := Ideal) d a h b = shift (A := 10000) (M := 16) (selfAdd (A := 10000) (M := 16) a h d) b := by
  rw [← shift_plain (A := 10000) (M := 16) (selfAdd (A := 10000) (M := 16) a h d) b shapeCasts_S1x16_S1x16 broadcasts_S1x16_S10000x16,
    ← kernel_selfAdd (A := 10000) (M := 16) a h d shapeCasts_S10000x16_S10000x16 shapeCasts_S10000x1_S10000x1 broadcasts_S10000x1_S10000x16]
  rfl

/-- What point t writes back is block t of that function of the entry arrays. -/
theorem written_back (c : Dev nD) (t : Fin cfg3.N) :
    (dat3 (F := Ideal) V c).flushed 4 t
      = ((cfg3.win 4).blk t).view.read (Elt Ideal)
          (shift (A := 100000) (M := 16) (selfAdd (A := 100000) (M := 16) (V c main_v71 : S100000x16.Idx → EReal) (V c main_v43 : S100000x16.Idx → EReal)
            (V c main_v72 : S100000x1.Idx → EReal)) (V c main_v73 : S1x16.Idx → EReal)) := by
  show (cfg3.win 4).cut (grid3.coords t) ((dat3 (F := Ideal) V c).after 4 t) = _
  rw [after3_4]
  unfold out3_4
  rw [View.canon_unit_zero origin]
  simp only [View.ld_unit_zero (S := S10000x16) origin, View.ld_unit_zero (S := S10000x1) origin, View.ld_unit_zero (S := S1x16) origin]
  rw [body_value]
  obtain ⟨e0, e1, e2, e3, e4, e5, e6, e7, e8, e9⟩ := index_maps t
  funext j
  show shift (A := 10000) (M := 16) (selfAdd (A := 10000) (M := 16)
          (fun y => (V c main_v71 : S100000x16.Idx → EReal) (((cfg3.win 0).blk t).view.emb y))
          (fun y => (V c main_v43 : S100000x16.Idx → EReal) (((cfg3.win 1).blk t).view.emb y))
          (fun y => (V c main_v72 : S100000x1.Idx → EReal) (((cfg3.win 2).blk t).view.emb y)))
        (fun y => (V c main_v73 : S1x16.Idx → EReal) (((cfg3.win 3).blk t).view.emb y)) j
      = shift (A := 100000) (M := 16) (selfAdd (A := 100000) (M := 16) (V c main_v71 : S100000x16.Idx → EReal) (V c main_v43 : S100000x16.Idx → EReal)
            (V c main_v72 : S100000x1.Idx → EReal)) (V c main_v73 : S1x16.Idx → EReal) (((cfg3.win 4).blk t).view.emb j)
  refine shift_reindex (A := 10000) (M := 16) (A' := 100000) _ _ _ _ j _
    (selfAdd_reindex (A := 10000) (M := 16) (A' := 100000) _ _ _ _ _ _ j _ ?_ ?_ ?_) ?_
  · funext a; apply Fin.ext
    match a with
    | ⟨0, _⟩ => show win3_0.index t (0 : Fin 2) * 10000 + 1 * (j 0).val = win3_4.index t (0 : Fin 2) * 10000 + 1 * (j 0).val; omega
    | ⟨1, _⟩ => show win3_0.index t (1 : Fin 2) * 16 + 1 * (j 1).val = win3_4.index t (1 : Fin 2) * 16 + 1 * (j 1).val; omega
  · funext a; apply Fin.ext
    match a with
    | ⟨0, _⟩ => show win3_1.index t (0 : Fin 2) * 10000 + 1 * (j 0).val = win3_4.index t (0 : Fin 2) * 10000 + 1 * (j 0).val; omega
    | ⟨1, _⟩ => show win3_1.index t (1 : Fin 2) * 16 + 1 * (j 1).val = win3_4.index t (1 : Fin 2) * 16 + 1 * (j 1).val; omega
  · funext a; apply Fin.ext
    match a with
    | ⟨0, _⟩ => show win3_2.index t (0 : Fin 2) * 10000 + 1 * (j 0).val = win3_4.index t (0 : Fin 2) * 10000 + 1 * (j 0).val; omega
    | ⟨1, _⟩ => show win3_2.index t (1 : Fin 2) * 1 + 1 * 0 = 0; omega
  · funext a; apply Fin.ext
    match a with
    | ⟨0, _⟩ => show win3_3.index t (0 : Fin 2) * 1 + 1 * 0 = 0; omega
    | ⟨1, _⟩ => show win3_3.index t (1 : Fin 2) * 16 + 1 * (j 1).val = win3_4.index t (1 : Fin 2) * 16 + 1 * (j 1).val; omega

/-- An index of the output array lies in point t's block iff each coordinate lies in the block's range. -/
theorem mem_block (t : Fin cfg3.N) (i : S100000x16.Idx) :
    i ∈ ((cfg3.win 4).blk t).view.set ↔ ∀ a : Fin 2, win3_4.index t a * S10000x16.size a ≤ (i a).val ∧ (i a).val < win3_4.index t a * S10000x16.size a + S10000x16.size a := by
  show i ∈ ((View.whole main_v74).slice (win3_4.rect t)).set ↔ _
  rw [View.set_slice_whole, Rect.mem_set_unit]
  exact Iff.rfl

/-- Row r of the output lies in the block of point r / 10000: the ten blocks tile the array. -/
theorem tiled (i : S100000x16.Idx) : ∃ t : Fin cfg3.N, (cfg3.win 4).flush t = true ∧ i ∈ ((cfg3.win 4).blk t).view.set := by
  have hi0 : (i 0).val < 100000 := (i 0).isLt
  have hi1 : (i 1).val < 16 := (i 1).isLt
  have hN : grid3.N = 10 := N_3
  have hq : (i 0).val / 10000 < cfg3.N := by show (i 0).val / 10000 < grid3.N; omega
  refine ⟨⟨(i 0).val / 10000, hq⟩, flush3_4 _, ?_⟩
  rw [mem_block]
  obtain ⟨-, -, -, -, -, -, -, -, e8, e9⟩ := index_maps ⟨(i 0).val / 10000, hq⟩
  intro a
  match a with
  | ⟨0, _⟩ =>
    show win3_4.index ⟨(i 0).val / 10000, hq⟩ (0 : Fin 2) * 10000 ≤ (i 0).val ∧ (i 0).val < win3_4.index ⟨(i 0).val / 10000, hq⟩ (0 : Fin 2) * 10000 + 10000
    rw [e8]; show (i 0).val / 10000 * 10000 ≤ (i 0).val ∧ (i 0).val < (i 0).val / 10000 * 10000 + 10000; omega
  | ⟨1, _⟩ =>
    show win3_4.index ⟨(i 0).val / 10000, hq⟩ (1 : Fin 2) * 16 ≤ (i 1).val ∧ (i 1).val < win3_4.index ⟨(i 0).val / 10000, hq⟩ (1 : Fin 2) * 16 + 16
    rw [e9]; omega

/-- The output array after the region, as one function of the four arrays the region found. -/
theorem result (c : Dev nD) :
    (dat3 (F := Ideal) V c).arrAt 4 cfg3.N
      = shift (A := 100000) (M := 16) (selfAdd (A := 100000) (M := 16) (V c main_v71 : S100000x16.Idx → EReal) (V c main_v43 : S100000x16.Idx → EReal)
            (V c main_v72 : S100000x1.Idx → EReal)) (V c main_v73 : S1x16.Idx → EReal) :=
  (dat3 (F := Ideal) V c).arrAt_eq_of_cover 4 _ (fun t _ => written_back V c t) tiled

end Cert.KernelIdeal.Region3

end
-- ==== Proof.Region4.lean ====
/-
  Region 4 of the kernel program (the variance head's feature transform): the array it leaves is one matrix product.

  The region walks ten grid points; point t stages rows 10000·t … 10000·t + 9999 of the left factor and the whole
  weight matrix, multiplies them on the matrix unit into a zero accumulator, and writes the 10000 × 16 result back as
  rows 10000·t … of the output.  A block of rows of a product is the product of that block of rows with the whole
  right factor, and the ten blocks tile the 100000 rows, so the output array ends as the product of the two whole
  arrays the region found on entry — whatever those were (the entry contents are a parameter).
-/
import proofs.«140263_j12025908429199_1_alg».proof.Proof.Gen.KernelIdeal.Frame
import proofs.«140263_j12025908429199_1_alg».proof.Proof.KernelDots

noncomputable section

namespace Cert.KernelIdeal.Region4

open Cert.KernelIdeal Cert.KernelIdeal.Gen Cert.KernelIdeal.Dots Idealize.ShloMosaic Idealize.ShloMosaic.TcCoe Idealize.SL.Sem
open Idealize.ShloMosaic.ValueIdx Cert.Dense
open Idealize.ShloMosaic.Pipeline (Dat)

variable (V : (c : Dev nD) → (b : Ref sig .tc) → Buf (Elt Ideal) ((c : Thread nD τ).loc b))

theorem origin : (![0, 0] : Fin 2 → Nat) = fun _ => 0 := funext fun a => by fin_cases a <;> rfl

/-- The printed index maps over the ten points: the left factor and the output move down one block of rows per
    point, the weights stay. -/
theorem index_maps : ∀ t : Fin cfg4.N, win4_0.index t (0 : Fin 2) = t.val ∧ win4_0.index t (1 : Fin 2) = 0
    ∧ win4_1.index t (0 : Fin 2) = 0 ∧ win4_1.index t (1 : Fin 2) = 0
    ∧ win4_2.index t (0 : Fin 2) = t.val ∧ win4_2.index t (1 : Fin 2) = 0 :=
  (by decide +kernel : ∀ t : Fin grid4.N, _)

/-- The body's stored value is the product of its two loaded blocks. -/
theorem body_product (x : Vec Ideal S10000x32 .f32) (w : Vec Ideal S32x16 .f32) :
    k4_pay1 (F := Ideal) x w = prod (A := 10000) (K := 32) (M := 16) x w := by
  unfold k4_pay1
  dsimp only
  rw [shapeCast_self]
  exact matmulB x w

/-- What point t writes back is block t of the product of the entry arrays. -/
theorem written_back (c : Dev nD) (t : Fin cfg4.N) :
    (dat4 (F := Ideal) V c).flushed 2 t
      = ((cfg4.win 2).blk t).view.read (Elt Ideal)
          (prod (A := 100000) (K := 32) (M := 16) (V c main_v42 : S100000x32.Idx → EReal) (V c main_arg6 : S32x16.Idx → EReal)) := by
  show (cfg4.win 2).cut (grid4.coords t) ((dat4 (F := Ideal) V c).after 2 t) = _
  rw [after4_2]
  unfold out4_2
  rw [View.canon_unit_zero origin]
  simp only [View.ld_unit_zero (S := S10000x32) origin, View.ld_unit_zero (S := S32x16) origin]
  rw [body_product]
  obtain ⟨e0, e1, e2, e3, e4, e5⟩ := index_maps t
  funext j
  show prod (A := 10000) (K := 32) (M := 16)
        (fun y => (V c main_v42 : S100000x32.Idx → EReal) (((cfg4.win 0).blk t).view.emb y))
        (fun y => (V c main_arg6 : S32x16.Idx → EReal) (((cfg4.win 1).blk t).view.emb y)) j
      = prod (A := 100000) (K := 32) (M := 16) (V c main_v42 : S100000x32.Idx → EReal) (V c main_arg6 : S32x16.Idx → EReal)
          (((cfg4.win 2).blk t).view.emb j)
  refine prod_reindex (A := 10000) (K := 32) (M := 16) (A' := 100000) (M' := 16) _ _ _ _ j _ (fun kk => ?_) (fun kk => ?_)
  · funext a; apply Fin.ext
    match a with
    | ⟨0, _⟩ => show win4_0.index t (0 : Fin 2) * 10000 + 1 * (j 0).val = win4_2.index t (0 : Fin 2) * 10000 + 1 * (j 0).val; omega
    | ⟨1, _⟩ => show win4_0.index t (1 : Fin 2) * 32 + 1 * kk.val = kk.val; omega
  · funext a; apply Fin.ext
    match a with
    | ⟨0, _⟩ => show win4_1.index t (0 : Fin 2) * 32 + 1 * kk.val = kk.val; omega
    | ⟨1, _⟩ => show win4_1.index t (1 : Fin 2) * 16 + 1 * (j 1).val = win4_2.index t (1 : Fin 2) * 16 + 1 * (j 1).val; omega

/-- An index of the output array lies in point t's block iff each coordinate lies in the block's range. -/
theorem mem_block (t : Fin cfg4.N) (i : S100000x16.Idx) :
    i ∈ ((cfg4.win 2).blk t).view.set ↔ ∀ a : Fin 2, win4_2.index t a * S10000x16.size a ≤ (i a).val ∧ (i a).val < win4_2.index t a * S10000x16.size a + S10000x16.size a := by
  show i ∈ ((View.whole main_v75).slice (win4_2.rect t)).set ↔ _
  rw [View.set_slice_whole, Rect.mem_set_unit]
  exact Iff.rfl

/-- Row r of the output lies in the block of point r / 10000: the ten blocks tile the array. -/
theorem tiled (i : S100000x16.Idx) : ∃ t : Fin cfg4.N, (cfg4.win 2).flush t = true ∧ i ∈ ((cfg4.win 2).blk t).view.set := by
  have hi0 : (i 0).val < 100000 := (i 0).isLt
  have hi1 : (i 1).val < 16 := (i 1).isLt
  have hN : grid4.N = 10 := N_4
  have hq : (i 0).val / 10000 < cfg4.N := by show (i 0).val / 10000 < grid4.N; omega
  refine ⟨⟨(i 0).val / 10000, hq⟩, flush4_2 _, ?_⟩
  rw [mem_block]
  obtain ⟨-, -, -, -, e4, e5⟩ := index_maps ⟨(i 0).val / 10000, hq⟩
  intro a
  match a with
  | ⟨0, _⟩ =>
    show win4_2.index ⟨(i 0).val / 10000, hq⟩ (0 : Fin 2) * 10000 ≤ (i 0).val ∧ (i 0).val < win4_2.index ⟨(i 0).val / 10000, hq⟩ (0 : Fin 2) * 10000 + 10000
    rw [e4]; show (i 0).val / 10000 * 10000 ≤ (i 0).val ∧ (i 0).val < (i 0).val / 10000 * 10000 + 10000; omega
  | ⟨1, _⟩ =>
    show win4_2.index ⟨(i 0).val / 10000, hq⟩ (1 : Fin 2) * 16 ≤ (i 1).val ∧ (i 1).val < win4_2.index ⟨(i 0).val / 10000, hq⟩ (1 : Fin 2) * 16 + 16
    rw [e5]; omega

/-- The output array after the region: the product of the two arrays the region found. -/
theorem result (c : Dev nD) :
    (dat4 (F := Ideal) V c).arrAt 2 cfg4.N
      = prod (A := 100000) (K := 32) (M := 16) (V c main_v42 : S100000x32.Idx → EReal) (V c main_arg6 : S32x16.Idx → EReal) :=
  (dat4 (F := Ideal) V c).arrAt_eq_of_cover 2 _ (fun t _ => written_back V c t) tiled

end Cert.KernelIdeal.Region4

end
-- ==== Proof.Region5.lean ====
/-
  Region 5 of the kernel program (the variance head's per-node step): the array it leaves, as one function of the arrays it found.

  Point t of the ten stages rows 10000·t … 10000·t + 9999 of the aggregated messages, of the transformed features and
  of the one-column matrix of node factors, and the whole one-row bias; per entry it computes
  (aggregate + features · (factor · factor)) + bias and writes the block back in place.  Every step acts on
  one row at a time, so a block of rows of the result is the result on the block of rows, and the ten blocks tile the
  100000 rows: the output array ends as that function of the whole entry arrays (the entry contents are a parameter).
-/
import proofs.«140263_j12025908429199_1_alg».proof.Proof.Gen.KernelIdeal.Frame
import proofs.«140263_j12025908429199_1_alg».proof.Proof.LibSelfAdd

noncomputable section

namespace Cert.KernelIdeal.Region5

open Cert.KernelIdeal Cert.KernelIdeal.Gen Idealize.ShloMosaic Idealize.ShloMosaic.TcCoe Idealize.SL.Sem
open Idealize.ShloMosaic.ValueIdx Cert.Dense Cert.RowBlocks Cert.SelfAdd
open Idealize.ShloMosaic.Pipeline (Dat)

variable (V : (c : Dev nD) → (b : Ref sig .tc) → Buf (Elt Ideal) ((c : Thread nD τ).loc b))

theorem origin : (![0, 0] : Fin 2 → Nat) = fun _ => 0 := funext fun a => by fin_cases a <;> rfl

/-- The printed index maps over the ten points: the three row-blocked operands and the output move down one block of
    rows per point, the bias row stays. -/
theorem index_maps : ∀ t : Fin cfg5.N, win5_0.index t (0 : Fin 2) = t.val ∧ win5_0.index t (1 : Fin 2) = 0
    ∧ win5_1.index t (0 : Fin 2) = t.val ∧ win5_1.index t (1 : Fin 2) = 0
    ∧ win5_2.index t (0 : Fin 2) = t.val ∧ win5_2.index t (1 : Fin 2) = 0
    ∧ win5_3.index t (0 : Fin 2) = 0 ∧ win5_3.index t (1 : Fin 2) = 0
    ∧ win5_4.index t (0 : Fin 2) = t.val ∧ win5_4.index t (1 : Fin 2) = 0 :=
  (by decide +kernel : ∀ t : Fin grid5.N, _)

/-- The body's stored value, from its four loaded blocks: factors d, aggregate a, features h, bias row b. -/
theorem body_value (d : Vec Ideal S10000x1 .f32) (a h : Vec Ideal S10000x16 .f32) (b : Vec Ideal S1x16 .f32) :
    k5_pay1 (F := Ideal) d a h b = shift (A := 10000) (M := 16) (selfAdd (A := 10000) (M := 16) a h d) b := by
  rw [← shift_plain (A := 10000) (M := 16) (selfAdd (A := 10000) (M := 16) a h d) b shapeCasts_S1x16_S1x16 broadcasts_S1x16_S10000x16,
    ← kernel_selfAdd (A := 10000) (M := 16) a h d shapeCasts_S10000x16_S10000x16 shapeCasts_S10000x1_S10000x1 broadcasts_S10000x1_S10000x16]
  rfl

/-- What point t writes back is block t of that function of the entry arrays. -/
theorem written_back (c : Dev nD) (t : Fin cfg5.N) :
    (dat5 (F := Ideal) V c).flushed 4 t
      = ((cfg5.win 4).blk t).view.read (Elt Ideal)
          (shift (A := 100000) (M := 16) (selfAdd (A := 100000) (M := 16) (V c main_v103 : S100000x16.Idx → EReal) (V c main_v75 : S100000x16.Idx → EReal)
            (V c main_v104 : S100000x1.Idx → EReal)) (V c main_v105 : S1x16.Idx → EReal)) := by
  show (cfg5.win 4).cut (grid5.coords t) ((dat5 (F := Ideal) V c).after 4 t) = _
  rw [after5_4]
  unfold out5_4
  rw [View.canon_unit_zero origin]
  simp only [View.ld_unit_zero (S := S10000x16) origin, View.ld_unit_zero (S := S10000x1) origin, View.ld_unit_zero (S := S1x16) origin]
  rw [body_value]
  obtain ⟨e0, e1, e2, e3, e4, e5, e6, e7, e8, e9⟩ := index_maps t
  funext j
  show shift (A := 10000) (M := 16) (selfAdd (A := 10000) (M := 16)
          (fun y => (V c main_v103 : S100000x16.Idx → EReal) (((cfg5.win 0).blk t).view.emb y))
          (fun y => (V c main_v75 : S100000x16.Idx → EReal) (((cfg5.win 1).blk t).view.emb y))
          (fun y => (V c main_v104 : S100000x1.Idx → EReal) (((cfg5.win 2).blk t).view.emb y)))
        (fun y => (V c main_v105 : S1x16.Idx → EReal) (((cfg5.win 3).blk t).view.emb y)) j
      = shift (A := 100000) (M := 16) (selfAdd (A := 100000) (M := 16) (V c main_v103 : S100000x16.Idx → EReal) (V c main_v75 : S100000x16.Idx → EReal)
            (V c main_v104 : S100000x1.Idx → EReal)) (V c main_v105 : S1x16.Idx → EReal) (((cfg5.win 4).blk t).view.emb j)
  refine shift_reindex (A := 10000) (M := 16) (A' := 100000) _ _ _ _ j _
    (selfAdd_reindex (A := 10000) (M := 16) (A' := 100000) _ _ _ _ _ _ j _ ?_ ?_ ?_) ?_
  · funext a; apply Fin.ext
    match a with
    | ⟨0, _⟩ => show win5_0.index t (0 : Fin 2) * 10000 + 1 * (j 0).val = win5_4.index t (0 : Fin 2) * 10000 + 1 * (j 0).val; omega
    | ⟨1, _⟩ => show win5_0.index t (1 : Fin 2) * 16 + 1 * (j 1).val = win5_4.index t (1 : Fin 2) * 16 + 1 * (j 1).val; omega
  · funext a; apply Fin.ext
    match a with
    | ⟨0, _⟩ => show win5_1.index t (0 : Fin 2) * 10000 + 1 * (j 0).val = win5_4.index t (0 : Fin 2) * 10000 + 1 * (j 0).val; omega
    | ⟨1, _⟩ => show win5_1.index t (1 : Fin 2) * 16 + 1 * (j 1).val = win5_4.index t (1 : Fin 2) * 16 + 1 * (j 1).val; omega
  · funext a; apply Fin.ext
    match a with
    | ⟨0, _⟩ => show win5_2.index t (0 : Fin 2) * 10000 + 1 * (j 0).val = win5_4.index t (0 : Fin 2) * 10000 + 1 * (j 0).val; omega
    | ⟨1, _⟩ => show win5_2.index t (1 : Fin 2) * 1 + 1 * 0 = 0; omega
  · funext a; apply Fin.ext
    match a with
    | ⟨0, _⟩ => show win5_3.index t (0 : Fin 2) * 1 + 1 * 0 = 0; omega
    | ⟨1, _⟩ => show win5_3.index t (1 : Fin 2) * 16 + 1 * (j 1).val = win5_4.index t (1 : Fin 2) * 16 + 1 * (j 1).val; omega

/-- An index of the output array lies in point t's block iff each coordinate lies in the block's range. -/
theorem mem_block (t : Fin cfg5.N) (i : S100000x16.Idx) :
    i ∈ ((cfg5.win 4).blk t).view.set ↔ ∀ a : Fin 2, win5_4.index t a * S10000x16.size a ≤ (i a).val ∧ (i a).val < win5_4.index t a * S10000x16.size a + S10000x16.size a := by
  show i ∈ ((View.whole main_v106).slice (win5_4.rect t)).set ↔ _
  rw [View.set_slice_whole, Rect.mem_set_unit]
  exact Iff.rfl

/-- Row r of the output lies in the block of point r / 10000: the ten blocks tile the array. -/
theorem tiled (i : S100000x16.Idx) : ∃ t : Fin cfg5.N, (cfg5.win 4).flush t = true ∧ i ∈ ((cfg5.win 4).blk t).view.set := by
  have hi0 : (i 0).val < 100000 := (i 0).isLt
  have hi1 : (i 1).val < 16 := (i 1).isLt
  have hN : grid5.N = 10 := N_5
  have hq : (i 0).val / 10000 < cfg5.N := by show (i 0).val / 10000 < grid5.N; omega
  refine ⟨⟨(i 0).val / 10000, hq⟩, flush5_4 _, ?_⟩
  rw [mem_block]
  obtain ⟨-, -, -, -, -, -, -, -, e8, e9⟩ := index_maps ⟨(i 0).val / 10000, hq⟩
  intro a
  match a with
  | ⟨0, _⟩ =>
    show win5_4.index ⟨(i 0).val / 10000, hq⟩ (0 : Fin 2) * 10000 ≤ (i 0).val ∧ (i 0).val < win5_4.index ⟨(i 0).val / 10000, hq⟩ (0 : Fin 2) * 10000 + 10000
    rw [e8]; show (i 0).val / 10000 * 10000 ≤ (i 0).val ∧ (i 0).val < (i 0).val / 10000 * 10000 + 10000; omega
  | ⟨1, _⟩ =>
    show win5_4.index ⟨(i 0).val / 10000, hq⟩ (1 : Fin 2) * 16 ≤ (i 1).val ∧ (i 1).val < win5_4.index ⟨(i 0).val / 10000, hq⟩ (1 : Fin 2) * 16 + 16
    rw [e9]; omega

/-- The output array after the region, as one function of the four arrays the region found. -/
theorem result (c : Dev nD) :
    (dat5 (F := Ideal) V c).arrAt 4 cfg5.N
      = shift (A := 100000) (M := 16) (selfAdd (A := 100000) (M := 16) (V c main_v103 : S100000x16.Idx → EReal) (V c main_v75 : S100000x16.Idx → EReal)
            (V c main_v104 : S100000x1.Idx → EReal)) (V c main_v105 : S1x16.Idx → EReal) :=
  (dat5 (F := Ideal) V c).arrAt_eq_of_cover 4 _ (fun t _ => written_back V c t) tiled

end Cert.KernelIdeal.Region5

end
-- ==== Proof.Stages.lean ====
/-
  The network both programs compute, stage by stage, as functions of whole arrays on the extended reals.

  A graph of 100000 nodes and 3200000 directed edges is given as a 2 × 3200000 table of node indices (row 0 the
  sources, row 1 the targets).  A node's degree counts the edges that target it, plus one for its own loop, and its
  factor is the reciprocal square root of that degree.  One convolution takes a feature matrix X and weights W:
  it forms XW, sends along every edge the source's row of XW scaled by the two end factors, adds at every node what
  reached it, then adds the node's own row of XW scaled by its factor squared, then a bias row.  The hidden layer
  applies this to the input features and takes the maximum with zero; the two heads apply it to the hidden layer.

  The gathers along edges and the accumulating scatters are kept as the host's own operations (the same on both
  sides, never opened); the dense pieces are LibDense.lean's `prod`, `act`, `shift` and LibSelfAdd.lean's `selfAdd`.
-/
import proofs.«140263_j12025908429199_1_alg».proof.Proof.Gen.ReferenceIdeal
import proofs.«140263_j12025908429199_1_alg».proof.Proof.LibSelfAdd

noncomputable section

namespace Cert.Stages

open Cert.ReferenceIdeal Cert.ReferenceIdeal.Facts₀ Idealize.ShloMosaic Cert.Dense Cert.SelfAdd

/-- Row 0 of the edge table: every edge's source node. -/
def sources (e : (⟨S2x3200000, .i32⟩ : BufTy).Contents (Elt Ideal)) : (⟨S3200000, .i32⟩ : BufTy).Contents (Elt Ideal) :=
  shapeCast _ (extractStridedSlice S1x3200000 ![0, 0] e slices_S2x3200000_S1x3200000_0_0) shapeCasts_S1x3200000_S3200000

/-- Row 1 of the edge table: every edge's target node. -/
def targets (e : (⟨S2x3200000, .i32⟩ : BufTy).Contents (Elt Ideal)) : (⟨S3200000, .i32⟩ : BufTy).Contents (Elt Ideal) :=
  shapeCast _ (extractStridedSlice S1x3200000 ![1, 0] e slices_S2x3200000_S1x3200000_1_0) shapeCasts_S1x3200000_S3200000

/-- Node indices as a gather takes them: a negative index counts from the end (100000 is added to it), and the
    list is placed as a one-column matrix. -/
def wrapped (i : (⟨S3200000, .i32⟩ : BufTy).Contents (Elt Ideal)) : (⟨S3200000x1, .i32⟩ : BufTy).Contents (Elt Ideal) :=
  broadcastInDim S3200000x1 ![0] bcast_S3200000_S3200000x1_0
    (select (cmpi .slt i (broadcastInDim S3200000 ![] bcast_S_S3200000 (constantI S_ 32 0#32)))
      (addi i (broadcastInDim S3200000 ![] bcast_S_S3200000 (constantI S_ 32 100000#32))) i)

/-- Every node's factor, from the edges' targets: the reciprocal square root of (the number of edges targeting the
    node, plus one). -/
def factors (t : (⟨S3200000, .i32⟩ : BufTy).Contents (Elt Ideal)) : (⟨S100000, .f32⟩ : BufTy).Contents (Elt Ideal) :=
  Host.rsqrt (F := Ideal) (addf (F := Ideal) (φ := .f32)
    (Host.scatterAdd (F := Ideal) scatter_S100000_S3200000x1_S3200000_n_0_0_1
      (broadcastInDim S100000 ![] bcast_S_S100000 (constant (F := Ideal) S_ .f32 0x00000000#32))
      (broadcastInDim S3200000x1 ![0] bcast_S3200000_S3200000x1_0 t)
      (broadcastInDim S3200000 ![] bcast_S_S3200000 (constant (F := Ideal) S_ .f32 0x3F800000#32)))
    (broadcastInDim S100000 ![] bcast_S_S100000 (constant (F := Ideal) S_ .f32 0x3F800000#32)))

/-- Every edge's weight, for sources s, targets t and node factors f: its source's factor times its target's. -/
def edgeWeights (s t : (⟨S3200000, .i32⟩ : BufTy).Contents (Elt Ideal)) (f : (⟨S100000, .f32⟩ : BufTy).Contents (Elt Ideal)) : (⟨S3200000, .f32⟩ : BufTy).Contents (Elt Ideal) :=
  mulf (F := Ideal) (φ := .f32) (Host.gather gather_S100000_S3200000x1_S3200000_n_0_n_n_0_1_1 f (wrapped s))
    (Host.gather gather_S100000_S3200000x1_S3200000_n_0_n_n_0_1_1 f (wrapped t))

/-- What reaches every node along the edges, for features of 32 columns: each edge carries its source's row times
    the edge's weight, and a node adds up what its incoming edges carry. -/
def received32 (y : (⟨S100000x32, .f32⟩ : BufTy).Contents (Elt Ideal)) (s t : (⟨S3200000, .i32⟩ : BufTy).Contents (Elt Ideal)) (f : (⟨S100000, .f32⟩ : BufTy).Contents (Elt Ideal)) :
    (⟨S100000x32, .f32⟩ : BufTy).Contents (Elt Ideal) :=
  Host.scatterAdd (F := Ideal) scatter_S100000x32_S3200000x1_S3200000x32_1_0_0_1
    (broadcastInDim S100000x32 ![] bcast_S_S100000x32 (constant (F := Ideal) S_ .f32 0x00000000#32))
    (broadcastInDim S3200000x1 ![0] bcast_S3200000_S3200000x1_0 t)
    (mulf (F := Ideal) (φ := .f32) (Host.gather gather_S100000x32_S3200000x1_S3200000x32_1_0_n_n_0_1_132 y (wrapped s))
      (broadcastInDim S3200000x32 ![0, 1] bcast_S3200000x1_S3200000x32_0_1
        (broadcastInDim S3200000x1 ![0] bcast_S3200000_S3200000x1_0 (edgeWeights s t f))))

/-- The same for features of 16 columns. -/
def received16 (y : (⟨S100000x16, .f32⟩ : BufTy).Contents (Elt Ideal)) (s t : (⟨S3200000, .i32⟩ : BufTy).Contents (Elt Ideal)) (f : (⟨S100000, .f32⟩ : BufTy).Contents (Elt Ideal)) :
    (⟨S100000x16, .f32⟩ : BufTy).Contents (Elt Ideal) :=
  Host.scatterAdd (F := Ideal) scatter_S100000x16_S3200000x1_S3200000x16_1_0_0_1
    (broadcastInDim S100000x16 ![] bcast_S_S100000x16 (constant (F := Ideal) S_ .f32 0x00000000#32))
    (broadcastInDim S3200000x1 ![0] bcast_S3200000_S3200000x1_0 t)
    (mulf (F := Ideal) (φ := .f32) (Host.gather gather_S100000x16_S3200000x1_S3200000x16_1_0_n_n_0_1_116 y (wrapped s))
      (broadcastInDim S3200000x16 ![0, 1] bcast_S3200000x1_S3200000x16_0_1
        (broadcastInDim S3200000x1 ![0] bcast_S3200000_S3200000x1_0 (edgeWeights s t f))))

/-- The node factors as a one-column matrix. -/
def factorColumn (f : (⟨1, ![100000]⟩ : Shape).Idx → EReal) : (⟨2, ![100000, 1]⟩ : Shape).Idx → EReal :=
  shapeCast ⟨2, ![100000, 1]⟩ f (by decide)

/-- A vector of 32 entries as a one-row matrix. -/
def asRow32 (b : (⟨1, ![32]⟩ : Shape).Idx → EReal) : (⟨2, ![1, 32]⟩ : Shape).Idx → EReal :=
  shapeCast ⟨2, ![1, 32]⟩ b (by decide)

/-- A vector of 16 entries as a one-row matrix. -/
def asRow16 (b : (⟨1, ![16]⟩ : Shape).Idx → EReal) : (⟨2, ![1, 16]⟩ : Shape).Idx → EReal :=
  shapeCast ⟨2, ![1, 16]⟩ b (by decide)

/-- The hidden layer: the convolution of the input features x with weights w and bias b over the graph (sources s,
    targets t, node factors f), then the maximum with zero. -/
def hidden (x : (⟨2, ![100000, 256]⟩ : Shape).Idx → EReal) (s t : (⟨S3200000, .i32⟩ : BufTy).Contents (Elt Ideal)) (f : (⟨S100000, .f32⟩ : BufTy).Contents (Elt Ideal))
    (w : (⟨2, ![256, 32]⟩ : Shape).Idx → EReal) (b : (⟨1, ![32]⟩ : Shape).Idx → EReal) : (⟨2, ![100000, 32]⟩ : Shape).Idx → EReal :=
  act (selfAdd (received32 (prod x w) s t f) (prod x w) (factorColumn f)) (asRow32 b)

/-- A head: the convolution of the hidden layer h with weights w and bias b over the same graph. -/
def head (h : (⟨2, ![100000, 32]⟩ : Shape).Idx → EReal) (s t : (⟨S3200000, .i32⟩ : BufTy).Contents (Elt Ideal)) (f : (⟨S100000, .f32⟩ : BufTy).Contents (Elt Ideal))
    (w : (⟨2, ![32, 16]⟩ : Shape).Idx → EReal) (b : (⟨1, ![16]⟩ : Shape).Idx → EReal) : (⟨2, ![100000, 16]⟩ : Shape).Idx → EReal :=
  shift (selfAdd (received16 (prod h w) s t f) (prod h w) (factorColumn f)) (asRow16 b)

/-- One result of the network: a head over the hidden layer, all from the argument arrays (features x, edge table e,
    the hidden layer's weights and bias, the head's weights and bias). -/
def output (x : (⟨2, ![100000, 256]⟩ : Shape).Idx → EReal) (e : (⟨S2x3200000, .i32⟩ : BufTy).Contents (Elt Ideal))
    (w1 : (⟨2, ![256, 32]⟩ : Shape).Idx → EReal) (b1 : (⟨1, ![32]⟩ : Shape).Idx → EReal)
    (w : (⟨2, ![32, 16]⟩ : Shape).Idx → EReal) (b : (⟨1, ![16]⟩ : Shape).Idx → EReal) : (⟨2, ![100000, 16]⟩ : Shape).Idx → EReal :=
  head (hidden x (sources e) (targets e) (factors (targets e)) w1 b1) (sources e) (targets e) (factors (targets e)) w b

end Cert.Stages

end
-- ==== Proof.Stretch0.lean ====
/-
  The kernel program's first stretch of host operations, from any entry contents: it cuts the two rows out of the
  edge table (sources, targets) and computes every node's factor from the targets; it writes no argument.
-/
import proofs.«140263_j12025908429199_1_alg».proof.Proof.Gen.KernelIdeal.Launch
import proofs.«140263_j12025908429199_1_alg».proof.Proof.Stages

noncomputable section

namespace Cert.KernelIdeal.Stretch0

open Cert.KernelIdeal Cert.KernelIdeal.Gen Idealize.ShloMosaic Idealize.ShloMosaic.TcCoe Idealize.ShloMosaic.StableHlo Cert.Stages Cert.Dense

variable (Y : Valuation τ sig (Elt Ideal))

/-- The edges' sources. -/
theorem new_v1 : StableHlo.after (hostOps0 (F := Ideal)) Y (Proc.devRef .tc main_v1) = sources (Y (Proc.devRef .tc main_arg1)) := by
  after_results_simp <;> rfl

/-- The edges' targets. -/
theorem new_v3 : StableHlo.after (hostOps0 (F := Ideal)) Y (Proc.devRef .tc main_v3) = targets (Y (Proc.devRef .tc main_arg1)) := by
  after_results_simp <;> rfl

/-- The node factors. -/
theorem new_v10 : StableHlo.after (hostOps0 (F := Ideal)) Y (Proc.devRef .tc main_v10) = factors (targets (Y (Proc.devRef .tc main_arg1))) := by
  after_results_simp <;> rfl

theorem keep_arg0 : StableHlo.after (hostOps0 (F := Ideal)) Y (Proc.devRef .tc main_arg0) = Y (Proc.devRef .tc main_arg0) := by
  after_results_simp <;> rfl

theorem keep_arg2 : StableHlo.after (hostOps0 (F := Ideal)) Y (Proc.devRef .tc main_arg2) = Y (Proc.devRef .tc main_arg2) := by
  after_results_simp <;> rfl

theorem keep_arg3 : StableHlo.after (hostOps0 (F := Ideal)) Y (Proc.devRef .tc main_arg3) = Y (Proc.devRef .tc main_arg3) := by
  after_results_simp <;> rfl

theorem keep_arg4 : StableHlo.after (hostOps0 (F := Ideal)) Y (Proc.devRef .tc main_arg4) = Y (Proc.devRef .tc main_arg4) := by
  after_results_simp <;> rfl

theorem keep_arg5 : StableHlo.after (hostOps0 (F := Ideal)) Y (Proc.devRef .tc main_arg5) = Y (Proc.devRef .tc main_arg5) := by
  after_results_simp <;> rfl

theorem keep_arg6 : StableHlo.after (hostOps0 (F := Ideal)) Y (Proc.devRef .tc main_arg6) = Y (Proc.devRef .tc main_arg6) := by
  after_results_simp <;> rfl

theorem keep_arg7 : StableHlo.after (hostOps0 (F := Ideal)) Y (Proc.devRef .tc main_arg7) = Y (Proc.devRef .tc main_arg7) := by
  after_results_simp <;> rfl

end Cert.KernelIdeal.Stretch0

end
-- ==== Proof.Stretch1.lean ====
/-
  The kernel program's second stretch of host operations (between the first transform and the first per-node step),
  from any entry contents: what the edges deliver of the transformed features, the factors as a column, the hidden
  layer's bias as a row; it leaves the transformed features, the edge ends, the factors and the later arguments alone.
-/
import proofs.«140263_j12025908429199_1_alg».proof.Proof.Gen.KernelIdeal.Launch
import proofs.«140263_j12025908429199_1_alg».proof.Proof.Stages

noncomputable section

namespace Cert.KernelIdeal.Stretch1

open Cert.KernelIdeal Cert.KernelIdeal.Gen Idealize.ShloMosaic Idealize.ShloMosaic.TcCoe Idealize.ShloMosaic.StableHlo Cert.Stages Cert.Dense

variable (Y : Valuation τ sig (Elt Ideal))

/-- What the edges deliver. -/
theorem new_v39 : StableHlo.after (hostOps1 (F := Ideal)) Y (Proc.devRef .tc main_v39) = received32 (Y (Proc.devRef .tc main_v11)) (Y (Proc.devRef .tc main_v1)) (Y (Proc.devRef .tc main_v3)) (Y (Proc.devRef .tc main_v10)) := by
  after_results_simp <;> rfl

/-- The factors as a one-column matrix. -/
theorem new_v40 : StableHlo.after (hostOps1 (F := Ideal)) Y (Proc.devRef .tc main_v40) = factorColumn (Y (Proc.devRef .tc main_v10)) := by
  after_results_simp <;> rfl

/-- The bias as a one-row matrix. -/
theorem new_v41 : StableHlo.after (hostOps1 (F := Ideal)) Y (Proc.devRef .tc main_v41) = asRow32 (Y (Proc.devRef .tc main_arg3)) := by
  after_results_simp <;> rfl

theorem keep_v11 : StableHlo.after (hostOps1 (F := Ideal)) Y (Proc.devRef .tc main_v11) = Y (Proc.devRef .tc main_v11) := by
  after_results_simp <;> rfl

theorem keep_v1 : StableHlo.after (hostOps1 (F := Ideal)) Y (Proc.devRef .tc main_v1) = Y (Proc.devRef .tc main_v1) := by
  after_results_simp <;> rfl

theorem keep_v3 : StableHlo.after (hostOps1 (F := Ideal)) Y (Proc.devRef .tc main_v3) = Y (Proc.devRef .tc main_v3) := by
  after_results_simp <;> rfl

theorem keep_v10 : StableHlo.after (hostOps1 (F := Ideal)) Y (Proc.devRef .tc main_v10) = Y (Proc.devRef .tc main_v10) := by
  after_results_simp <;> rfl

theorem keep_arg4 : StableHlo.after (hostOps1 (F := Ideal)) Y (Proc.devRef .tc main_arg4) = Y (Proc.devRef .tc main_arg4) := by
  after_results_simp <;> rfl

theorem keep_arg5 : StableHlo.after (hostOps1 (F := Ideal)) Y (Proc.devRef .tc main_arg5) = Y (Proc.devRef .tc main_arg5) := by
  after_results_simp <;> rfl

theorem keep_arg6 : StableHlo.after (hostOps1 (F := Ideal)) Y (Proc.devRef .tc main_arg6) = Y (Proc.devRef .tc main_arg6) := by
  after_results_simp <;> rfl

theorem keep_arg7 : StableHlo.after (hostOps1 (F := Ideal)) Y (Proc.devRef .tc main_arg7) = Y (Proc.devRef .tc main_arg7) := by
  after_results_simp <;> rfl

end Cert.KernelIdeal.Stretch1

end
-- ==== Proof.Stretch3.lean ====
/-
  The kernel program's third stretch of host operations (between the mean head's transform and its per-node step),
  from any entry contents: what the edges deliver of the transformed hidden features, the factors as a column, the
  head's bias as a row; everything later segments read is left alone.
-/
import proofs.«140263_j12025908429199_1_alg».proof.Proof.Gen.KernelIdeal.Launch
import proofs.«140263_j12025908429199_1_alg».proof.Proof.Stages

noncomputable section

namespace Cert.KernelIdeal.Stretch3

open Cert.KernelIdeal Cert.KernelIdeal.Gen Idealize.ShloMosaic Idealize.ShloMosaic.TcCoe Idealize.ShloMosaic.StableHlo Cert.Stages Cert.Dense

variable (Y : Valuation τ sig (Elt Ideal))

/-- What the edges deliver. -/
theorem new_v71 : StableHlo.after (hostOps3 (F := Ideal)) Y (Proc.devRef .tc main_v71) = received16 (Y (Proc.devRef .tc main_v43)) (Y (Proc.devRef .tc main_v1)) (Y (Proc.devRef .tc main_v3)) (Y (Proc.devRef .tc main_v10)) := by
  after_results_simp <;> rfl

/-- The factors as a one-column matrix. -/
theorem new_v72 : StableHlo.after (hostOps3 (F := Ideal)) Y (Proc.devRef .tc main_v72) = factorColumn (Y (Proc.devRef .tc main_v10)) := by
  after_results_simp <;> rfl

/-- The bias as a one-row matrix. -/
theorem new_v73 : StableHlo.after (hostOps3 (F := Ideal)) Y (Proc.devRef .tc main_v73) = asRow16 (Y (Proc.devRef .tc main_arg5)) := by
  after_results_simp <;> rfl

theorem keep_v43 : StableHlo.after (hostOps3 (F := Ideal)) Y (Proc.devRef .tc main_v43) = Y (Proc.devRef .tc main_v43) := by
  after_results_simp <;> rfl

theorem keep_v42 : StableHlo.after (hostOps3 (F := Ideal)) Y (Proc.devRef .tc main_v42) = Y (Proc.devRef .tc main_v42) := by
  after_results_simp <;> rfl

theorem keep_arg6 : StableHlo.after (hostOps3 (F := Ideal)) Y (Proc.devRef .tc main_arg6) = Y (Proc.devRef .tc main_arg6) := by
  after_results_simp <;> rfl

theorem keep_v1 : StableHlo.after (hostOps3 (F := Ideal)) Y (Proc.devRef .tc main_v1) = Y (Proc.devRef .tc main_v1) := by
  after_results_simp <;> rfl

theorem keep_v3 : StableHlo.after (hostOps3 (F := Ideal)) Y (Proc.devRef .tc main_v3) = Y (Proc.devRef .tc main_v3) := by
  after_results_simp <;> rfl

theorem keep_v10 : StableHlo.after (hostOps3 (F := Ideal)) Y (Proc.devRef .tc main_v10) = Y (Proc.devRef .tc main_v10) := by
  after_results_simp <;> rfl

theorem keep_arg7 : StableHlo.after (hostOps3 (F := Ideal)) Y (Proc.devRef .tc main_arg7) = Y (Proc.devRef .tc main_arg7) := by
  after_results_simp <;> rfl

end Cert.KernelIdeal.Stretch3

end
-- ==== Proof.Stretch5.lean ====
/-
  The kernel program's last stretch of host operations (between the variance head's transform and its per-node
  step), from any entry contents: what the edges deliver of the transformed hidden features, the factors as a column,
  the head's bias as a row; the mean head's result and the transformed features are left alone.
-/
import proofs.«140263_j12025908429199_1_alg».proof.Proof.Gen.KernelIdeal.Launch
import proofs.«140263_j12025908429199_1_alg».proof.Proof.Stages

noncomputable section

namespace Cert.KernelIdeal.Stretch5

open Cert.KernelIdeal Cert.KernelIdeal.Gen Idealize.ShloMosaic Idealize.ShloMosaic.TcCoe Idealize.ShloMosaic.StableHlo Cert.Stages Cert.Dense

variable (Y : Valuation τ sig (Elt Ideal))

/-- What the edges deliver. -/
theorem new_v103 : StableHlo.after (hostOps5 (F := Ideal)) Y (Proc.devRef .tc main_v103) = received16 (Y (Proc.devRef .tc main_v75)) (Y (Proc.devRef .tc main_v1)) (Y (Proc.devRef .tc main_v3)) (Y (Proc.devRef .tc main_v10)) := by
  after_results_simp <;> rfl

/-- The factors as a one-column matrix. -/
theorem new_v104 : StableHlo.after (hostOps5 (F := Ideal)) Y (Proc.devRef .tc main_v104) = factorColumn (Y (Proc.devRef .tc main_v10)) := by
  after_results_simp <;> rfl

/-- The bias as a one-row matrix. -/
theorem new_v105 : StableHlo.after (hostOps5 (F := Ideal)) Y (Proc.devRef .tc main_v105) = asRow16 (Y (Proc.devRef .tc main_arg7)) := by
  after_results_simp <;> rfl

theorem keep_v74 : StableHlo.after (hostOps5 (F := Ideal)) Y (Proc.devRef .tc main_v74) = Y (Proc.devRef .tc main_v74) := by
  after_results_simp <;> rfl

theorem keep_v75 : StableHlo.after (hostOps5 (F := Ideal)) Y (Proc.devRef .tc main_v75) = Y (Proc.devRef .tc main_v75) := by
  after_results_simp <;> rfl

end Cert.KernelIdeal.Stretch5

end
-- ==== Proof.KernelValue.lean ====
/-
  What the idealized kernel program's buffers hold at each of its ten segment boundaries, as the network of
  Stages.lean applied to the launch contents of the eight arguments.

  The boundaries are walked in order.  A stretch of host operations adds the edge ends and the node factors (first
  stretch) or what the edges deliver together with the re-cast factors and bias (the other three); a transform region
  adds a matrix product; a per-node region adds the self-loop sum with its bias (and, in the hidden layer, the
  rectifier).  Whatever a segment does not write it leaves as it found it, so every buffer a later segment reads is
  carried along.  At the last boundary the two result buffers hold the two heads over the hidden layer.
-/
import proofs.«140263_j12025908429199_1_alg».proof.Proof.Gen.KernelIdeal.Frame
import proofs.«140263_j12025908429199_1_alg».proof.Proof.Region0
import proofs.«140263_j12025908429199_1_alg».proof.Proof.Region1
import proofs.«140263_j12025908429199_1_alg».proof.Proof.Region2
import proofs.«140263_j12025908429199_1_alg».proof.Proof.Region3
import proofs.«140263_j12025908429199_1_alg».proof.Proof.Region4
import proofs.«140263_j12025908429199_1_alg».proof.Proof.Region5
import proofs.«140263_j12025908429199_1_alg».proof.Proof.Stretch0
import proofs.«140263_j12025908429199_1_alg».proof.Proof.Stretch1
import proofs.«140263_j12025908429199_1_alg».proof.Proof.Stretch3
import proofs.«140263_j12025908429199_1_alg».proof.Proof.Stretch5

noncomputable section

namespace Cert.KernelIdeal.Boundaries

open Cert.KernelIdeal Cert.KernelIdeal.Gen Idealize.ShloMosaic Idealize.ShloMosaic.TcCoe Idealize.SL.Sem Cert.Stages Cert.Dense Cert.SelfAdd

variable (m : (ℓ : Loc nD τ sig) → Buf (Elt Ideal) ℓ) (ρ : Dev nD → PrngReg) (c : Dev nD)

/-- The input features. -/
abbrev feat : (⟨2, ![100000, 256]⟩ : Shape).Idx → EReal := m ((c : Thread nD τ).loc main_arg0)
/-- The edge table. -/
abbrev edges : (⟨Cert.ReferenceIdeal.S2x3200000, .i32⟩ : BufTy).Contents (Elt Ideal) := m ((c : Thread nD τ).loc main_arg1)
/-- The hidden layer's weights. -/
abbrev w1 : (⟨2, ![256, 32]⟩ : Shape).Idx → EReal := m ((c : Thread nD τ).loc main_arg2)
/-- The hidden layer's bias. -/
abbrev b1 : (⟨1, ![32]⟩ : Shape).Idx → EReal := m ((c : Thread nD τ).loc main_arg3)
/-- The mean head's weights. -/
abbrev wm : (⟨2, ![32, 16]⟩ : Shape).Idx → EReal := m ((c : Thread nD τ).loc main_arg4)
/-- The mean head's bias. -/
abbrev bm : (⟨1, ![16]⟩ : Shape).Idx → EReal := m ((c : Thread nD τ).loc main_arg5)
/-- The variance head's weights. -/
abbrev wv : (⟨2, ![32, 16]⟩ : Shape).Idx → EReal := m ((c : Thread nD τ).loc main_arg6)
/-- The variance head's bias. -/
abbrev bv : (⟨1, ![16]⟩ : Shape).Idx → EReal := m ((c : Thread nD τ).loc main_arg7)

theorem at1_v1 : W1 (F := Ideal) m ρ c (Proc.devRef .tc main_v1) = sources (edges m c) := Stretch0.new_v1 (W0 (F := Ideal) m ρ c)

theorem at1_v3 : W1 (F := Ideal) m ρ c (Proc.devRef .tc main_v3) = targets (edges m c) := Stretch0.new_v3 (W0 (F := Ideal) m ρ c)

theorem at1_v10 : W1 (F := Ideal) m ρ c (Proc.devRef .tc main_v10) = factors (targets (edges m c)) := Stretch0.new_v10 (W0 (F := Ideal) m ρ c)

theorem at1_arg0 : W1 (F := Ideal) m ρ c (Proc.devRef .tc main_arg0) = feat m c := Stretch0.keep_arg0 (W0 (F := Ideal) m ρ c)

theorem at1_arg2 : W1 (F := Ideal) m ρ c (Proc.devRef .tc main_arg2) = w1 m c := Stretch0.keep_arg2 (W0 (F := Ideal) m ρ c)

theorem at1_arg3 : W1 (F := Ideal) m ρ c (Proc.devRef .tc main_arg3) = b1 m c := Stretch0.keep_arg3 (W0 (F := Ideal) m ρ c)

theorem at1_arg4 : W1 (F := Ideal) m ρ c (Proc.devRef .tc main_arg4) = wm m c := Stretch0.keep_arg4 (W0 (F := Ideal) m ρ c)

theorem at1_arg5 : W1 (F := Ideal) m ρ c (Proc.devRef .tc main_arg5) = bm m c := Stretch0.keep_arg5 (W0 (F := Ideal) m ρ c)

theorem at1_arg6 : W1 (F := Ideal) m ρ c (Proc.devRef .tc main_arg6) = wv m c := Stretch0.keep_arg6 (W0 (F := Ideal) m ρ c)

theorem at1_arg7 : W1 (F := Ideal) m ρ c (Proc.devRef .tc main_arg7) = bv m c := Stretch0.keep_arg7 (W0 (F := Ideal) m ρ c)

theorem at2_v11 : W2 (F := Ideal) m ρ c (Proc.devRef .tc main_v11) = (prod (A := 100000) (K := 256) (M := 32) (feat m c) (w1 m c)) := by
  have step : W2 (F := Ideal) m ρ c (Proc.devRef .tc main_v11) = prod (A := 100000) (K := 256) (M := 32) (W1 (F := Ideal) m ρ c (Proc.devRef .tc main_arg0) : S100000x256.Idx → EReal) (W1 (F := Ideal) m ρ c (Proc.devRef .tc main_arg2) : S256x32.Idx → EReal) :=
    (W2_arr (F := Ideal) m ρ c 2).trans (Region0.result (V1 (F := Ideal) m ρ) c)
  rw [step, at1_arg0, at1_arg2]
  try rfl

theorem at2_v1 : W2 (F := Ideal) m ρ c (Proc.devRef .tc main_v1) = sources (edges m c) := (W2_of_ne (F := Ideal) m ρ c main_v1 (by decide)).trans (at1_v1 m ρ c)

theorem at2_v3 : W2 (F := Ideal) m ρ c (Proc.devRef .tc main_v3) = targets (edges m c) := (W2_of_ne (F := Ideal) m ρ c main_v3 (by decide)).trans (at1_v3 m ρ c)

theorem at2_v10 : W2 (F := Ideal) m ρ c (Proc.devRef .tc main_v10) = factors (targets (edges m c)) := (W2_of_ne (F := Ideal) m ρ c main_v10 (by decide)).trans (at1_v10 m ρ c)

theorem at2_arg3 : W2 (F := Ideal) m ρ c (Proc.devRef .tc main_arg3) = b1 m c := (W2_of_ne (F := Ideal) m ρ c main_arg3 (by decide)).trans (at1_arg3 m ρ c)

theorem at2_arg4 : W2 (F := Ideal) m ρ c (Proc.devRef .tc main_arg4) = wm m c := (W2_of_ne (F := Ideal) m ρ c main_arg4 (by decide)).trans (at1_arg4 m ρ c)

theorem at2_arg5 : W2 (F := Ideal) m ρ c (Proc.devRef .tc main_arg5) = bm m c := (W2_of_ne (F := Ideal) m ρ c main_arg5 (by decide)).trans (at1_arg5 m ρ c)

theorem at2_arg6 : W2 (F := Ideal) m ρ c (Proc.devRef .tc main_arg6) = wv m c := (W2_of_ne (F := Ideal) m ρ c main_arg6 (by decide)).trans (at1_arg6 m ρ c)

theorem at2_arg7 : W2 (F := Ideal) m ρ c (Proc.devRef .tc main_arg7) = bv m c := (W2_of_ne (F := Ideal) m ρ c main_arg7 (by decide)).trans (at1_arg7 m ρ c)

theorem at3_v39 : W3 (F := Ideal) m ρ c (Proc.devRef .tc main_v39) = received32 (prod (A := 100000) (K := 256) (M := 32) (feat m c) (w1 m c)) (sources (edges m c)) (targets (edges m c)) (factors (targets (edges m c))) := by
  have step : W3 (F := Ideal) m ρ c (Proc.devRef .tc main_v39) = received32 (W2 (F := Ideal) m ρ c (Proc.devRef .tc main_v11)) (W2 (F := Ideal) m ρ c (Proc.devRef .tc main_v1)) (W2 (F := Ideal) m ρ c (Proc.devRef .tc main_v3)) (W2 (F := Ideal) m ρ c (Proc.devRef .tc main_v10)) := Stretch1.new_v39 (W2 (F := Ideal) m ρ c)
  rw [step, at2_v11, at2_v1, at2_v3, at2_v10]
  try rfl

theorem at3_v40 : W3 (F := Ideal) m ρ c (Proc.devRef .tc main_v40) = factorColumn (factors (targets (edges m c))) := by
  have step : W3 (F := Ideal) m ρ c (Proc.devRef .tc main_v40) = factorColumn (W2 (F := Ideal) m ρ c (Proc.devRef .tc main_v10)) := Stretch1.new_v40 (W2 (F := Ideal) m ρ c)
  rw [step, at2_v10]
  try rfl

theorem at3_v41 : W3 (F := Ideal) m ρ c (Proc.devRef .tc main_v41) = asRow32 (b1 m c) := by
  have step : W3 (F := Ideal) m ρ c (Proc.devRef .tc main_v41) = asRow32 (W2 (F := Ideal) m ρ c (Proc.devRef .tc main_arg3)) := Stretch1.new_v41 (W2 (F := Ideal) m ρ c)
  rw [step, at2_arg3]
  try rfl

theorem at3_v11 : W3 (F := Ideal) m ρ c (Proc.devRef .tc main_v11) = (prod (A := 100000) (K := 256) (M := 32) (feat m c) (w1 m c)) := (Stretch1.keep_v11 (W2 (F := Ideal) m ρ c)).trans (at2_v11 m ρ c)

theorem at3_v1 : W3 (F := Ideal) m ρ c (Proc.devRef .tc main_v1) = sources (edges m c) := (Stretch1.keep_v1 (W2 (F := Ideal) m ρ c)).trans (at2_v1 m ρ c)

theorem at3_v3 : W3 (F := Ideal) m ρ c (Proc.devRef .tc main_v3) = targets (edges m c) := (Stretch1.keep_v3 (W2 (F := Ideal) m ρ c)).trans (at2_v3 m ρ c)

theorem at3_v10 : W3 (F := Ideal) m ρ c (Proc.devRef .tc main_v10) = factors (targets (edges m c)) := (Stretch1.keep_v10 (W2 (F := Ideal) m ρ c)).trans (at2_v10 m ρ c)

theorem at3_arg4 : W3 (F := Ideal) m ρ c (Proc.devRef .tc main_arg4) = wm m c := (Stretch1.keep_arg4 (W2 (F := Ideal) m ρ c)).trans (at2_arg4 m ρ c)

theorem at3_arg5 : W3 (F := Ideal) m ρ c (Proc.devRef .tc main_arg5) = bm m c := (Stretch1.keep_arg5 (W2 (F := Ideal) m ρ c)).trans (at2_arg5 m ρ c)

theorem at3_arg6 : W3 (F := Ideal) m ρ c (Proc.devRef .tc main_arg6) = wv m c := (Stretch1.keep_arg6 (W2 (F := Ideal) m ρ c)).trans (at2_arg6 m ρ c)

theorem at3_arg7 : W3 (F := Ideal) m ρ c (Proc.devRef .tc main_arg7) = bv m c := (Stretch1.keep_arg7 (W2 (F := Ideal) m ρ c)).trans (at2_arg7 m ρ c)

theorem at4_v42 : W4 (F := Ideal) m ρ c (Proc.devRef .tc main_v42) = hidden (feat m c) (sources (edges m c)) (targets (edges m c)) (factors (targets (edges m c))) (w1 m c) (b1 m c) := by
  have step : W4 (F := Ideal) m ρ c (Proc.devRef .tc main_v42) = act (A := 100000) (M := 32) (selfAdd (A := 100000) (M := 32) (W3 (F := Ideal) m ρ c (Proc.devRef .tc main_v39) : S100000x32.Idx → EReal) (W3 (F := Ideal) m ρ c (Proc.devRef .tc main_v11) : S100000x32.Idx → EReal) (W3 (F := Ideal) m ρ c (Proc.devRef .tc main_v40) : S100000x1.Idx → EReal)) (W3 (F := Ideal) m ρ c (Proc.devRef .tc main_v41) : S1x32.Idx → EReal) :=
    (W4_arr (F := Ideal) m ρ c 4).trans (Region1.result (V3 (F := Ideal) m ρ) c)
  rw [step, at3_v39, at3_v11, at3_v40, at3_v41]
  try rfl

theorem at4_v1 : W4 (F := Ideal) m ρ c (Proc.devRef .tc main_v1) = sources (edges m c) := (W4_of_ne (F := Ideal) m ρ c main_v1 (by decide)).trans (at3_v1 m ρ c)

theorem at4_v3 : W4 (F := Ideal) m ρ c (Proc.devRef .tc main_v3) = targets (edges m c) := (W4_of_ne (F := Ideal) m ρ c main_v3 (by decide)).trans (at3_v3 m ρ c)

theorem at4_v10 : W4 (F := Ideal) m ρ c (Proc.devRef .tc main_v10) = factors (targets (edges m c)) := (W4_of_ne (F := Ideal) m ρ c main_v10 (by decide)).trans (at3_v10 m ρ c)

theorem at4_arg4 : W4 (F := Ideal) m ρ c (Proc.devRef .tc main_arg4) = wm m c := (W4_of_ne (F := Ideal) m ρ c main_arg4 (by decide)).trans (at3_arg4 m ρ c)

theorem at4_arg5 : W4 (F := Ideal) m ρ c (Proc.devRef .tc main_arg5) = bm m c := (W4_of_ne (F := Ideal) m ρ c main_arg5 (by decide)).trans (at3_arg5 m ρ c)

theorem at4_arg6 : W4 (F := Ideal) m ρ c (Proc.devRef .tc main_arg6) = wv m c := (W4_of_ne (F := Ideal) m ρ c main_arg6 (by decide)).trans (at3_arg6 m ρ c)

theorem at4_arg7 : W4 (F := Ideal) m ρ c (Proc.devRef .tc main_arg7) = bv m c := (W4_of_ne (F := Ideal) m ρ c main_arg7 (by decide)).trans (at3_arg7 m ρ c)

theorem at5_v43 : W5 (F := Ideal) m ρ c (Proc.devRef .tc main_v43) = prod (A := 100000) (K := 32) (M := 16) (hidden (feat m c) (sources (edges m c)) (targets (edges m c)) (factors (targets (edges m c))) (w1 m c) (b1 m c)) (wm m c) := by
  have step : W5 (F := Ideal) m ρ c (Proc.devRef .tc main_v43) = prod (A := 100000) (K := 32) (M := 16) (W4 (F := Ideal) m ρ c (Proc.devRef .tc main_v42) : S100000x32.Idx → EReal) (W4 (F := Ideal) m ρ c (Proc.devRef .tc main_arg4) : S32x16.Idx → EReal) :=
    (W5_arr (F := Ideal) m ρ c 2).trans (Region2.result (V4 (F := Ideal) m ρ) c)
  rw [step, at4_v42, at4_arg4]
  try rfl

theorem at5_v42 : W5 (F := Ideal) m ρ c (Proc.devRef .tc main_v42) = hidden (feat m c) (sources (edges m c)) (targets (edges m c)) (factors (targets (edges m c))) (w1 m c) (b1 m c) := ((W5_arr (F := Ideal) m ρ c 0).trans (((dat2 (F := Ideal) (V4 (F := Ideal) m ρ) c).arrAt_in 0 rfl _).trans (A_eq2 (F := Ideal) (V4 (F := Ideal) m ρ) c 0))).trans (at4_v42 m ρ c)

theorem at5_v1 : W5 (F := Ideal) m ρ c (Proc.devRef .tc main_v1) = sources (edges m c) := (W5_of_ne (F := Ideal) m ρ c main_v1 (by decide)).trans (at4_v1 m ρ c)

theorem at5_v3 : W5 (F := Ideal) m ρ c (Proc.devRef .tc main_v3) = targets (edges m c) := (W5_of_ne (F := Ideal) m ρ c main_v3 (by decide)).trans (at4_v3 m ρ c)

theorem at5_v10 : W5 (F := Ideal) m ρ c (Proc.devRef .tc main_v10) = factors (targets (edges m c)) := (W5_of_ne (F := Ideal) m ρ c main_v10 (by decide)).trans (at4_v10 m ρ c)

theorem at5_arg5 : W5 (F := Ideal) m ρ c (Proc.devRef .tc main_arg5) = bm m c := (W5_of_ne (F := Ideal) m ρ c main_arg5 (by decide)).trans (at4_arg5 m ρ c)

theorem at5_arg6 : W5 (F := Ideal) m ρ c (Proc.devRef .tc main_arg6) = wv m c := (W5_of_ne (F := Ideal) m ρ c main_arg6 (by decide)).trans (at4_arg6 m ρ c)

theorem at5_arg7 : W5 (F := Ideal) m ρ c (Proc.devRef .tc main_arg7) = bv m c := (W5_of_ne (F := Ideal) m ρ c main_arg7 (by decide)).trans (at4_arg7 m ρ c)

theorem at6_v71 : W6 (F := Ideal) m ρ c (Proc.devRef .tc main_v71) = received16 (prod (A := 100000) (K := 32) (M := 16) (hidden (feat m c) (sources (edges m c)) (targets (edges m c)) (factors (targets (edges m c))) (w1 m c) (b1 m c)) (wm m c)) (sources (edges m c)) (targets (edges m c)) (factors (targets (edges m c))) := by
  have step : W6 (F := Ideal) m ρ c (Proc.devRef .tc main_v71) = received16 (W5 (F := Ideal) m ρ c (Proc.devRef .tc main_v43)) (W5 (F := Ideal) m ρ c (Proc.devRef .tc main_v1)) (W5 (F := Ideal) m ρ c (Proc.devRef .tc main_v3)) (W5 (F := Ideal) m ρ c (Proc.devRef .tc main_v10)) := Stretch3.new_v71 (W5 (F := Ideal) m ρ c)
  rw [step, at5_v43, at5_v1, at5_v3, at5_v10]
  try rfl

theorem at6_v72 : W6 (F := Ideal) m ρ c (Proc.devRef .tc main_v72) = factorColumn (factors (targets (edges m c))) := by
  have step : W6 (F := Ideal) m ρ c (Proc.devRef .tc main_v72) = factorColumn (W5 (F := Ideal) m ρ c (Proc.devRef .tc main_v10)) := Stretch3.new_v72 (W5 (F := Ideal) m ρ c)
  rw [step, at5_v10]
  try rfl

theorem at6_v73 : W6 (F := Ideal) m ρ c (Proc.devRef .tc main_v73) = asRow16 (bm m c) := by
  have step : W6 (F := Ideal) m ρ c (Proc.devRef .tc main_v73) = asRow16 (W5 (F := Ideal) m ρ c (Proc.devRef .tc main_arg5)) := Stretch3.new_v73 (W5 (F := Ideal) m ρ c)
  rw [step, at5_arg5]
  try rfl

theorem at6_v43 : W6 (F := Ideal) m ρ c (Proc.devRef .tc main_v43) = prod (A := 100000) (K := 32) (M := 16) (hidden (feat m c) (sources (edges m c)) (targets (edges m c)) (factors (targets (edges m c))) (w1 m c) (b1 m c)) (wm m c) := (Stretch3.keep_v43 (W5 (F := Ideal) m ρ c)).trans (at5_v43 m ρ c)

theorem at6_v42 : W6 (F := Ideal) m ρ c (Proc.devRef .tc main_v42) = hidden (feat m c) (sources (edges m c)) (targets (edges m c)) (factors (targets (edges m c))) (w1 m c) (b1 m c) := (Stretch3.keep_v42 (W5 (F := Ideal) m ρ c)).trans (at5_v42 m ρ c)

theorem at6_arg6 : W6 (F := Ideal) m ρ c (Proc.devRef .tc main_arg6) = wv m c := (Stretch3.keep_arg6 (W5 (F := Ideal) m ρ c)).trans (at5_arg6 m ρ c)

theorem at6_v1 : W6 (F := Ideal) m ρ c (Proc.devRef .tc main_v1) = sources (edges m c) := (Stretch3.keep_v1 (W5 (F := Ideal) m ρ c)).trans (at5_v1 m ρ c)

theorem at6_v3 : W6 (F := Ideal) m ρ c (Proc.devRef .tc main_v3) = targets (edges m c) := (Stretch3.keep_v3 (W5 (F := Ideal) m ρ c)).trans (at5_v3 m ρ c)

theorem at6_v10 : W6 (F := Ideal) m ρ c (Proc.devRef .tc main_v10) = factors (targets (edges m c)) := (Stretch3.keep_v10 (W5 (F := Ideal) m ρ c)).trans (at5_v10 m ρ c)

theorem at6_arg7 : W6 (F := Ideal) m ρ c (Proc.devRef .tc main_arg7) = bv m c := (Stretch3.keep_arg7 (W5 (F := Ideal) m ρ c)).trans (at5_arg7 m ρ c)

theorem at7_v74 : W7 (F := Ideal) m ρ c (Proc.devRef .tc main_v74) = output (feat m c) (edges m c) (w1 m c) (b1 m c) (wm m c) (bm m c) := by
  have step : W7 (F := Ideal) m ρ c (Proc.devRef .tc main_v74) = shift (A := 100000) (M := 16) (selfAdd (A := 100000) (M := 16) (W6 (F := Ideal) m ρ c (Proc.devRef .tc main_v71) : S100000x16.Idx → EReal) (W6 (F := Ideal) m ρ c (Proc.devRef .tc main_v43) : S100000x16.Idx → EReal) (W6 (F := Ideal) m ρ c (Proc.devRef .tc main_v72) : S100000x1.Idx → EReal)) (W6 (F := Ideal) m ρ c (Proc.devRef .tc main_v73) : S1x16.Idx → EReal) :=
    (W7_arr (F := Ideal) m ρ c 4).trans (Region3.result (V6 (F := Ideal) m ρ) c)
  rw [step, at6_v71, at6_v43, at6_v72, at6_v73]
  try rfl

theorem at7_v42 : W7 (F := Ideal) m ρ c (Proc.devRef .tc main_v42) = hidden (feat m c) (sources (edges m c)) (targets (edges m c)) (factors (targets (edges m c))) (w1 m c) (b1 m c) := (W7_of_ne (F := Ideal) m ρ c main_v42 (by decide)).trans (at6_v42 m ρ c)

theorem at7_arg6 : W7 (F := Ideal) m ρ c (Proc.devRef .tc main_arg6) = wv m c := (W7_of_ne (F := Ideal) m ρ c main_arg6 (by decide)).trans (at6_arg6 m ρ c)

theorem at7_v1 : W7 (F := Ideal) m ρ c (Proc.devRef .tc main_v1) = sources (edges m c) := (W7_of_ne (F := Ideal) m ρ c main_v1 (by decide)).trans (at6_v1 m ρ c)

theorem at7_v3 : W7 (F := Ideal) m ρ c (Proc.devRef .tc main_v3) = targets (edges m c) := (W7_of_ne (F := Ideal) m ρ c main_v3 (by decide)).trans (at6_v3 m ρ c)

theorem at7_v10 : W7 (F := Ideal) m ρ c (Proc.devRef .tc main_v10) = factors (targets (edges m c)) := (W7_of_ne (F := Ideal) m ρ c main_v10 (by decide)).trans (at6_v10 m ρ c)

theorem at7_arg7 : W7 (F := Ideal) m ρ c (Proc.devRef .tc main_arg7) = bv m c := (W7_of_ne (F := Ideal) m ρ c main_arg7 (by decide)).trans (at6_arg7 m ρ c)

theorem at8_v75 : W8 (F := Ideal) m ρ c (Proc.devRef .tc main_v75) = prod (A := 100000) (K := 32) (M := 16) (hidden (feat m c) (sources (edges m c)) (targets (edges m c)) (factors (targets (edges m c))) (w1 m c) (b1 m c)) (wv m c) := by
  have step : W8 (F := Ideal) m ρ c (Proc.devRef .tc main_v75) = prod (A := 100000) (K := 32) (M := 16) (W7 (F := Ideal) m ρ c (Proc.devRef .tc main_v42) : S100000x32.Idx → EReal) (W7 (F := Ideal) m ρ c (Proc.devRef .tc main_arg6) : S32x16.Idx → EReal) :=
    (W8_arr (F := Ideal) m ρ c 2).trans (Region4.result (V7 (F := Ideal) m ρ) c)
  rw [step, at7_v42, at7_arg6]
  try rfl

theorem at8_v74 : W8 (F := Ideal) m ρ c (Proc.devRef .tc main_v74) = output (feat m c) (edges m c) (w1 m c) (b1 m c) (wm m c) (bm m c) := (W8_of_ne (F := Ideal) m ρ c main_v74 (by decide)).trans (at7_v74 m ρ c)

theorem at8_v1 : W8 (F := Ideal) m ρ c (Proc.devRef .tc main_v1) = sources (edges m c) := (W8_of_ne (F := Ideal) m ρ c main_v1 (by decide)).trans (at7_v1 m ρ c)

theorem at8_v3 : W8 (F := Ideal) m ρ c (Proc.devRef .tc main_v3) = targets (edges m c) := (W8_of_ne (F := Ideal) m ρ c main_v3 (by decide)).trans (at7_v3 m ρ c)

theorem at8_v10 : W8 (F := Ideal) m ρ c (Proc.devRef .tc main_v10) = factors (targets (edges m c)) := (W8_of_ne (F := Ideal) m ρ c main_v10 (by decide)).trans (at7_v10 m ρ c)

theorem at8_arg7 : W8 (F := Ideal) m ρ c (Proc.devRef .tc main_arg7) = bv m c := (W8_of_ne (F := Ideal) m ρ c main_arg7 (by decide)).trans (at7_arg7 m ρ c)

theorem at9_v103 : W9 (F := Ideal) m ρ c (Proc.devRef .tc main_v103) = received16 (prod (A := 100000) (K := 32) (M := 16) (hidden (feat m c) (sources (edges m c)) (targets (edges m c)) (factors (targets (edges m c))) (w1 m c) (b1 m c)) (wv m c)) (sources (edges m c)) (targets (edges m c)) (factors (targets (edges m c))) := by
  have step : W9 (F := Ideal) m ρ c (Proc.devRef .tc main_v103) = received16 (W8 (F := Ideal) m ρ c (Proc.devRef .tc main_v75)) (W8 (F := Ideal) m ρ c (Proc.devRef .tc main_v1)) (W8 (F := Ideal) m ρ c (Proc.devRef .tc main_v3)) (W8 (F := Ideal) m ρ c (Proc.devRef .tc main_v10)) := Stretch5.new_v103 (W8 (F := Ideal) m ρ c)
  rw [step, at8_v75, at8_v1, at8_v3, at8_v10]
  try rfl

theorem at9_v104 : W9 (F := Ideal) m ρ c (Proc.devRef .tc main_v104) = factorColumn (factors (targets (edges m c))) := by
  have step : W9 (F := Ideal) m ρ c (Proc.devRef .tc main_v104) = factorColumn (W8 (F := Ideal) m ρ c (Proc.devRef .tc main_v10)) := Stretch5.new_v104 (W8 (F := Ideal) m ρ c)
  rw [step, at8_v10]
  try rfl

theorem at9_v105 : W9 (F := Ideal) m ρ c (Proc.devRef .tc main_v105) = asRow16 (bv m c) := by
  have step : W9 (F := Ideal) m ρ c (Proc.devRef .tc main_v105) = asRow16 (W8 (F := Ideal) m ρ c (Proc.devRef .tc main_arg7)) := Stretch5.new_v105 (W8 (F := Ideal) m ρ c)
  rw [step, at8_arg7]
  try rfl

theorem at9_v74 : W9 (F := Ideal) m ρ c (Proc.devRef .tc main_v74) = output (feat m c) (edges m c) (w1 m c) (b1 m c) (wm m c) (bm m c) := (Stretch5.keep_v74 (W8 (F := Ideal) m ρ c)).trans (at8_v74 m ρ c)

theorem at9_v75 : W9 (F := Ideal) m ρ c (Proc.devRef .tc main_v75) = prod (A := 100000) (K := 32) (M := 16) (hidden (feat m c) (sources (edges m c)) (targets (edges m c)) (factors (targets (edges m c))) (w1 m c) (b1 m c)) (wv m c) := (Stretch5.keep_v75 (W8 (F := Ideal) m ρ c)).trans (at8_v75 m ρ c)

theorem at10_v106 : W10 (F := Ideal) m ρ c (Proc.devRef .tc main_v106) = output (feat m c) (edges m c) (w1 m c) (b1 m c) (wv m c) (bv m c) := by
  have step : W10 (F := Ideal) m ρ c (Proc.devRef .tc main_v106) = shift (A := 100000) (M := 16) (selfAdd (A := 100000) (M := 16) (W9 (F := Ideal) m ρ c (Proc.devRef .tc main_v103) : S100000x16.Idx → EReal) (W9 (F := Ideal) m ρ c (Proc.devRef .tc main_v75) : S100000x16.Idx → EReal) (W9 (F := Ideal) m ρ c (Proc.devRef .tc main_v104) : S100000x1.Idx → EReal)) (W9 (F := Ideal) m ρ c (Proc.devRef .tc main_v105) : S1x16.Idx → EReal) :=
    (W10_arr (F := Ideal) m ρ c 4).trans (Region5.result (V9 (F := Ideal) m ρ) c)
  rw [step, at9_v103, at9_v75, at9_v104, at9_v105]
  try rfl

theorem at10_v74 : W10 (F := Ideal) m ρ c (Proc.devRef .tc main_v74) = output (feat m c) (edges m c) (w1 m c) (b1 m c) (wm m c) (bm m c) := (W10_of_ne (F := Ideal) m ρ c main_v74 (by decide)).trans (at9_v74 m ρ c)

end Cert.KernelIdeal.Boundaries

end
-- ==== Proof.ReferenceStages.lean ====
/-
  The reference program, stage by stage, is the network of Stages.lean.

  Its three `dot_general`s contract the columns of the left factor against the rows of the right one, so each is the
  matrix product.  In each layer the host squares the node factors as a vector, spreads them as a column and then
  along the rows, multiplies them into XW and adds the result to what the edges delivered (the self-loop sum), and
  adds the bias spread from a one-row matrix; the hidden layer then takes the maximum with a splat of zero.  The
  factors are recomputed in every layer from the same edge table: three spellings of one vector.
-/
import proofs.«140263_j12025908429199_1_alg».proof.Proof.Gen.ReferenceIdeal.Read
import proofs.«140263_j12025908429199_1_alg».proof.Proof.Stages

noncomputable section

namespace Cert.ReferenceIdeal.Staged

open Cert.ReferenceIdeal Cert.ReferenceIdeal.Read Cert.ReferenceIdeal.Facts₀ Idealize.ShloMosaic Cert.Dense Cert.SelfAdd Cert.Stages

/-- The first `dot_general`: features times the hidden layer's weights. -/
theorem product32 (x : (⟨S100000x256, .f32⟩ : BufTy).Contents (Elt Ideal)) (w : (⟨S256x32, .f32⟩ : BufTy).Contents (Elt Ideal)) :
    Host.dotGeneral (F := Ideal) (φ₁ := .f32) (φ₂ := .f32) dot_S100000x256_S256x32_S100000x32_1_0_0_1_n_n none x w = prod (A := 100000) (K := 256) (M := 32) x w :=
  dotGeneral_eq_prod (A := 100000) (K := 256) (M := 32) (φ₁ := .f32) (φ₂ := .f32) dot_S100000x256_S256x32_S100000x32_1_0_0_1_n_n rfl rfl
    lhs_main_v0_0 lhs_main_v0_1 rhs_main_v0_0 rhs_main_v0_1 none x w

/-- The heads' `dot_general`: the hidden layer times a head's weights. -/
theorem product16 (h : (⟨S100000x32, .f32⟩ : BufTy).Contents (Elt Ideal)) (w : (⟨S32x16, .f32⟩ : BufTy).Contents (Elt Ideal)) :
    Host.dotGeneral (F := Ideal) (φ₁ := .f32) (φ₂ := .f32) dot_S100000x32_S32x16_S100000x16_1_0_0_1_n_n none h w = prod (A := 100000) (K := 32) (M := 16) h w :=
  dotGeneral_eq_prod (A := 100000) (K := 32) (M := 16) (φ₁ := .f32) (φ₂ := .f32) dot_S100000x32_S32x16_S100000x16_1_0_0_1_n_n rfl rfl
    lhs_main_v49_0 lhs_main_v49_1 rhs_main_v49_0 rhs_main_v49_1 none h w

/-- The hidden layer as the reference spells it is the hidden layer. -/
theorem hidden_eq (x0 : (⟨S100000x256, .f32⟩ : BufTy).Contents (Elt Ideal)) (x1 : (⟨S2x3200000, .i32⟩ : BufTy).Contents (Elt Ideal))
    (x2 : (⟨S256x32, .f32⟩ : BufTy).Contents (Elt Ideal)) (x3 : (⟨S32, .f32⟩ : BufTy).Contents (Elt Ideal)) :
    val_main_v48 (F := Ideal) x0 x1 x2 x3 = hidden x0 (sources x1) (targets x1) (factors (targets x1)) x2 x3 := by
  have hrec : val_main_v39 (F := Ideal) x0 x1 x2
      = received32 (val_main_v0 (F := Ideal) x0 x2) (sources x1) (targets x1) (factors (targets x1)) := rfl
  have hfac : val_main_v11 (F := Ideal) x1 = factors (targets x1) := rfl
  have hprod : val_main_v0 (F := Ideal) x0 x2 = prod (A := 100000) (K := 256) (M := 32) x0 x2 := product32 x0 x2
  unfold val_main_v48 val_main_v47 val_main_v46 val_main_v45 val_main_v44 val_main_v43 val_main_v42 val_main_v41 val_main_v40
    val_main_call0_v0 val_main_call0_cst
  rw [hrec, hfac, hprod]
  rw [host_selfAdd (A := 100000) (M := 32) _ _ (factors (targets x1)) (by decide) bcast_S100000_S100000x1_0 bcast_S100000x1_S100000x32_0_1,
    host_act (A := 100000) (M := 32) _ _ bcast_S1x32_S100000x32_0_1 bcast_S_S100000x32,
    ← row_cast_eq_broadcast (n := 32) x3 (by decide) bcast_S32_S1x32_1]
  rfl

/-- The mean head as the reference spells it is the head of the hidden layer. -/
theorem mean_eq (x0 : (⟨S100000x256, .f32⟩ : BufTy).Contents (Elt Ideal)) (x1 : (⟨S2x3200000, .i32⟩ : BufTy).Contents (Elt Ideal))
    (x2 : (⟨S256x32, .f32⟩ : BufTy).Contents (Elt Ideal)) (x3 : (⟨S32, .f32⟩ : BufTy).Contents (Elt Ideal))
    (w : (⟨S32x16, .f32⟩ : BufTy).Contents (Elt Ideal)) (b : (⟨S16, .f32⟩ : BufTy).Contents (Elt Ideal)) :
    val_main_v96 (F := Ideal) x0 x1 x2 x3 w b = output x0 x1 x2 x3 w b := by
  have hrec : val_main_v88 (F := Ideal) x0 x1 x2 x3 w
      = received16 (val_main_v49 (F := Ideal) x0 x1 x2 x3 w) (sources x1) (targets x1) (factors (targets x1)) := rfl
  have hfac : val_main_v60 (F := Ideal) x1 = factors (targets x1) := rfl
  have hprod : val_main_v49 (F := Ideal) x0 x1 x2 x3 w
      = prod (hidden x0 (sources x1) (targets x1) (factors (targets x1)) x2 x3) w := by
    unfold val_main_v49
    rw [hidden_eq]
    exact product16 _ _
  unfold val_main_v96 val_main_v95 val_main_v94 val_main_v93 val_main_v92 val_main_v91 val_main_v90 val_main_v89
  rw [hrec, hfac, hprod]
  rw [host_selfAdd (A := 100000) (M := 16) _ _ (factors (targets x1)) (by decide) bcast_S100000_S100000x1_0 bcast_S100000x1_S100000x16_0_1,
    host_shift (A := 100000) (M := 16) _ _ bcast_S1x16_S100000x16_0_1,
    ← row_cast_eq_broadcast (n := 16) b (by decide) bcast_S16_S1x16_1]
  rfl

/-- The spread head as the reference spells it is the head of the hidden layer. -/
theorem spread_eq (x0 : (⟨S100000x256, .f32⟩ : BufTy).Contents (Elt Ideal)) (x1 : (⟨S2x3200000, .i32⟩ : BufTy).Contents (Elt Ideal))
    (x2 : (⟨S256x32, .f32⟩ : BufTy).Contents (Elt Ideal)) (x3 : (⟨S32, .f32⟩ : BufTy).Contents (Elt Ideal))
    (w : (⟨S32x16, .f32⟩ : BufTy).Contents (Elt Ideal)) (b : (⟨S16, .f32⟩ : BufTy).Contents (Elt Ideal)) :
    val_main_v144 (F := Ideal) x0 x1 x2 x3 w b = output x0 x1 x2 x3 w b := by
  have hrec : val_main_v136 (F := Ideal) x0 x1 x2 x3 w
      = received16 (val_main_v97 (F := Ideal) x0 x1 x2 x3 w) (sources x1) (targets x1) (factors (targets x1)) := rfl
  have hfac : val_main_v108 (F := Ideal) x1 = factors (targets x1) := rfl
  have hprod : val_main_v97 (F := Ideal) x0 x1 x2 x3 w
      = prod (hidden x0 (sources x1) (targets x1) (factors (targets x1)) x2 x3) w := by
    unfold val_main_v97
    rw [hidden_eq]
    exact product16 _ _
  unfold val_main_v144 val_main_v143 val_main_v142 val_main_v141 val_main_v140 val_main_v139 val_main_v138 val_main_v137
  rw [hrec, hfac, hprod]
  rw [host_selfAdd (A := 100000) (M := 16) _ _ (factors (targets x1)) (by decide) bcast_S100000_S100000x1_0 bcast_S100000x1_S100000x16_0_1,
    host_shift (A := 100000) (M := 16) _ _ bcast_S1x16_S100000x16_0_1,
    ← row_cast_eq_broadcast (n := 16) b (by decide) bcast_S16_S1x16_1]
  rfl

end Cert.ReferenceIdeal.Staged

end
-- ==== Proof.lean ====
/-
  The certificate of a two-layer graph-convolutional encoder on 100000 nodes and 3200000 edges: a hidden layer of 32
  features with a rectifier, then two heads of 16 features (a mean and a variance) over the same graph.

  Both programs compute, per layer, XW, then at every node the sum over incoming edges of the source's row of XW
  times the two end factors, plus the node's own row times its factor squared, plus a bias — the factor of a node
  being the reciprocal square root of one plus the number of edges that target it.  The kernel program runs the three
  transforms XW and the three per-node steps as six regions of ten row blocks each and leaves the gathers along edges
  and the accumulating scatters to host operations; the reference does everything in host operations and recomputes
  the factors in every layer.  On the extended reals the matrix unit's product into a zero accumulator and the host's
  dot_general are the same sum, the casts to bf16 are the identity, a block of rows of each dense step is that step
  on the block of rows, and the gathers and scatters are the same operations applied to equal arrays: the two
  programs' results are one function of the arguments (Stages.lean's `output`), with no appeal to finiteness.

  The frames of the two kernel programs are the generated ones; the reference's frame is its generated run with the
  results dropped; the idealization rewrote nothing, so that conjunct is trivial.
-/
import proofs.«140263_j12025908429199_1_alg».proof.Defs
import proofs.«140263_j12025908429199_1_alg».proof.Proof.Gen.Kernel
import proofs.«140263_j12025908429199_1_alg».proof.Proof.Gen.Kernel.Skeleton
import proofs.«140263_j12025908429199_1_alg».proof.Proof.Gen.Kernel.Launch
import proofs.«140263_j12025908429199_1_alg».proof.Proof.Gen.Kernel.Points
import proofs.«140263_j12025908429199_1_alg».proof.Proof.Gen.Kernel.Frame
import proofs.«140263_j12025908429199_1_alg».proof.Proof.Gen.KernelIdeal
import proofs.«140263_j12025908429199_1_alg».proof.Proof.Gen.KernelIdeal.Skeleton
import proofs.«140263_j12025908429199_1_alg».proof.Proof.Gen.KernelIdeal.Launch
import proofs.«140263_j12025908429199_1_alg».proof.Proof.Gen.KernelIdeal.Points
import proofs.«140263_j12025908429199_1_alg».proof.Proof.Gen.KernelIdeal.Frame
import proofs.«140263_j12025908429199_1_alg».proof.Proof.Gen.ReferenceIdeal
import proofs.«140263_j12025908429199_1_alg».proof.Proof.Gen.Pre_finite_inputs
import proofs.«140263_j12025908429199_1_alg».proof.Proof.Gen.ReferenceIdeal.Run
import proofs.«140263_j12025908429199_1_alg».proof.Proof.Gen.ReferenceIdeal.Read
import proofs.«140263_j12025908429199_1_alg».proof.Proof.KernelRun
import proofs.«140263_j12025908429199_1_alg».proof.Proof.KernelValue
import proofs.«140263_j12025908429199_1_alg».proof.Proof.ReferenceStages
import Idealize.ShloMosaic.Adequacy
import Idealize.ShloMosaic.Init

noncomputable section

namespace Cert.Proof

open Idealize.ShloMosaic Idealize.SL.Sem Cert.Stages

theorem frame_kernel : Cert.frame_Kernel := fun m ρ _ => Cert.Kernel.Gen.frame m ρ

theorem frame_kernelIdeal : Cert.frame_KernelIdeal := fun m ρ _ => Cert.KernelIdeal.Gen.frame m ρ

theorem frame_reference : Cert.frame_ReferenceIdeal := fun m ρ _ =>
  (θ_run Cert.ReferenceIdeal.defs _ _).mono (fun _ h c => (h c).2.2) (Cert.ReferenceIdeal.Value.run (F := Ideal) m ρ)

/-- Both programs end with the two heads of Stages.lean's network of their (agreeing) arguments. -/
theorem algebraic : Cert.algebraic_KernelIdeal_ReferenceIdeal := by
  intro m ρ m' ρ' _ hagree
  refine ⟨_, _, (θ_run Cert.KernelIdeal.defs _ _).mono
      (fun r h c => ⟨(h c).1.trans (Cert.KernelIdeal.Boundaries.at10_v74 m ρ c), (h c).2.1.trans (Cert.KernelIdeal.Boundaries.at10_v106 m ρ c), (h c).2.2⟩)
      (Cert.KernelIdeal.Outputs.run (F := Ideal) m ρ), ?_⟩
  refine (θ_run Cert.ReferenceIdeal.defs _ _).mono (fun r h c => ⟨?_, ?_, (h c).2.2⟩) (Cert.ReferenceIdeal.Value.run (F := Ideal) m' ρ')
  · rw [(h c).1, Cert.ReferenceIdeal.Read.val_main_v96_eq, Cert.ReferenceIdeal.Staged.mean_eq,
      (hagree c).1, (hagree c).2.1, (hagree c).2.2.1, (hagree c).2.2.2.1, (hagree c).2.2.2.2.1, (hagree c).2.2.2.2.2.1]
  · rw [(h c).2.1, Cert.ReferenceIdeal.Read.val_main_v144_eq, Cert.ReferenceIdeal.Staged.spread_eq,
      (hagree c).1, (hagree c).2.1, (hagree c).2.2.1, (hagree c).2.2.2.1, (hagree c).2.2.2.2.2.2.1, (hagree c).2.2.2.2.2.2.2]

theorem claim : Cert.Claim := ⟨Cert.Kernel.Gen.facts, Cert.KernelIdeal.Gen.facts, Cert.ReferenceIdeal.Gen.facts, Cert.Pre_finite_inputs.Gen.facts,
  frame_kernel, frame_kernelIdeal, frame_reference, trivial, algebraic⟩

end Cert.Proof

end
